-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x256x512 : Shape := ⟨3, ![2, 256, 512]⟩
abbrev S2x512x512 : Shape := ⟨3, ![2, 512, 512]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S2x256x512 : S_.BroadcastsInDim S2x256x512 (![] : Fin 0 → Fin S2x256x512.rank)
  reducesTo_S2x256x512_S_d0_1_2 : S2x256x512.ReducesTo [0, 1, 2] S_
  h_S_ : 0 < S_.numel
  bcast_S_S2x512x512 : S_.BroadcastsInDim S2x512x512 (![] : Fin 0 → Fin S2x512x512.rank)
  reducesTo_S2x512x512_S_d0_1_2 : S2x512x512.ReducesTo [0, 1, 2] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S512x256 .f32) (main_arg15 : FVec F S256 .f32) (main_arg16 : FVec F S256x1 .f32) (main_arg17 : FVec F S1 .f32) (main_v63 : IVec S_ 1) (main_v67 : IVec S_ 1) : IVec S_ 1 :=
  let main_v68 : IVec S_ 1 := andi main_v63 main_v67
  let main_v69 : FVec F S512x256 .f32 := Host.absf main_arg14
  let main_cst_26 : FVec F S_ .f32 := constant S_ .f32 0x7F800000#32
  let main_v70 : FVec F S512x256 .f32 := broadcastInDim S512x256 ![] bcast_S_S512x256 main_cst_26
  let main_v71 : IVec S512x256 1 := cmpf .olt main_v69 main_v70
  let main_c_27 : IVec S_ 1 := constantI S_ 1 1#1
  let main_v72 : IVec S_ 1 := (fun x v => Host.reduce IntOp.andi x v reducesTo_S512x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x1 .f32 := Host.absf main_arg16
  let main_cst_30 : FVec F S_ .f32 := constant S_ .f32 0x7F800000#32
  let main_v80 : FVec F S256x1 .f32 := broadcastInDim S256x1 ![] bcast_S_S256x1 main_cst_30
  let main_v81 : IVec S256x1 1 := cmpf .olt main_v79 main_v80
  let main_c_31 : IVec S_ 1 := constantI S_ 1 1#1
  let main_v82 : IVec S_ 1 := (fun x v => Host.reduce IntOp.andi x v reducesTo_S256x1_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S256 .f32) (main_arg12 : FVec F S256x1 .f32) (main_arg13 : FVec F S1 .f32) (main_arg14 : FVec F S512x256 .f32) (main_arg15 : FVec F S256 .f32) (main_arg16 : FVec F S256x1 .f32) (main_arg17 : FVec F S1 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x1 .f32 := Host.absf main_arg12
  let main_cst_22 : FVec F S_ .f32 := constant S_ .f32 0x7F800000#32
  let main_v60 : FVec F S256x1 .f32 := broadcastInDim S256x1 ![] bcast_S_S256x1 main_cst_22
  let main_v61 : IVec S256x1 1 := cmpf .olt main_v59 main_v60
  let main_c_23 : IVec S_ 1 := constantI S_ 1 1#1
  let main_v62 : IVec S_ 1 := (fun x v => Host.reduce IntOp.andi x v reducesTo_S256x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg14 main_arg15 main_arg16 main_arg17 main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x1 .f32) (main_arg13 : FVec F S1 .f32) (main_arg14 : FVec F S512x256 .f32) (main_arg15 : FVec F S256 .f32) (main_arg16 : FVec F S256x1 .f32) (main_arg17 : FVec F S1 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_v48 main_v49 main_v50

def fn_part1 {F : FTy → Type} [FloatOps F] (main_arg4 : FVec F S512x256 .f32) (main_arg5 : FVec F S256 .f32) (main_arg6 : FVec F S512x256 .f32) (main_arg7 : FVec F S256 .f32) (main_arg8 : FVec F S256x256 .f32) (main_arg9 : FVec F S256 .f32) (main_arg10 : FVec F S256x256 .f32) (main_arg11 : FVec F S256 .f32) (main_arg12 : FVec F S256x1 .f32) (main_arg13 : FVec F S1 .f32) (main_arg14 : FVec F S512x256 .f32) (main_arg15 : FVec F S256 .f32) (main_arg16 : FVec F S256x1 .f32) (main_arg17 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S2x256x512 .f32) (main_arg1 : FVec F S2x512x512 .f32) (main_arg2 : FVec F S512x256 .f32) (main_arg3 : FVec F S256 .f32) (main_arg4 : FVec F S512x256 .f32) (main_arg5 : FVec F S256 .f32) (main_arg6 : FVec F S512x256 .f32) (main_arg7 : FVec F S256 .f32) (main_arg8 : FVec F S256x256 .f32) (main_arg9 : FVec F S256 .f32) (main_arg10 : FVec F S256x256 .f32) (main_arg11 : FVec F S256 .f32) (main_arg12 : FVec F S256x1 .f32) (main_arg13 : FVec F S1 .f32) (main_arg14 : FVec F S512x256 .f32) (main_arg15 : FVec F S256 .f32) (main_arg16 : FVec F S256x1 .f32) (main_arg17 : FVec F S1 .f32) : IVec S_ 1 :=
  let main_v0 : FVec F S2x256x512 .f32 := Host.absf main_arg0
  let main_cst : FVec F S_ .f32 := constant S_ .f32 0x7F800000#32
  let main_v1 : FVec F S2x256x512 .f32 := broadcastInDim S2x256x512 ![] bcast_S_S2x256x512 main_cst
  let main_v2 : IVec S2x256x512 1 := cmpf .olt main_v0 main_v1
  let main_c : IVec S_ 1 := constantI S_ 1 1#1
  let main_v3 : IVec S_ 1 := (fun x v => Host.reduce IntOp.andi x v reducesTo_S2x256x512_S_d0_1_2 h_S_) main_v2 main_c
  let main_v4 : FVec F S2x512x512 .f32 := Host.absf main_arg1
  let main_cst_0 : FVec F S_ .f32 := constant S_ .f32 0x7F800000#32
  let main_v5 : FVec F S2x512x512 .f32 := broadcastInDim S2x512x512 ![] bcast_S_S2x512x512 main_cst_0
  let main_v6 : IVec S2x512x512 1 := cmpf .olt main_v4 main_v5
  let main_c_1 : IVec S_ 1 := constantI S_ 1 1#1
  let main_v7 : IVec S_ 1 := (fun x v => Host.reduce IntOp.andi x v reducesTo_S2x512x512_S_d0_1_2 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S2x256x512 : Shape := ⟨3, ![2, 256, 512]⟩
abbrev S2x512x512 : Shape := ⟨3, ![2, 512, 512]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S2x256x256 : Shape := ⟨3, ![2, 256, 256]⟩
abbrev S2x512x256 : Shape := ⟨3, ![2, 512, 256]⟩
abbrev S1x256x512 : Shape := ⟨3, ![1, 256, 512]⟩
abbrev S1x512x512 : Shape := ⟨3, ![1, 512, 512]⟩
abbrev S1x256x256 : Shape := ⟨3, ![1, 256, 256]⟩
abbrev S1x512x256 : Shape := ⟨3, ![1, 512, 256]⟩
abbrev S256x512 : Shape := ⟨2, ![256, 512]⟩
abbrev S512x512 : Shape := ⟨2, ![512, 512]⟩
abbrev S1x256 : Shape := ⟨2, ![1, 256]⟩
abbrev S1x32x256 : Shape := ⟨3, ![1, 32, 256]⟩
abbrev S1x128x256 : Shape := ⟨3, ![1, 128, 256]⟩
abbrev S1x32x128 : Shape := ⟨3, ![1, 32, 128]⟩
abbrev S32x256 : Shape := ⟨2, ![32, 256]⟩
abbrev S128x256 : Shape := ⟨2, ![128, 256]⟩
abbrev S32x1x256 : Shape := ⟨3, ![32, 1, 256]⟩
abbrev S32x128x256 : Shape := ⟨3, ![32, 128, 256]⟩
abbrev S4096x256 : Shape := ⟨2, ![4096, 256]⟩
abbrev S1x1x256 : Shape := ⟨3, ![1, 1, 256]⟩
abbrev S32x128 : Shape := ⟨2, ![32, 128]⟩

abbrev nBuf : Space → Nat
  | .hbm => 28
  | .vmem => 42
  | .smem => 0
  | _ => 0

abbrev bufTy : (tb : Table) → Fin (tcTables nBuf tb) → BufTy
  | .hbm, ⟨0, _⟩ => ⟨S2x256x512, .f32⟩
  | .hbm, ⟨1, _⟩ => ⟨S2x512x512, .f32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x1, .f32⟩
  | .hbm, ⟨13, _⟩ => ⟨S1, .f32⟩
  | .hbm, ⟨14, _⟩ => ⟨S512x256, .f32⟩
  | .hbm, ⟨15, _⟩ => ⟨S256, .f32⟩
  | .hbm, ⟨16, _⟩ => ⟨S256x1, .f32⟩
  | .hbm, ⟨17, _⟩ => ⟨S1, .f32⟩
  | .hbm, ⟨18, _⟩ => ⟨S256x256, .f32⟩
  | .hbm, ⟨19, _⟩ => ⟨S256x256, .f32⟩
  | .hbm, ⟨20, _⟩ => ⟨S256x256, .f32⟩
  | .hbm, ⟨21, _⟩ => ⟨S256x256, .f32⟩
  | .hbm, ⟨22, _⟩ => ⟨S2x256x256, .bf16⟩
  | .hbm, ⟨23, _⟩ => ⟨S2x512x256, .bf16⟩
  | .hbm, ⟨24, _⟩ => ⟨S2x256x256, .f32⟩
  | .hbm, ⟨25, _⟩ => ⟨S2x512x256, .f32⟩
  | .hbm, ⟨26, _⟩ => ⟨S2x256x512, .f32⟩
  | .hbm, ⟨27, _⟩ => ⟨S2x256x512, .f32⟩
  | .local _ .vmem, ⟨0, _⟩ => ⟨S1x256x512, .f32⟩
  | .local _ .vmem, ⟨1, _⟩ => ⟨S1x256x512, .f32⟩
  | .local _ .vmem, ⟨2, _⟩ => ⟨S1x512x512, .f32⟩
  | .local _ .vmem, ⟨3, _⟩ => ⟨S1x512x512, .f32⟩
  | .local _ .vmem, ⟨4, _⟩ => ⟨S512x256, .f32⟩
  | .local _ .vmem, ⟨5, _⟩ => ⟨S256, .f32⟩
  | .local _ .vmem, ⟨6, _⟩ => ⟨S512x256, .f32⟩
  | .local _ .vmem, ⟨7, _⟩ => ⟨S256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256, .f32⟩
  | .local _ .vmem, ⟨13, _⟩ => ⟨S256, .f32⟩
  | .local _ .vmem, ⟨14, _⟩ => ⟨S1x256x256, .bf16⟩
  | .local _ .vmem, ⟨15, _⟩ => ⟨S1x256x256, .bf16⟩
  | .local _ .vmem, ⟨16, _⟩ => ⟨S1x512x256, .bf16⟩
  | .local _ .vmem, ⟨17, _⟩ => ⟨S1x512x256, .bf16⟩
  | .local _ .vmem, ⟨18, _⟩ => ⟨S1x256x256, .f32⟩
  | .local _ .vmem, ⟨19, _⟩ => ⟨S1x256x256, .f32⟩
  | .local _ .vmem, ⟨20, _⟩ => ⟨S1x512x256, .f32⟩
  | .local _ .vmem, ⟨21, _⟩ => ⟨S1x512x256, .f32⟩
  | .local _ .vmem, ⟨22, _⟩ => ⟨S1x32x256, .bf16⟩
  | .local _ .vmem, ⟨23, _⟩ => ⟨S1x32x256, .bf16⟩
  | .local _ .vmem, ⟨24, _⟩ => ⟨S1x128x256, .bf16⟩
  | .local _ .vmem, ⟨25, _⟩ => ⟨S1x128x256, .bf16⟩
  | .local _ .vmem, ⟨26, _⟩ => ⟨S1x32x256, .f32⟩
  | .local _ .vmem, ⟨27, _⟩ => ⟨S1x32x256, .f32⟩
  | .local _ .vmem, ⟨28, _⟩ => ⟨S1x128x256, .f32⟩
  | .local _ .vmem, ⟨29, _⟩ => ⟨S1x128x256, .f32⟩
  | .local _ .vmem, ⟨30, _⟩ => ⟨S256x256, .f32⟩
  | .local _ .vmem, ⟨31, _⟩ => ⟨S256, .f32⟩
  | .local _ .vmem, ⟨32, _⟩ => ⟨S256x256, .f32⟩
  | .local _ .vmem, ⟨33, _⟩ => ⟨S256, .f32⟩
  | .local _ .vmem, ⟨34, _⟩ => ⟨S256x1, .f32⟩
  | .local _ .vmem, ⟨35, _⟩ => ⟨S256x1, .f32⟩
  | .local _ .vmem, ⟨36, _⟩ => ⟨S1, .f32⟩
  | .local _ .vmem, ⟨37, _⟩ => ⟨S1, .f32⟩
  | .local _ .vmem, ⟨38, _⟩ => ⟨S1x32x128, .f32⟩
  | .local _ .vmem, ⟨39, _⟩ => ⟨S1x32x128, .f32⟩
  | .local _ .vmem, ⟨40, _⟩ => ⟨S1x32x128, .f32⟩
  | .local _ .vmem, ⟨41, _⟩ => ⟨S1x32x128, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4_0 : Ref sig .tc := ⟨.hbm, 22, rfl⟩
abbrev main_v4_1 : Ref sig .tc := ⟨.hbm, 23, rfl⟩
abbrev main_v4_2 : Ref sig .tc := ⟨.hbm, 24, rfl⟩
abbrev main_v4_3 : Ref sig .tc := ⟨.hbm, 25, rfl⟩
abbrev main_v5_0 : Ref sig .tc := ⟨.hbm, 26, rfl⟩
abbrev main_v5_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_stg4_0 : Ref sig .tc := ⟨.vmem, 30, rfl⟩
abbrev cc1_stg5_0 : Ref sig .tc := ⟨.vmem, 31, rfl⟩
abbrev cc1_stg6_0 : Ref sig .tc := ⟨.vmem, 32, rfl⟩
abbrev cc1_stg7_0 : Ref sig .tc := ⟨.vmem, 33, rfl⟩
abbrev cc1_stg8_0 : Ref sig .tc := ⟨.vmem, 34, rfl⟩
abbrev cc1_stg9_0 : Ref sig .tc := ⟨.vmem, 35, rfl⟩
abbrev cc1_stg10_0 : Ref sig .tc := ⟨.vmem, 36, rfl⟩
abbrev cc1_stg11_0 : Ref sig .tc := ⟨.vmem, 37, rfl⟩
abbrev cc1_stg12_0 : Ref sig .tc := ⟨.vmem, 38, rfl⟩
abbrev cc1_stg12_1 : Ref sig .tc := ⟨.vmem, 39, rfl⟩
abbrev cc1_stg13_0 : Ref sig .tc := ⟨.vmem, 40, rfl⟩
abbrev cc1_stg13_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29
abbrev cc1_sem4_0 : DmaSem sig := 30
abbrev cc1_sem5_0 : DmaSem sig := 31
abbrev cc1_sem6_0 : DmaSem sig := 32
abbrev cc1_sem7_0 : DmaSem sig := 33
abbrev cc1_sem8_0 : DmaSem sig := 34
abbrev cc1_sem9_0 : DmaSem sig := 35
abbrev cc1_sem10_0 : DmaSem sig := 36
abbrev cc1_sem11_0 : DmaSem sig := 37
abbrev cc1_sem12_0 : DmaSem sig := 38
abbrev cc1_sem12_1 : DmaSem sig := 39
abbrev cc1_sem13_0 : DmaSem sig := 40
abbrev cc1_sem13_1 : DmaSem sig := 41

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev grid1 : Pipeline.Grid := ⟨3, ![2, 8, 4], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_11 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_12 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_13 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage1_0 : Fin 2 → Memref sig .tc .vmem S1x32x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x128x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x32x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 1 → Memref sig .tc .vmem S256x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false, false]

abbrev stage1_7 : Fin 1 → Memref sig .tc .vmem S256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false, false]

abbrev stage1_8 : Fin 1 → Memref sig .tc .vmem S256x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false, false]

abbrev stage1_9 : Fin 1 → Memref sig .tc .vmem S256x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false, false]

abbrev stage1_10 : Fin 1 → Memref sig .tc .vmem S1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false, false]

abbrev stage1_11 : Fin 1 → Memref sig .tc .vmem S1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false, false]

abbrev stage1_12 : Fin 2 → Memref sig .tc .vmem S1x32x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true, true]

abbrev stage1_13 : Fin 2 → Memref sig .tc .vmem S1x32x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true, true]

class Facts₀ : Prop where
  slices_S512x256_S256x256_0_0 : S512x256.Slices ![0, 0] S256x256
  slices_S512x256_S256x256_256_0 : S512x256.Slices ![256, 0] S256x256
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  bitsLt_bf16_f32 : FTy.bits .bf16 < FTy.bits .f32
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S512x256_S512x256_0_0 : ∀ a, (![0, 0] : Fin 2 → Nat) a + S512x256.size a ≤ S512x256.size a
  h_S512x256 : 0 < S512x256.numel
  inb_S256_S256_0 : ∀ a, (![0] : Fin 1 → Nat) a + S256.size a ≤ S256.size a
  h_S256 : 0 < S256.numel
  shapeCasts_S256_S1x256 : S256.ShapeCasts S1x256
  broadcasts_S1x256_S256x256 : S1x256.Broadcasts S256x256
  broadcasts_S1x256_S512x256 : S1x256.Broadcasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  packedbf16_S1x256x256_S1x256x256_0_0_0 : (Rect.unit (s := S1x256x256) ![0, 0, 0] S1x256x256.size inb_S1x256x256_S1x256x256_0_0_0).PackedRows (EltTy.packing .bf16)
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  packedbf16_S1x512x256_S1x512x256_0_0_0 : (Rect.unit (s := S1x512x256) ![0, 0, 0] S1x512x256.size inb_S1x512x256_S1x512x256_0_0_0).PackedRows (EltTy.packing .bf16)
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  inb_S1_S1_0 : ∀ a, (![0] : Fin 1 → Nat) a + S1.size a ≤ S1.size a
  h_S1 : 0 < S1.numel
  inpos_S1_p0 : ∀ a, (![0] : Fin 1 → Nat) a < S1.size a
  inb_S256x1_S256x1_0_0 : ∀ a, (![0, 0] : Fin 2 → Nat) a + S256x1.size a ≤ S256x1.size a
  h_S256x1 : 0 < S256x1.numel
  shapeCasts_S256x1_S256 : S256x1.ShapeCasts S256
  shapeCasts_S32x256_S32x1x256 : S32x256.ShapeCasts S32x1x256
  shapeCasts_S128x256_S1x128x256 : S128x256.ShapeCasts S1x128x256
  broadcasts_S32x1x256_S32x128x256 : S32x1x256.Broadcasts S32x128x256
  broadcasts_S1x128x256_S32x128x256 : S1x128x256.Broadcasts S32x128x256
  shapeCasts_S32x128x256_S4096x256 : S32x128x256.ShapeCasts S4096x256
  broadcasts_S1x256_S4096x256 : S1x256.Broadcasts S4096x256
  shapeCasts_S4096x256_S32x128x256 : S4096x256.ShapeCasts S32x128x256
  shapeCasts_S256_S1x1x256 : S256.ShapeCasts S1x1x256
  broadcasts_S1x1x256_S32x128x256 : S1x1x256.Broadcasts S32x128x256
  reduces_S32x128x256_S32x128 : S32x128x256.Reduces [2] S32x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S32x128_S1x32x128 : S32x128.ShapeCasts S1x32x128
  dot_S256x512_S512x256_S256x256_1_0_0_1_n_n_wf : DotDims.WF S256x512 S512x256 S256x256 [1] [0] [0] [1] [] []
  dot_S512x512_S512x256_S512x256_1_0_0_1_n_n_wf : DotDims.WF S512x512 S512x256 S512x256 [1] [0] [0] [1] [] []
  dot_S256x256_S256x256_S256x256_1_0_0_1_n_n_wf : DotDims.WF S256x256 S256x256 S256x256 [1] [0] [0] [1] [] []
  dot_S512x256_S256x256_S512x256_1_0_0_1_n_n_wf : DotDims.WF S512x256 S256x256 S512x256 [1] [0] [0] [1] [] []
  dot_S4096x256_S256x256_S4096x256_1_0_0_1_n_n_wf : DotDims.WF S4096x256 S256x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S2x256x512.size a
  hwx0_0 : ∀ i : grid0.Coords, EltTy.bits .f32 = 32 ∨ (Rect.block (s := S2x256x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S2x512x512.size a
  hwx0_1 : ∀ i : grid0.Coords, EltTy.bits .f32 = 32 ∨ (Rect.block (s := S2x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S512x256.size a
  hwx0_2 : ∀ i : grid0.Coords, EltTy.bits .f32 = 32 ∨ (Rect.block (s := S512x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256.size a ≤ S256.size a
  hwx0_11 : ∀ i : grid0.Coords, EltTy.bits .f32 = 32 ∨ (Rect.block (s := S256) S256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256x256.size a ≤ S2x256x256.size a
  hwx0_12 : ∀ i : grid0.Coords, EltTy.bits .bf16 = 32 ∨ (Rect.block (s := S2x256x256) S1x256x256.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x512x256.size a ≤ S2x512x256.size a
  hwx0_13 : ∀ i : grid0.Coords, EltTy.bits .bf16 = 32 ∨ (Rect.block (s := S2x512x256) S1x512x256.size (cc0_transform_13 i) (hinb0_13 i)).WholeWords (EltTy.packing .bf16)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256x256.size a ≤ S2x256x256.size a
  hwx0_14 : ∀ i : grid0.Coords, EltTy.bits .f32 = 32 ∨ (Rect.block (s := S2x256x256) S1x256x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x512x256.size a ≤ S2x512x256.size a
  hwx0_15 : ∀ i : grid0.Coords, EltTy.bits .f32 = 32 ∨ (Rect.block (s := S2x512x256) S1x512x256.size (cc0_transform_15 i) (hinb0_15 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x256.size a ≤ S2x256x256.size a
  hwx1_0 : ∀ i : grid1.Coords, EltTy.bits .bf16 = 32 ∨ (Rect.block (s := S2x256x256) S1x32x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x256.size a ≤ S2x512x256.size a
  hwx1_1 : ∀ i : grid1.Coords, EltTy.bits .bf16 = 32 ∨ (Rect.block (s := S2x512x256) S1x128x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x32x256.size a ≤ S2x256x256.size a
  hwx1_2 : ∀ i : grid1.Coords, EltTy.bits .f32 = 32 ∨ (Rect.block (s := S2x256x256) S1x32x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x256.size a ≤ S2x512x256.size a
  hwx1_3 : ∀ i : grid1.Coords, EltTy.bits .f32 = 32 ∨ (Rect.block (s := S2x512x256) S1x128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256x256.size a ≤ S256x256.size a
  hwx1_6 : ∀ i : grid1.Coords, EltTy.bits .f32 = 32 ∨ (Rect.block (s := S256x256) S256x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S256.size a ≤ S256.size a
  hwx1_7 : ∀ i : grid1.Coords, EltTy.bits .f32 = 32 ∨ (Rect.block (s := S256) S256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x1.size a ≤ S256x1.size a
  hwx1_8 : ∀ i : grid1.Coords, EltTy.bits .f32 = 32 ∨ (Rect.block (s := S256x1) S256x1.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256x1.size a ≤ S256x1.size a
  hwx1_9 : ∀ i : grid1.Coords, EltTy.bits .f32 = 32 ∨ (Rect.block (s := S256x1) S256x1.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1.size a ≤ S1.size a
  hwx1_10 : ∀ i : grid1.Coords, EltTy.bits .f32 = 32 ∨ (Rect.block (s := S1) S1.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1.size a ≤ S1.size a
  hwx1_11 : ∀ i : grid1.Coords, EltTy.bits .f32 = 32 ∨ (Rect.block (s := S1) S1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S1x32x128.size a ≤ S2x256x512.size a
  hwx1_12 : ∀ i : grid1.Coords, EltTy.bits .f32 = 32 ∨ (Rect.block (s := S2x256x512) S1x32x128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S1x32x128.size a ≤ S2x256x512.size a
  hwx1_13 : ∀ i : grid1.Coords, EltTy.bits .f32 = 32 ∨ (Rect.block (s := S2x256x512) S1x32x128.size (cc1_transform_13 i) (hinb1_13 i)).WholeWords (EltTy.packing .f32)

variable [Facts₀]

def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf

abbrev win0_0 : Pipeline.Window sig grid0 :=
  Pipeline.Window.ofSpec (Memref.whole main_arg0) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg7) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg15) S256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v4_0) S1x256x256.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v4_1) S1x512x256.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v4_2) S1x256x256.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v4_3) S1x512x256.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev win1_0 : Pipeline.Window sig grid1 :=
  Pipeline.Window.ofSpec (Memref.whole main_v4_0) S1x32x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_1) S1x128x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_2) S1x32x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4_3) S1x128x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S256x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg12) S256x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg16) S256x1.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg17) S1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg13) S1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v5_0) S1x32x128.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v5_1) S1x32x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S2x256x512 : Shape := ⟨3, ![2, 256, 512]⟩
abbrev S2x512x512 : Shape := ⟨3, ![2, 512, 512]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S2x256x256 : Shape := ⟨3, ![2, 256, 256]⟩
abbrev S1x1x256 : Shape := ⟨3, ![1, 1, 256]⟩
abbrev S_ : Shape := ⟨0, ![]⟩
abbrev S2x512x256 : Shape := ⟨3, ![2, 512, 256]⟩
abbrev S2x256x1x256 : Shape := ⟨4, ![2, 256, 1, 256]⟩
abbrev S2x1x512x256 : Shape := ⟨4, ![2, 1, 512, 256]⟩
abbrev S2x256x512x256 : Shape := ⟨4, ![2, 256, 512, 256]⟩
abbrev S1x1x1x256 : Shape := ⟨4, ![1, 1, 1, 256]⟩
abbrev S2x256x512x1 : Shape := ⟨4, ![2, 256, 512, 1]⟩
abbrev S1x1x1x1 : Shape := ⟨4, ![1, 1, 1, 1]⟩

abbrev nBuf : Space → Nat
  | .hbm => 100
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S2x512x512, .f32⟩
  | .hbm, ⟨2, _⟩ => ⟨S512x256, .f32⟩
  | .hbm, ⟨3, _⟩ => ⟨S256, .f32⟩
  | .hbm, ⟨4, _⟩ => ⟨S512x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x1, .f32⟩
  | .hbm, ⟨13, _⟩ => ⟨S1, .f32⟩
  | .hbm, ⟨14, _⟩ => ⟨S512x256, .f32⟩
  | .hbm, ⟨15, _⟩ => ⟨S256, .f32⟩
  | .hbm, ⟨16, _⟩ => ⟨S256x1, .f32⟩
  | .hbm, ⟨17, _⟩ => ⟨S1, .f32⟩
  | .hbm, ⟨18, _⟩ => ⟨S2x256x256, .f32⟩
  | .hbm, ⟨19, _⟩ => ⟨S1x1x256, .f32⟩
  | .hbm, ⟨20, _⟩ => ⟨S2x256x256, .f32⟩
  | .hbm, ⟨21, _⟩ => ⟨S2x256x256, .f32⟩
  | .hbm, ⟨22, _⟩ => ⟨S_, .f32⟩
  | .hbm, ⟨23, _⟩ => ⟨S2x256x256, .f32⟩
  | .hbm, ⟨24, _⟩ => ⟨S2x256x256, .f32⟩
  | .hbm, ⟨25, _⟩ => ⟨S2x512x256, .f32⟩
  | .hbm, ⟨26, _⟩ => ⟨S1x1x256, .f32⟩
  | .hbm, ⟨27, _⟩ => ⟨S2x512x256, .f32⟩
  | .hbm, ⟨28, _⟩ => ⟨S2x512x256, .f32⟩
  | .hbm, ⟨29, _⟩ => ⟨S_, .f32⟩
  | .hbm, ⟨30, _⟩ => ⟨S2x512x256, .f32⟩
  | .hbm, ⟨31, _⟩ => ⟨S2x512x256, .f32⟩
  | .hbm, ⟨32, _⟩ => ⟨S256x256, .f32⟩
  | .hbm, ⟨33, _⟩ => ⟨S2x256x256, .f32⟩
  | .hbm, ⟨34, _⟩ => ⟨S256x256, .f32⟩
  | .hbm, ⟨35, _⟩ => ⟨S2x512x256, .f32⟩
  | .hbm, ⟨36, _⟩ => ⟨S2x256x1x256, .f32⟩
  | .hbm, ⟨37, _⟩ => ⟨S2x1x512x256, .f32⟩
  | .hbm, ⟨38, _⟩ => ⟨S2x256x512x256, .f32⟩
  | .hbm, ⟨39, _⟩ => ⟨S2x256x512x256, .f32⟩
  | .hbm, ⟨40, _⟩ => ⟨S2x256x512x256, .f32⟩
  | .hbm, ⟨41, _⟩ => ⟨S1x1x1x256, .f32⟩
  | .hbm, ⟨42, _⟩ => ⟨S2x256x512x256, .f32⟩
  | .hbm, ⟨43, _⟩ => ⟨S2x256x512x256, .f32⟩
  | .hbm, ⟨44, _⟩ => ⟨S_, .f32⟩
  | .hbm, ⟨45, _⟩ => ⟨S2x256x512x256, .f32⟩
  | .hbm, ⟨46, _⟩ => ⟨S2x256x512x256, .f32⟩
  | .hbm, ⟨47, _⟩ => ⟨S2x256x512x256, .f32⟩
  | .hbm, ⟨48, _⟩ => ⟨S1x1x1x256, .f32⟩
  | .hbm, ⟨49, _⟩ => ⟨S2x256x512x256, .f32⟩
  | .hbm, ⟨50, _⟩ => ⟨S2x256x512x256, .f32⟩
  | .hbm, ⟨51, _⟩ => ⟨S_, .f32⟩
  | .hbm, ⟨52, _⟩ => ⟨S2x256x512x256, .f32⟩
  | .hbm, ⟨53, _⟩ => ⟨S2x256x512x256, .f32⟩
  | .hbm, ⟨54, _⟩ => ⟨S2x256x512x256, .f32⟩
  | .hbm, ⟨55, _⟩ => ⟨S1x1x1x256, .f32⟩
  | .hbm, ⟨56, _⟩ => ⟨S2x256x512x256, .f32⟩
  | .hbm, ⟨57, _⟩ => ⟨S2x256x512x256, .f32⟩
  | .hbm, ⟨58, _⟩ => ⟨S_, .f32⟩
  | .hbm, ⟨59, _⟩ => ⟨S2x256x512x256, .f32⟩
  | .hbm, ⟨60, _⟩ => ⟨S2x256x512x256, .f32⟩
  | .hbm, ⟨61, _⟩ => ⟨S2x256x512x1, .f32⟩
  | .hbm, ⟨62, _⟩ => ⟨S1x1x1x1, .f32⟩
  | .hbm, ⟨63, _⟩ => ⟨S2x256x512x1, .f32⟩
  | .hbm, ⟨64, _⟩ => ⟨S2x256x512x1, .f32⟩
  | .hbm, ⟨65, _⟩ => ⟨S2x256x512, .f32⟩
  | .hbm, ⟨66, _⟩ => ⟨S256x256, .f32⟩
  | .hbm, ⟨67, _⟩ => ⟨S2x256x256, .f32⟩
  | .hbm, ⟨68, _⟩ => ⟨S256x256, .f32⟩
  | .hbm, ⟨69, _⟩ => ⟨S2x512x256, .f32⟩
  | .hbm, ⟨70, _⟩ => ⟨S2x256x1x256, .f32⟩
  | .hbm, ⟨71, _⟩ => ⟨S2x1x512x256, .f32⟩
  | .hbm, ⟨72, _⟩ => ⟨S2x256x512x256, .f32⟩
  | .hbm, ⟨73, _⟩ => ⟨S2x256x512x256, .f32⟩
  | .hbm, ⟨74, _⟩ => ⟨S2x256x512x256, .f32⟩
  | .hbm, ⟨75, _⟩ => ⟨S1x1x1x256, .f32⟩
  | .hbm, ⟨76, _⟩ => ⟨S2x256x512x256, .f32⟩
  | .hbm, ⟨77, _⟩ => ⟨S2x256x512x256, .f32⟩
  | .hbm, ⟨78, _⟩ => ⟨S_, .f32⟩
  | .hbm, ⟨79, _⟩ => ⟨S2x256x512x256, .f32⟩
  | .hbm, ⟨80, _⟩ => ⟨S2x256x512x256, .f32⟩
  | .hbm, ⟨81, _⟩ => ⟨S2x256x512x1, .f32⟩
  | .hbm, ⟨82, _⟩ => ⟨S1x1x1x1, .f32⟩
  | .hbm, ⟨83, _⟩ => ⟨S2x256x512x1, .f32⟩
  | .hbm, ⟨84, _⟩ => ⟨S2x256x512x1, .f32⟩
  | .hbm, ⟨85, _⟩ => ⟨S2x256x512, .f32⟩
  | .hbm, ⟨86, _⟩ => ⟨S_, .f32⟩
  | .hbm, ⟨87, _⟩ => ⟨S2x256x512, .f32⟩
  | .hbm, ⟨88, _⟩ => ⟨S2x256x512, .f32⟩
  | .hbm, ⟨89, _⟩ => ⟨S2x256x512, .f32⟩
  | .hbm, ⟨90, _⟩ => ⟨S2x256x512, .f32⟩
  | .hbm, ⟨91, _⟩ => ⟨S2x256x512, .i1⟩
  | .hbm, ⟨92, _⟩ => ⟨S2x256x512, .f32⟩
  | .hbm, ⟨93, _⟩ => ⟨S2x256x512, .f32⟩
  | .hbm, ⟨94, _⟩ => ⟨S2x256x512, .f32⟩
  | .hbm, ⟨95, _⟩ => ⟨S2x256x512, .f32⟩
  | .hbm, ⟨96, _⟩ => ⟨S2x256x512, .f32⟩
  | .hbm, ⟨97, _⟩ => ⟨S2x256x512, .f32⟩
  | .hbm, ⟨98, _⟩ => ⟨S2x256x512, .f32⟩
  | .hbm, ⟨99, _⟩ => ⟨S2x256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call2_cst : Ref sig .tc := ⟨.hbm, 44, rfl⟩
abbrev main_call2_v0 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_call3_cst : Ref sig .tc := ⟨.hbm, 51, rfl⟩
abbrev main_call3_v0 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_call4_cst : Ref sig .tc := ⟨.hbm, 58, rfl⟩
abbrev main_call4_v0 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_call5_cst : Ref sig .tc := ⟨.hbm, 78, rfl⟩
abbrev main_call5_v0 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call6_cst : Ref sig .tc := ⟨.hbm, 86, rfl⟩
abbrev main_call6_v0 : Ref sig .tc := ⟨.hbm, 87, rfl⟩
abbrev main_call6_v1 : Ref sig .tc := ⟨.hbm, 88, rfl⟩
abbrev main_call6_v2 : Ref sig .tc := ⟨.hbm, 89, rfl⟩
abbrev main_call6_v3 : Ref sig .tc := ⟨.hbm, 90, rfl⟩
abbrev main_call6_v4 : Ref sig .tc := ⟨.hbm, 91, rfl⟩
abbrev main_call6_v5 : Ref sig .tc := ⟨.hbm, 92, rfl⟩
abbrev main_call6_v6 : Ref sig .tc := ⟨.hbm, 93, rfl⟩
abbrev main_call6_v7 : Ref sig .tc := ⟨.hbm, 94, rfl⟩
abbrev main_call6_v8 : Ref sig .tc := ⟨.hbm, 95, rfl⟩
abbrev main_call6_v9 : Ref sig .tc := ⟨.hbm, 96, rfl⟩
abbrev main_call6_v10 : Ref sig .tc := ⟨.hbm, 97, rfl⟩
abbrev main_call6_v11 : Ref sig .tc := ⟨.hbm, 98, rfl⟩
abbrev main_v56 : Ref sig .tc := ⟨.hbm, 99, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S2x256x256_0_1_2 : S1x1x256.BroadcastsInDim S2x256x256 (![0, 1, 2] : Fin 3 → Fin S2x256x256.rank)
  bcast_S_S2x256x256 : S_.BroadcastsInDim S2x256x256 (![] : Fin 0 → Fin S2x256x256.rank)
  bcast_S1x1x256_S2x512x256_0_1_2 : S1x1x256.BroadcastsInDim S2x512x256 (![0, 1, 2] : Fin 3 → Fin S2x512x256.rank)
  bcast_S_S2x512x256 : S_.BroadcastsInDim S2x512x256 (![] : Fin 0 → Fin S2x512x256.rank)
  slices_S512x256_S256x256_0_0 : S512x256.Slices ![0, 0] S256x256
  slices_S512x256_S256x256_256_0 : S512x256.Slices ![256, 0] S256x256
  bcast_S2x256x256_S2x256x1x256_0_1_3 : S2x256x256.BroadcastsInDim S2x256x1x256 (![0, 1, 3] : Fin 3 → Fin S2x256x1x256.rank)
  bcast_S2x512x256_S2x1x512x256_0_2_3 : S2x512x256.BroadcastsInDim S2x1x512x256 (![0, 2, 3] : Fin 3 → Fin S2x1x512x256.rank)
  bcast_S2x256x1x256_S2x256x512x256_0_1_2_3 : S2x256x1x256.BroadcastsInDim S2x256x512x256 (![0, 1, 2, 3] : Fin 4 → Fin S2x256x512x256.rank)
  bcast_S2x1x512x256_S2x256x512x256_0_1_2_3 : S2x1x512x256.BroadcastsInDim S2x256x512x256 (![0, 1, 2, 3] : Fin 4 → Fin S2x256x512x256.rank)
  bcast_S256_S1x1x1x256_3 : S256.BroadcastsInDim S1x1x1x256 (![3] : Fin 1 → Fin S1x1x1x256.rank)
  bcast_S1x1x1x256_S2x256x512x256_0_1_2_3 : S1x1x1x256.BroadcastsInDim S2x256x512x256 (![0, 1, 2, 3] : Fin 4 → Fin S2x256x512x256.rank)
  bcast_S_S2x256x512x256 : S_.BroadcastsInDim S2x256x512x256 (![] : Fin 0 → Fin S2x256x512x256.rank)
  bcast_S1_S1x1x1x1_3 : S1.BroadcastsInDim S1x1x1x1 (![3] : Fin 1 → Fin S1x1x1x1.rank)
  bcast_S1x1x1x1_S2x256x512x1_0_1_2_3 : S1x1x1x1.BroadcastsInDim S2x256x512x1 (![0, 1, 2, 3] : Fin 4 → Fin S2x256x512x1.rank)
  shapeCasts_S2x256x512x1_S2x256x512 : S2x256x512x1.ShapeCasts S2x256x512
  bcast_S_S2x256x512 : S_.BroadcastsInDim S2x256x512 (![] : Fin 0 → Fin S2x256x512.rank)
  dot_S2x256x512_S512x256_S2x256x256_2_0_01_1_n_n_wf : DotDims.WF S2x256x512 S512x256 S2x256x256 [2] [0] [0, 1] [1] [] []
  dot_S2x512x512_S512x256_S2x512x256_2_0_01_1_n_n_wf : DotDims.WF S2x512x512 S512x256 S2x512x256 [2] [0] [0, 1] [1] [] []
  dot_S2x256x256_S256x256_S2x256x256_2_0_01_1_n_n_wf : DotDims.WF S2x256x256 S256x256 S2x256x256 [2] [0] [0, 1] [1] [] []
  dot_S2x512x256_S256x256_S2x512x256_2_0_01_1_n_n_wf : DotDims.WF S2x512x256 S256x256 S2x512x256 [2] [0] [0, 1] [1] [] []
  dot_S2x256x512x256_S256x256_S2x256x512x256_3_0_012_1_n_n_wf : DotDims.WF S2x256x512x256 S256x256 S2x256x512x256 [3] [0] [0, 1, 2] [1] [] []
  dot_S2x256x512x256_S256x1_S2x256x512x1_3_0_012_1_n_n_wf : DotDims.WF S2x256x512x256 S256x1 S2x256x512x1 [3] [0] [0, 1, 2] [1] [] []

variable [Facts₀]

def dot_S2x256x512_S512x256_S2x256x256_2_0_01_1_n_n : DotDims S2x256x512 S512x256 S2x256x256 where
  lhsContracting := [2]
  rhsContracting := [0]
  lhsNonContracting := [0, 1]
  rhsNonContracting := [1]
  lhsBatch := []
  rhsBatch := []
  wf := dot_S2x256x512_S512x256_S2x256x256_2_0_01_1_n_n_wf
def dot_S2x512x512_S512x256_S2x512x256_2_0_01_1_n_n : DotDims S2x512x512 S512x256 S2x512x256 where
  lhsContracting := [2]
  rhsContracting := [0]
  lhsNonContracting := [0, 1]
  rhsNonContracting := [1]
  lhsBatch := []
  rhsBatch := []
  wf := dot_S2x512x512_S512x256_S2x512x256_2_0_01_1_n_n_wf
def dot_S2x256x256_S256x256_S2x256x256_2_0_01_1_n_n : DotDims S2x256x256 S256x256 S2x256x256 where
  lhsContracting := [2]
  rhsContracting := [0]
  lhsNonContracting := [0, 1]
  rhsNonContracting := [1]
  lhsBatch := []
  rhsBatch := []
  wf := dot_S2x256x256_S256x256_S2x256x256_2_0_01_1_n_n_wf
def dot_S2x512x256_S256x256_S2x512x256_2_0_01_1_n_n : DotDims S2x512x256 S256x256 S2x512x256 where
  lhsContracting := [2]
  rhsContracting := [0]
  lhsNonContracting := [0, 1]
  rhsNonContracting := [1]
  lhsBatch := []
  rhsBatch := []
  wf := dot_S2x512x256_S256x256_S2x512x256_2_0_01_1_n_n_wf
def dot_S2x256x512x256_S256x256_S2x256x512x256_3_0_012_1_n_n : DotDims S2x256x512x256 S256x256 S2x256x512x256 where
  lhsContracting := [3]
  rhsContracting := [0]
  lhsNonContracting := [0, 1, 2]
  rhsNonContracting := [1]
  lhsBatch := []
  rhsBatch := []
  wf := dot_S2x256x512x256_S256x256_S2x256x512x256_3_0_012_1_n_n_wf
def dot_S2x256x512x256_S256x1_S2x256x512x1_3_0_012_1_n_n : DotDims S2x256x512x256 S256x1 S2x256x512x1 where
  lhsContracting := [3]
  rhsContracting := [0]
  lhsNonContracting := [0, 1, 2]
  rhsNonContracting := [1]
  lhsBatch := []
  rhsBatch := []
  wf := dot_S2x256x512x256_S256x1_S2x256x512x1_3_0_012_1_n_n_wf

class Facts : Prop extends Facts₀ where

variable [Facts]
-- ==== Proof.Spec.lean ====
/-
  The mathematics both programs compute, written once over the extended reals.

  Two encoders turn the query rows and the key rows into features
      f(b, s, h) = max(Σ_e x(b, s, e) · W(e, h) + bias(h), 0).
  Each feature array is projected by the upper or the lower half of a [512, 256] weight,
      (f ⋅ W^off)(b, s, d) = Σ_h f(b, s, h) · W(off + h, d),   off = 0 or 256,
  the query side also receiving the layer's bias.  For every pair (q, k) of a batch the two projections are added and
  rectified; the importance branch then applies two more rectified linear layers and a linear head, the variance
  branch a linear head followed by softplus.

  Nothing here mentions a program: the arrays are functions of literal-shape indices, the coordinates literal `Fin`s.
-/
import Idealize.ShloMosaic.PureOps.Ideal.Laws
import Idealize.ShloMosaic.Lib.ValueIdx

noncomputable section

namespace Cert.Spec

open Idealize.ShloMosaic Idealize.ShloMosaic.ValueIdx

/-- An array over a literal rank-3 shape given by its entries. -/
abbrev arr3 {a b c : ℕ} (f : Fin a → Fin b → Fin c → EReal) : (⟨3, ![a, b, c]⟩ : Shape).Idx → EReal :=
  fun i => f (i 0) (i 1) (i 2)

theorem arr3_ix3 {a b c : ℕ} (f : Fin a → Fin b → Fin c → EReal) (x : Fin a) (y : Fin b) (z : Fin c) :
    arr3 f (ix3 x y z) = f x y z := rfl

variable {S : ℕ}

/-- An encoder: the rectified affine image of row (b, s). -/
def feat (x : (⟨3, ![2, S, 512]⟩ : Shape).Idx → EReal) (W : (⟨2, ![512, 256]⟩ : Shape).Idx → EReal)
    (bias : (⟨1, ![256]⟩ : Shape).Idx → EReal) (b : Fin 2) (s : Fin S) (h : Fin 256) : EReal :=
  max (∑ e : Fin 512, x (ix3 b s e) * W (ix2 e h) + bias (ix1 h)) 0

/-- The upper half of a [512, 256] weight (rows 0 … 255). -/
def upper (W : (⟨2, ![512, 256]⟩ : Shape).Idx → EReal) : (⟨2, ![256, 256]⟩ : Shape).Idx → EReal :=
  fun i => W (ix2 (⟨(i 0).val, by have := (i 0).isLt; simp at this; omega⟩ : Fin 512) (⟨(i 1).val, by have := (i 1).isLt; simpa using this⟩ : Fin 256))

/-- The lower half of a [512, 256] weight (rows 256 … 511). -/
def lower (W : (⟨2, ![512, 256]⟩ : Shape).Idx → EReal) : (⟨2, ![256, 256]⟩ : Shape).Idx → EReal :=
  fun i => W (ix2 (⟨256 + (i 0).val, by have := (i 0).isLt; simp at this; omega⟩ : Fin 512) (⟨(i 1).val, by have := (i 1).isLt; simpa using this⟩ : Fin 256))

theorem upper_ix2 (W : (⟨2, ![512, 256]⟩ : Shape).Idx → EReal) (h d : Fin 256) :
    upper W (ix2 h d) = W (ix2 (⟨h.val, by omega⟩ : Fin 512) d) := rfl

theorem lower_ix2 (W : (⟨2, ![512, 256]⟩ : Shape).Idx → EReal) (h d : Fin 256) :
    lower W (ix2 h d) = W (ix2 (⟨256 + h.val, by omega⟩ : Fin 512) d) := rfl

/-- A feature array projected by a [256, 256] weight. -/
def proj (f : Fin 2 → Fin S → Fin 256 → EReal) (W : (⟨2, ![256, 256]⟩ : Shape).Idx → EReal)
    (b : Fin 2) (s : Fin S) (d : Fin 256) : EReal :=
  ∑ h : Fin 256, f b s h * W (ix2 h d)

/-- The same with the layer's bias added (the query side carries it). -/
def projBias (f : Fin 2 → Fin S → Fin 256 → EReal) (W : (⟨2, ![256, 256]⟩ : Shape).Idx → EReal)
    (bias : (⟨1, ![256]⟩ : Shape).Idx → EReal) (b : Fin 2) (s : Fin S) (d : Fin 256) : EReal :=
  proj f W b s d + bias (ix1 d)

/-- The pairwise first layer: the two sides' projections added and rectified. -/
def pair (qp : (⟨3, ![2, 256, 256]⟩ : Shape).Idx → EReal) (kp : (⟨3, ![2, 512, 256]⟩ : Shape).Idx → EReal)
    (b : Fin 2) (q : Fin 256) (k : Fin 512) (d : Fin 256) : EReal :=
  max (qp (ix3 b q d) + kp (ix3 b k d)) 0

/-- One rectified linear layer on the pairwise hidden vector. -/
def layer (h : Fin 2 → Fin 256 → Fin 512 → Fin 256 → EReal) (W : (⟨2, ![256, 256]⟩ : Shape).Idx → EReal)
    (bias : (⟨1, ![256]⟩ : Shape).Idx → EReal) (b : Fin 2) (q : Fin 256) (k : Fin 512) (d : Fin 256) : EReal :=
  max (∑ j : Fin 256, h b q k j * W (ix2 j d) + bias (ix1 d)) 0

/-- The linear head: the hidden vector against the one column of a [256, 1] weight, plus the scalar bias. -/
def head (h : Fin 2 → Fin 256 → Fin 512 → Fin 256 → EReal) (W : (⟨2, ![256, 1]⟩ : Shape).Idx → EReal)
    (bias : (⟨1, ![1]⟩ : Shape).Idx → EReal) (b : Fin 2) (q : Fin 256) (k : Fin 512) : EReal :=
  ∑ j : Fin 256, h b q k j * W (ix2 j (0 : Fin 1)) + bias (ix1 (0 : Fin 1))

/-- softplus as log(1 + exp x) is computed: max(x, 0) + log1p(exp(−|x|)). -/
def softplus (x : EReal) : EReal := max x 0 + Ideal.log1p (Ideal.exp (-(max x (-x))))

/-- The importance logits from the projected parts. -/
def logitsOf (qp : (⟨3, ![2, 256, 256]⟩ : Shape).Idx → EReal) (kp : (⟨3, ![2, 512, 256]⟩ : Shape).Idx → EReal)
    (W1 : (⟨2, ![256, 256]⟩ : Shape).Idx → EReal) (b1 : (⟨1, ![256]⟩ : Shape).Idx → EReal)
    (W2 : (⟨2, ![256, 256]⟩ : Shape).Idx → EReal) (b2 : (⟨1, ![256]⟩ : Shape).Idx → EReal)
    (Wf : (⟨2, ![256, 1]⟩ : Shape).Idx → EReal) (bf : (⟨1, ![1]⟩ : Shape).Idx → EReal)
    (b : Fin 2) (q : Fin 256) (k : Fin 512) : EReal :=
  head (layer (layer (pair qp kp) W1 b1) W2 b2) Wf bf b q k

/-- The variance from the projected parts. -/
def varianceOf (qv : (⟨3, ![2, 256, 256]⟩ : Shape).Idx → EReal) (kv : (⟨3, ![2, 512, 256]⟩ : Shape).Idx → EReal)
    (Wv2 : (⟨2, ![256, 1]⟩ : Shape).Idx → EReal) (bv2 : (⟨1, ![1]⟩ : Shape).Idx → EReal)
    (b : Fin 2) (q : Fin 256) (k : Fin 512) : EReal :=
  softplus (head (pair qv kv) Wv2 bv2 b q k)

/-- The query-side projected part of a [512, 256] first-layer weight, bias folded in. -/
def qPart (query : (⟨3, ![2, 256, 512]⟩ : Shape).Idx → EReal) (Wqe : (⟨2, ![512, 256]⟩ : Shape).Idx → EReal)
    (bqe : (⟨1, ![256]⟩ : Shape).Idx → EReal) (W : (⟨2, ![512, 256]⟩ : Shape).Idx → EReal)
    (bias : (⟨1, ![256]⟩ : Shape).Idx → EReal) : (⟨3, ![2, 256, 256]⟩ : Shape).Idx → EReal :=
  arr3 (projBias (feat query Wqe bqe) (upper W) bias)

/-- The key-side projected part. -/
def kPart (key : (⟨3, ![2, 512, 512]⟩ : Shape).Idx → EReal) (Wke : (⟨2, ![512, 256]⟩ : Shape).Idx → EReal)
    (bke : (⟨1, ![256]⟩ : Shape).Idx → EReal) (W : (⟨2, ![512, 256]⟩ : Shape).Idx → EReal) :
    (⟨3, ![2, 512, 256]⟩ : Shape).Idx → EReal :=
  arr3 (proj (feat key Wke bke) (lower W))

end Cert.Spec

end
-- ==== Proof.RefSpec.lean ====
/-
  The reference program's two results are the specification, entry by entry.

  The reference is a chain of array operations.  Read at one index, each operation is a scalar expression in
  its operands at indices computed from that index; following the chain outermost first turns each result's
  entry into nested sums, maxima and sums of biases.  The only place where the reference's arrangement and
  the specification's differ is the first pairwise layer, where the reference adds the layer's bias after
  the two projections have been added, (A + B) + c, and the specification carries it on the query side,
  (A + c) + B; the two agree in any commutative additive monoid, so in the extended reals with no finiteness
  assumption.  The variance result ends with softplus written with a guard for not-a-number entries; over
  the extended reals no entry differs from itself, so the guard always takes its second branch.
-/
import proofs.«129681_j18940805775799_2_alg».proof.Proof.Gen.ReferenceIdeal.Read
import proofs.«129681_j18940805775799_2_alg».proof.Proof.Spec

noncomputable section

namespace Cert.RefSpec

open Cert.ReferenceIdeal Cert.ReferenceIdeal.Read Idealize.ShloMosaic Idealize.ShloMosaic.ValueIdx

variable (x0 : (⟨S2x256x512, .f32⟩ : BufTy).Contents (Elt Ideal)) (x1 : (⟨S2x512x512, .f32⟩ : BufTy).Contents (Elt Ideal))
  (x2 : (⟨S512x256, .f32⟩ : BufTy).Contents (Elt Ideal)) (x3 : (⟨S256, .f32⟩ : BufTy).Contents (Elt Ideal))
  (x4 : (⟨S512x256, .f32⟩ : BufTy).Contents (Elt Ideal)) (x5 : (⟨S256, .f32⟩ : BufTy).Contents (Elt Ideal))
  (x6 : (⟨S512x256, .f32⟩ : BufTy).Contents (Elt Ideal)) (x7 : (⟨S256, .f32⟩ : BufTy).Contents (Elt Ideal))
  (x8 : (⟨S256x256, .f32⟩ : BufTy).Contents (Elt Ideal)) (x9 : (⟨S256, .f32⟩ : BufTy).Contents (Elt Ideal))
  (x10 : (⟨S256x256, .f32⟩ : BufTy).Contents (Elt Ideal)) (x11 : (⟨S256, .f32⟩ : BufTy).Contents (Elt Ideal))
  (x12 : (⟨S256x1, .f32⟩ : BufTy).Contents (Elt Ideal)) (x13 : (⟨S1, .f32⟩ : BufTy).Contents (Elt Ideal))
  (x14 : (⟨S512x256, .f32⟩ : BufTy).Contents (Elt Ideal)) (x15 : (⟨S256, .f32⟩ : BufTy).Contents (Elt Ideal))
  (x16 : (⟨S256x1, .f32⟩ : BufTy).Contents (Elt Ideal)) (x17 : (⟨S1, .f32⟩ : BufTy).Contents (Elt Ideal))

/-! ## The rectifiers' zero arrays -/

theorem zero0 (i : S2x256x256.Idx) : val_main_call0_v0 (F := Ideal) i = 0 := by
  rw [val_main_call0_v0_apply, val_main_call0_cst_apply]; exact Ideal.ofBits_zero_f32
theorem zero1 (i : S2x512x256.Idx) : val_main_call1_v0 (F := Ideal) i = 0 := by
  rw [val_main_call1_v0_apply, val_main_call1_cst_apply]; exact Ideal.ofBits_zero_f32
theorem zero2 (i : S2x256x512x256.Idx) : val_main_call2_v0 (F := Ideal) i = 0 := by
  rw [val_main_call2_v0_apply, val_main_call2_cst_apply]; exact Ideal.ofBits_zero_f32
theorem zero3 (i : S2x256x512x256.Idx) : val_main_call3_v0 (F := Ideal) i = 0 := by
  rw [val_main_call3_v0_apply, val_main_call3_cst_apply]; exact Ideal.ofBits_zero_f32
theorem zero4 (i : S2x256x512x256.Idx) : val_main_call4_v0 (F := Ideal) i = 0 := by
  rw [val_main_call4_v0_apply, val_main_call4_cst_apply]; exact Ideal.ofBits_zero_f32
theorem zero5 (i : S2x256x512x256.Idx) : val_main_call5_v0 (F := Ideal) i = 0 := by
  rw [val_main_call5_v0_apply, val_main_call5_cst_apply]; exact Ideal.ofBits_zero_f32

/-! ## The two encoders -/

/-- The query encoder: entry (b, q, h) of the rectified affine image of the query rows. -/
theorem feat_q (b : Fin 2) (q : Fin 256) (h : Fin 256) :
    val_main_v4 (F := Ideal) x0 x2 x3 (ix3 b q h) = Cert.Spec.feat x0 x2 x3 b q h := by
  have el : ∀ k : Fin 512, lidx_main_v0 (ix3 b q h) k = ix3 b q k := fun k =>
    funext fun a => Fin.ext (by match a with | ⟨0, _⟩ => rfl | ⟨1, _⟩ => rfl | ⟨2, _⟩ => rfl)
  have er : ∀ k : Fin 512, ridx_main_v0 (ix3 b q h) k = ix2 k h := fun k =>
    funext fun a => Fin.ext (by match a with | ⟨0, _⟩ => rfl | ⟨1, _⟩ => rfl)
  have eb : idx_main_v1 (idx_main_v2 (ix3 b q h)) = ix1 h :=
    funext fun a => Fin.ext (by match a with | ⟨0, _⟩ => rfl)
  rw [val_main_v4_apply, val_main_v3_apply, val_main_v0_apply, val_main_v2_apply, val_main_v1_apply, zero0, eb]
  unfold Cert.Spec.feat
  simp only [Ideal.maximumf_def, Ideal.addf_def, el, er]

/-- The key encoder: entry (b, k, h) of the rectified affine image of the key rows. -/
theorem feat_k (b : Fin 2) (k : Fin 512) (h : Fin 256) :
    val_main_v9 (F := Ideal) x1 x4 x5 (ix3 b k h) = Cert.Spec.feat x1 x4 x5 b k h := by
  have el : ∀ e : Fin 512, lidx_main_v5 (ix3 b k h) e = ix3 b k e := fun e =>
    funext fun a => Fin.ext (by match a with | ⟨0, _⟩ => rfl | ⟨1, _⟩ => rfl | ⟨2, _⟩ => rfl)
  have er : ∀ e : Fin 512, ridx_main_v5 (ix3 b k h) e = ix2 e h := fun e =>
    funext fun a => Fin.ext (by match a with | ⟨0, _⟩ => rfl | ⟨1, _⟩ => rfl)
  have eb : idx_main_v6 (idx_main_v7 (ix3 b k h)) = ix1 h :=
    funext fun a => Fin.ext (by match a with | ⟨0, _⟩ => rfl)
  rw [val_main_v9_apply, val_main_v8_apply, val_main_v5_apply, val_main_v7_apply, val_main_v6_apply, zero1, eb]
  unfold Cert.Spec.feat
  simp only [Ideal.maximumf_def, Ideal.addf_def, el, er]

/-! ## The halves of the first-layer weights -/

theorem upper_6 : val_main_v10 (F := Ideal) x6 = Cert.Spec.upper x6 := by
  funext i; rw [val_main_v10_apply]
  exact congrArg x6 (funext fun a => Fin.ext (by match a with | ⟨0, _⟩ => rfl | ⟨1, _⟩ => rfl))
theorem lower_6 : val_main_v12 (F := Ideal) x6 = Cert.Spec.lower x6 := by
  funext i; rw [val_main_v12_apply]
  exact congrArg x6 (funext fun a => Fin.ext (by match a with | ⟨0, _⟩ => rfl | ⟨1, _⟩ => rfl))
theorem upper_14 : val_main_v38 (F := Ideal) x14 = Cert.Spec.upper x14 := by
  funext i; rw [val_main_v38_apply]
  exact congrArg x14 (funext fun a => Fin.ext (by match a with | ⟨0, _⟩ => rfl | ⟨1, _⟩ => rfl))
theorem lower_14 : val_main_v40 (F := Ideal) x14 = Cert.Spec.lower x14 := by
  funext i; rw [val_main_v40_apply]
  exact congrArg x14 (funext fun a => Fin.ext (by match a with | ⟨0, _⟩ => rfl | ⟨1, _⟩ => rfl))

/-! ## The projections of the two feature arrays -/

/-- Importance branch, query side: the query features against the upper half of the first-layer weight. -/
theorem proj_q (b : Fin 2) (q : Fin 256) (d : Fin 256) :
    val_main_v11 (F := Ideal) x0 x2 x3 x6 (ix3 b q d)
      = Cert.Spec.proj (Cert.Spec.feat x0 x2 x3) (Cert.Spec.upper x6) b q d := by
  have el : ∀ h : Fin 256, lidx_main_v11 (ix3 b q d) h = ix3 b q h := fun h =>
    funext fun a => Fin.ext (by match a with | ⟨0, _⟩ => rfl | ⟨1, _⟩ => rfl | ⟨2, _⟩ => rfl)
  have er : ∀ h : Fin 256, ridx_main_v11 (ix3 b q d) h = ix2 h d := fun h =>
    funext fun a => Fin.ext (by match a with | ⟨0, _⟩ => rfl | ⟨1, _⟩ => rfl)
  rw [val_main_v11_apply, upper_6]
  unfold Cert.Spec.proj
  exact Finset.sum_congr rfl fun h _ => by rw [el, er, feat_q]

/-- Importance branch, key side: the key features against the lower half. -/
theorem proj_k (b : Fin 2) (k : Fin 512) (d : Fin 256) :
    val_main_v13 (F := Ideal) x1 x4 x5 x6 (ix3 b k d)
      = Cert.Spec.proj (Cert.Spec.feat x1 x4 x5) (Cert.Spec.lower x6) b k d := by
  have el : ∀ h : Fin 256, lidx_main_v13 (ix3 b k d) h = ix3 b k h := fun h =>
    funext fun a => Fin.ext (by match a with | ⟨0, _⟩ => rfl | ⟨1, _⟩ => rfl | ⟨2, _⟩ => rfl)
  have er : ∀ h : Fin 256, ridx_main_v13 (ix3 b k d) h = ix2 h d := fun h =>
    funext fun a => Fin.ext (by match a with | ⟨0, _⟩ => rfl | ⟨1, _⟩ => rfl)
  rw [val_main_v13_apply, lower_6]
  unfold Cert.Spec.proj
  exact Finset.sum_congr rfl fun h _ => by rw [el, er, feat_k]

/-- Variance branch, query side. -/
theorem proj_qv (b : Fin 2) (q : Fin 256) (d : Fin 256) :
    val_main_v39 (F := Ideal) x0 x2 x3 x14 (ix3 b q d)
      = Cert.Spec.proj (Cert.Spec.feat x0 x2 x3) (Cert.Spec.upper x14) b q d := by
  have el : ∀ h : Fin 256, lidx_main_v39 (ix3 b q d) h = ix3 b q h := fun h =>
    funext fun a => Fin.ext (by match a with | ⟨0, _⟩ => rfl | ⟨1, _⟩ => rfl | ⟨2, _⟩ => rfl)
  have er : ∀ h : Fin 256, ridx_main_v39 (ix3 b q d) h = ix2 h d := fun h =>
    funext fun a => Fin.ext (by match a with | ⟨0, _⟩ => rfl | ⟨1, _⟩ => rfl)
  rw [val_main_v39_apply, upper_14]
  unfold Cert.Spec.proj
  exact Finset.sum_congr rfl fun h _ => by rw [el, er, feat_q]

/-- Variance branch, key side. -/
theorem proj_kv (b : Fin 2) (k : Fin 512) (d : Fin 256) :
    val_main_v41 (F := Ideal) x1 x4 x5 x14 (ix3 b k d)
      = Cert.Spec.proj (Cert.Spec.feat x1 x4 x5) (Cert.Spec.lower x14) b k d := by
  have el : ∀ h : Fin 256, lidx_main_v41 (ix3 b k d) h = ix3 b k h := fun h =>
    funext fun a => Fin.ext (by match a with | ⟨0, _⟩ => rfl | ⟨1, _⟩ => rfl | ⟨2, _⟩ => rfl)
  have er : ∀ h : Fin 256, ridx_main_v41 (ix3 b k d) h = ix2 h d := fun h =>
    funext fun a => Fin.ext (by match a with | ⟨0, _⟩ => rfl | ⟨1, _⟩ => rfl)
  rw [val_main_v41_apply, lower_14]
  unfold Cert.Spec.proj
  exact Finset.sum_congr rfl fun h _ => by rw [el, er, feat_k]

/-! ## The pairwise first layer

  The reference broadcasts the two projections over the pair axes, adds them, adds the bias and rectifies:
  max((A + B) + c, 0).  The specification has max((A + c) + B, 0). -/

theorem pair_l (b : Fin 2) (q : Fin 256) (k : Fin 512) (d : Fin 256) :
    val_main_v22 (F := Ideal) x0 x1 x2 x3 x4 x5 x6 x7 (ix4 b q k d)
      = Cert.Spec.pair (Cert.Spec.qPart x0 x2 x3 x6 x7) (Cert.Spec.kPart x1 x4 x5 x6) b q k d := by
  have eq : idx_main_v14 (idx_main_v16 (ix4 b q k d)) = ix3 b q d :=
    funext fun a => Fin.ext (by match a with | ⟨0, _⟩ => rfl | ⟨1, _⟩ => rfl | ⟨2, _⟩ => rfl)
  have ek : idx_main_v15 (idx_main_v17 (ix4 b q k d)) = ix3 b k d :=
    funext fun a => Fin.ext (by match a with | ⟨0, _⟩ => rfl | ⟨1, _⟩ => rfl | ⟨2, _⟩ => rfl)
  have eb : idx_main_v19 (idx_main_v20 (ix4 b q k d)) = ix1 d :=
    funext fun a => Fin.ext (by match a with | ⟨0, _⟩ => rfl)
  rw [val_main_v22_apply, val_main_v21_apply, val_main_v18_apply, val_main_v16_apply, val_main_v14_apply,
    val_main_v17_apply, val_main_v15_apply, val_main_v20_apply, val_main_v19_apply, zero2, eq, ek, eb,
    proj_q, proj_k]
  unfold Cert.Spec.pair Cert.Spec.qPart Cert.Spec.kPart
  rw [Cert.Spec.arr3_ix3, Cert.Spec.arr3_ix3]
  unfold Cert.Spec.projBias
  simp only [Ideal.maximumf_def, Ideal.addf_def]
  rw [add_right_comm]

theorem pair_v (b : Fin 2) (q : Fin 256) (k : Fin 512) (d : Fin 256) :
    val_main_v50 (F := Ideal) x0 x1 x2 x3 x4 x5 x14 x15 (ix4 b q k d)
      = Cert.Spec.pair (Cert.Spec.qPart x0 x2 x3 x14 x15) (Cert.Spec.kPart x1 x4 x5 x14) b q k d := by
  have eq : idx_main_v42 (idx_main_v44 (ix4 b q k d)) = ix3 b q d :=
    funext fun a => Fin.ext (by match a with | ⟨0, _⟩ => rfl | ⟨1, _⟩ => rfl | ⟨2, _⟩ => rfl)
  have ek : idx_main_v43 (idx_main_v45 (ix4 b q k d)) = ix3 b k d :=
    funext fun a => Fin.ext (by match a with | ⟨0, _⟩ => rfl | ⟨1, _⟩ => rfl | ⟨2, _⟩ => rfl)
  have eb : idx_main_v47 (idx_main_v48 (ix4 b q k d)) = ix1 d :=
    funext fun a => Fin.ext (by match a with | ⟨0, _⟩ => rfl)
  rw [val_main_v50_apply, val_main_v49_apply, val_main_v46_apply, val_main_v44_apply, val_main_v42_apply,
    val_main_v45_apply, val_main_v43_apply, val_main_v48_apply, val_main_v47_apply, zero5, eq, ek, eb,
    proj_qv, proj_kv]
  unfold Cert.Spec.pair Cert.Spec.qPart Cert.Spec.kPart
  rw [Cert.Spec.arr3_ix3, Cert.Spec.arr3_ix3]
  unfold Cert.Spec.projBias
  simp only [Ideal.maximumf_def, Ideal.addf_def]
  rw [add_right_comm]

/-! ## The importance branch: two rectified linear layers and the linear head -/

/-- A rectified linear layer, opened once. -/
theorem layer_def (h : Fin 2 → Fin 256 → Fin 512 → Fin 256 → EReal) (W : (⟨2, ![256, 256]⟩ : Shape).Idx → EReal)
    (bias : (⟨1, ![256]⟩ : Shape).Idx → EReal) (b : Fin 2) (q : Fin 256) (k : Fin 512) (d : Fin 256) :
    Cert.Spec.layer h W bias b q k d = max (∑ j : Fin 256, h b q k j * W (ix2 j d) + bias (ix1 d)) 0 := rfl

theorem layer_1 (b : Fin 2) (q : Fin 256) (k : Fin 512) (d : Fin 256) :
    val_main_v27 (F := Ideal) x0 x1 x2 x3 x4 x5 x6 x7 x8 x9 (ix4 b q k d)
      = Cert.Spec.layer (Cert.Spec.pair (Cert.Spec.qPart x0 x2 x3 x6 x7) (Cert.Spec.kPart x1 x4 x5 x6)) x8 x9 b q k d := by
  have el : ∀ j : Fin 256, lidx_main_v23 (ix4 b q k d) j = ix4 b q k j := fun j =>
    funext fun a => Fin.ext (by match a with | ⟨0, _⟩ => rfl | ⟨1, _⟩ => rfl | ⟨2, _⟩ => rfl | ⟨3, _⟩ => rfl)
  have er : ∀ j : Fin 256, ridx_main_v23 (ix4 b q k d) j = ix2 j d := fun j =>
    funext fun a => Fin.ext (by match a with | ⟨0, _⟩ => rfl | ⟨1, _⟩ => rfl)
  have eb : idx_main_v24 (idx_main_v25 (ix4 b q k d)) = ix1 d :=
    funext fun a => Fin.ext (by match a with | ⟨0, _⟩ => rfl)
  rw [val_main_v27_apply, val_main_v26_apply, val_main_v23_apply, val_main_v25_apply, val_main_v24_apply, zero3, eb,
    layer_def]
  simp only [Ideal.maximumf_def, Ideal.addf_def]
  refine congrArg (fun s => max (s + x9 (ix1 d)) 0) (Finset.sum_congr rfl fun j _ => ?_)
  rw [el, er, pair_l]

theorem layer_2 (b : Fin 2) (q : Fin 256) (k : Fin 512) (d : Fin 256) :
    val_main_v32 (F := Ideal) x0 x1 x2 x3 x4 x5 x6 x7 x8 x9 x10 x11 (ix4 b q k d)
      = Cert.Spec.layer (Cert.Spec.layer (Cert.Spec.pair (Cert.Spec.qPart x0 x2 x3 x6 x7) (Cert.Spec.kPart x1 x4 x5 x6)) x8 x9)
          x10 x11 b q k d := by
  have el : ∀ j : Fin 256, lidx_main_v28 (ix4 b q k d) j = ix4 b q k j := fun j =>
    funext fun a => Fin.ext (by match a with | ⟨0, _⟩ => rfl | ⟨1, _⟩ => rfl | ⟨2, _⟩ => rfl | ⟨3, _⟩ => rfl)
  have er : ∀ j : Fin 256, ridx_main_v28 (ix4 b q k d) j = ix2 j d := fun j =>
    funext fun a => Fin.ext (by match a with | ⟨0, _⟩ => rfl | ⟨1, _⟩ => rfl)
  have eb : idx_main_v29 (idx_main_v30 (ix4 b q k d)) = ix1 d :=
    funext fun a => Fin.ext (by match a with | ⟨0, _⟩ => rfl)
  rw [val_main_v32_apply, val_main_v31_apply, val_main_v28_apply, val_main_v30_apply, val_main_v29_apply, zero4, eb,
    layer_def]
  simp only [Ideal.maximumf_def, Ideal.addf_def]
  refine congrArg (fun s => max (s + x11 (ix1 d)) 0) (Finset.sum_congr rfl fun j _ => ?_)
  rw [el, er, layer_1]

/-- The head of the importance branch, still with its trailing axis of extent one. -/
theorem head_l (b : Fin 2) (q : Fin 256) (k : Fin 512) :
    val_main_v36 (F := Ideal) x0 x1 x2 x3 x4 x5 x6 x7 x8 x9 x10 x11 x12 x13 (ix4 b q k (0 : Fin 1))
      = Cert.Spec.logitsOf (Cert.Spec.qPart x0 x2 x3 x6 x7) (Cert.Spec.kPart x1 x4 x5 x6) x8 x9 x10 x11 x12 x13 b q k := by
  have el : ∀ j : Fin 256, lidx_main_v33 (ix4 b q k (0 : Fin 1)) j = ix4 b q k j := fun j =>
    funext fun a => Fin.ext (by match a with | ⟨0, _⟩ => rfl | ⟨1, _⟩ => rfl | ⟨2, _⟩ => rfl | ⟨3, _⟩ => rfl)
  have er : ∀ j : Fin 256, ridx_main_v33 (ix4 b q k (0 : Fin 1)) j = ix2 j (0 : Fin 1) := fun j =>
    funext fun a => Fin.ext (by match a with | ⟨0, _⟩ => rfl | ⟨1, _⟩ => rfl)
  have eb : idx_main_v34 (idx_main_v35 (ix4 b q k (0 : Fin 1))) = ix1 (0 : Fin 1) :=
    funext fun a => Fin.ext (by match a with | ⟨0, _⟩ => rfl)
  rw [val_main_v36_apply, val_main_v33_apply, val_main_v35_apply, val_main_v34_apply, eb]
  unfold Cert.Spec.logitsOf Cert.Spec.head
  simp only [Ideal.addf_def]
  refine congrArg (fun s => s + x13 (ix1 (0 : Fin 1))) (Finset.sum_congr rfl fun j _ => ?_)
  rw [el, er, layer_2]

/-- Dropping the trailing axis of extent one: entry (b, q, k) of the result is entry (b, q, k, 0) of the operand
    (the row-major position ((b · 256 + q) · 512 + k) split again by the operand's extents). -/
theorem squeeze_idx (b : Fin 2) (q : Fin 256) (k : Fin 512) :
    idx_main_v37 (ix3 b q k) = ix4 b q k (0 : Fin 1) := by
  have hb := b.isLt; have hq := q.isLt; have hk := k.isLt
  refine funext fun a => Fin.ext ?_
  match a with
  | ⟨0, _⟩ => show ((b.val * 256 + q.val) * 512 + k.val) / 131072 = b.val; omega
  | ⟨1, _⟩ => show ((b.val * 256 + q.val) * 512 + k.val) / 512 % 256 = q.val; omega
  | ⟨2, _⟩ => show ((b.val * 256 + q.val) * 512 + k.val) / 1 % 512 = k.val; omega
  | ⟨3, _⟩ => rfl

/-! ## The variance branch: the linear head, then softplus -/

/-- The head of the variance branch, with its trailing axis of extent one. -/
theorem head_v (b : Fin 2) (q : Fin 256) (k : Fin 512) :
    val_main_v54 (F := Ideal) x0 x1 x2 x3 x4 x5 x14 x15 x16 x17 (ix4 b q k (0 : Fin 1))
      = Cert.Spec.head (Cert.Spec.pair (Cert.Spec.qPart x0 x2 x3 x14 x15) (Cert.Spec.kPart x1 x4 x5 x14)) x16 x17 b q k := by
  have el : ∀ j : Fin 256, lidx_main_v51 (ix4 b q k (0 : Fin 1)) j = ix4 b q k j := fun j =>
    funext fun a => Fin.ext (by match a with | ⟨0, _⟩ => rfl | ⟨1, _⟩ => rfl | ⟨2, _⟩ => rfl | ⟨3, _⟩ => rfl)
  have er : ∀ j : Fin 256, ridx_main_v51 (ix4 b q k (0 : Fin 1)) j = ix2 j (0 : Fin 1) := fun j =>
    funext fun a => Fin.ext (by match a with | ⟨0, _⟩ => rfl | ⟨1, _⟩ => rfl)
  have eb : idx_main_v52 (idx_main_v53 (ix4 b q k (0 : Fin 1))) = ix1 (0 : Fin 1) :=
    funext fun a => Fin.ext (by match a with | ⟨0, _⟩ => rfl)
  rw [val_main_v54_apply, val_main_v51_apply, val_main_v53_apply, val_main_v52_apply, eb]
  unfold Cert.Spec.head
  simp only [Ideal.addf_def]
  refine congrArg (fun s => s + x17 (ix1 (0 : Fin 1))) (Finset.sum_congr rfl fun j _ => ?_)
  rw [el, er, pair_v]

theorem squeeze_idx_v (b : Fin 2) (q : Fin 256) (k : Fin 512) :
    idx_main_v55 (ix3 b q k) = ix4 b q k (0 : Fin 1) := by
  have hb := b.isLt; have hq := q.isLt; have hk := k.isLt
  refine funext fun a => Fin.ext ?_
  match a with
  | ⟨0, _⟩ => show ((b.val * 256 + q.val) * 512 + k.val) / 131072 = b.val; omega
  | ⟨1, _⟩ => show ((b.val * 256 + q.val) * 512 + k.val) / 512 % 256 = q.val; omega
  | ⟨2, _⟩ => show ((b.val * 256 + q.val) * 512 + k.val) / 1 % 512 = k.val; omega
  | ⟨3, _⟩ => rfl

theorem zero6a (i : S2x256x512.Idx) : val_main_call6_v0 (F := Ideal) i = 0 := by
  rw [val_main_call6_v0_apply, val_main_call6_cst_apply]; exact Ideal.ofBits_zero_f32
theorem zero6b (i : S2x256x512.Idx) : val_main_call6_v2 (F := Ideal) i = 0 := by
  rw [val_main_call6_v2_apply, val_main_call6_cst_apply]; exact Ideal.ofBits_zero_f32

/-- No extended real differs from itself, so the comparison "d ≠ d" is the zero bit. -/
theorem une_self (d : EReal) : Ideal.cmp .une d d = 0#1 := by
  simp [Ideal.cmp]

/-- The guarded softplus of the reference is max(x, 0) + log1p(exp(−|x|)) at every entry: the guard compares
    d = x − 0 with itself, and its first branch is never taken. -/
theorem softplus_v (i : S2x256x512.Idx) :
    val_main_v56 (F := Ideal) x0 x1 x2 x3 x4 x5 x14 x15 x16 x17 i
      = Cert.Spec.softplus (val_main_v55 (F := Ideal) x0 x1 x2 x3 x4 x5 x14 x15 x16 x17 i) := by
  rw [val_main_v56_apply, val_main_call6_v4_apply, Ideal.cmpf_def, une_self, select_zero,
    val_main_call6_v11_apply, val_main_call6_v1_apply, val_main_call6_v10_apply, val_main_call6_v9_apply,
    val_main_call6_v8_apply, val_main_call6_v7_apply, val_main_call6_v3_apply, zero6a, zero6b]
  unfold Cert.Spec.softplus
  simp only [Ideal.addf_def, Ideal.maximumf_def, Ideal.subf_def, Ideal.hostUnary_exp_def, Ideal.hostUnary_log1p_def,
    Ideal.hostNegf_def, Ideal.hostAbsf_def, Ideal.negf_def, Ideal.absf_def, sub_zero]

end Cert.RefSpec

namespace Cert.RefSpec

open Cert.ReferenceIdeal Cert.ReferenceIdeal.Read Idealize.ShloMosaic Idealize.ShloMosaic.ValueIdx

/-! ## The two results -/

/-- The importance logits of the reference are the specification's. -/
theorem logits_eq (x0 : (⟨S2x256x512, .f32⟩ : BufTy).Contents (Elt Ideal)) (x1 : (⟨S2x512x512, .f32⟩ : BufTy).Contents (Elt Ideal)) (x2 : (⟨S512x256, .f32⟩ : BufTy).Contents (Elt Ideal)) (x3 : (⟨S256, .f32⟩ : BufTy).Contents (Elt Ideal)) (x4 : (⟨S512x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x256, .f32⟩ : BufTy).Contents (Elt Ideal)) (x11 : (⟨S256, .f32⟩ : BufTy).Contents (Elt Ideal)) (x12 : (⟨S256x1, .f32⟩ : BufTy).Contents (Elt Ideal)) (x13 : (⟨S1, .f32⟩ : BufTy).Contents (Elt Ideal)) :
    val_main_v37 (F := Ideal) x0 x1 x2 x3 x4 x5 x6 x7 x8 x9 x10 x11 x12 x13
      = Cert.Spec.arr3 (Cert.Spec.logitsOf (Cert.Spec.qPart x0 x2 x3 x6 x7) (Cert.Spec.kPart x1 x4 x5 x6) x8 x9 x10 x11 x12 x13) := by
  funext i
  obtain ⟨b, q, k, rfl⟩ : ∃ (b : Fin 2) (q : Fin 256) (k : Fin 512), i = ix3 b q k := ⟨i 0, i 1, i 2, eq_ix3 i⟩
  rw [val_main_v37_apply, squeeze_idx, head_l, Cert.Spec.arr3_ix3]

/-- The variance of the reference is the specification's. -/
theorem variance_eq (x0 : (⟨S2x256x512, .f32⟩ : BufTy).Contents (Elt Ideal)) (x1 : (⟨S2x512x512, .f32⟩ : BufTy).Contents (Elt Ideal)) (x2 : (⟨S512x256, .f32⟩ : BufTy).Contents (Elt Ideal)) (x3 : (⟨S256, .f32⟩ : BufTy).Contents (Elt Ideal)) (x4 : (⟨S512x256, .f32⟩ : BufTy).Contents (Elt Ideal)) (x5 : (⟨S256, .f32⟩ : BufTy).Contents (Elt Ideal)) (x14 : (⟨S512x256, .f32⟩ : BufTy).Contents (Elt Ideal)) (x15 : (⟨S256, .f32⟩ : BufTy).Contents (Elt Ideal)) (x16 : (⟨S256x1, .f32⟩ : BufTy).Contents (Elt Ideal)) (x17 : (⟨S1, .f32⟩ : BufTy).Contents (Elt Ideal)) :
    val_main_v56 (F := Ideal) x0 x1 x2 x3 x4 x5 x14 x15 x16 x17
      = Cert.Spec.arr3 (Cert.Spec.varianceOf (Cert.Spec.qPart x0 x2 x3 x14 x15) (Cert.Spec.kPart x1 x4 x5 x14) x16 x17) := by
  funext i
  obtain ⟨b, q, k, rfl⟩ : ∃ (b : Fin 2) (q : Fin 256) (k : Fin 512), i = ix3 b q k := ⟨i 0, i 1, i 2, eq_ix3 i⟩
  rw [softplus_v, val_main_v55_apply, squeeze_idx_v, head_v, Cert.Spec.arr3_ix3]
  rfl

end Cert.RefSpec

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.Encode.lean ====
/-
  The encoders and projections, read as whole arrays.

  The first region runs once per batch b. Its body turns batch b's slab of the query rows and of the key rows into
  features
      f(s, h) = max(Σ_e x(b, s, e) · W(e, h) + bias(h), 0)
  and multiplies each feature matrix by a [256, 256] weight, the query side also adding a bias:
      (f ⋅ W)(s, d) = Σ_h f(s, h) · W(h, d)  (+ bias(d)).
  Over the extended reals a change of float format is the identity, a matrix product into zeros is the inner product of
  a row with a column, and the rectifier's zero word is the number 0; so entry (s, d) of what the body stores is entry
  (b, s, d) of the specification's projected part. Batch b's result is written back to slab b of the output array, and
  the two slabs tile it: each of the four output arrays ends as the specification's array.

  The four outputs differ only in which side (256 query rows or 512 key rows), which weight, and whether a bias is
  added; the common parts are proved once.
-/
import proofs.«129681_j18940805775799_2_alg».proof.Proof.Gen.KernelIdeal.Frame
import proofs.«129681_j18940805775799_2_alg».proof.Proof.Spec
import proofs.«129681_j18940805775799_2_alg».proof.Proof.LibMatmulNN
import Idealize.ShloMosaic.Lib.Pipeline.Value
import Idealize.ShloMosaic.Lib.ValueIdx
import Idealize.ShloMosaic.Lib.ValueLayout
import Idealize.ShloMosaic.PureOps.Ideal.Laws

noncomputable section

namespace Cert.Encode

open Cert.KernelIdeal Cert.KernelIdeal.Gen Idealize.ShloMosaic Idealize.ShloMosaic.TcCoe Idealize.SL.Sem
open Idealize.ShloMosaic.ValueIdx
open Idealize.ShloMosaic.Pipeline (Dat)

/-! ## The body's arithmetic, entry by entry

Over the extended reals a change of float format is the identity, so each payload is read at an entry as the
rectified affine map or the matrix product it spells. -/

/-- The query encoder's payload at (q, h): the rectified affine image of row q of the batch's slab. -/
theorem encQ_apply (x0 : Vec Ideal S1x256x512 .f32) (x2 : Vec Ideal S512x256 .f32) (x3 : Vec Ideal S256 .f32)
    (q h : Fin 256) :
    Gen.k0_pay5 (F := Ideal) x0 x2 x3 (ix2 q h)
      = max (∑ e : Fin 512, x0 (ix3 (0 : Fin 1) q e) * x2 (ix2 e h) + x3 (ix1 h)) 0 := by
  unfold Gen.k0_pay5
  rw [truncf_apply, maximumf_apply, addf_apply, broadcast_apply]
  refine congrArg₂ max (congrArg₂ (· + ·) ?_ ?_) Ideal.ofBits_zero_f32
  · refine (Cert.MatmulNN.matmul_zero_apply dot_S256x512_S512x256_S256x256_1_0_0_1_n_n rfl none _ _ q h).trans
      (Finset.sum_congr rfl fun e _ => ?_)
    exact congrArg₂ (· * ·) (shapeCast_1ab_ab_apply x0 shapeCasts_S1x256x512_S256x512 q e) rfl
  · exact (broadcastTo_1b_ab_apply _ broadcasts_S1x256_S256x256 q h).trans
      (shapeCast_a_1a_apply x3 shapeCasts_S256_S1x256 0 h)

/-- The key encoder's payload at (k, h): the same map on the 512 key rows. -/
theorem encK_apply (x1 : Vec Ideal S1x512x512 .f32) (x4 : Vec Ideal S512x256 .f32) (x5 : Vec Ideal S256 .f32)
    (k : Fin 512) (h : Fin 256) :
    Gen.k0_pay6 (F := Ideal) x1 x4 x5 (ix2 k h)
      = max (∑ e : Fin 512, x1 (ix3 (0 : Fin 1) k e) * x4 (ix2 e h) + x5 (ix1 h)) 0 := by
  unfold Gen.k0_pay6
  rw [truncf_apply, maximumf_apply, addf_apply, broadcast_apply]
  refine congrArg₂ max (congrArg₂ (· + ·) ?_ ?_) Ideal.ofBits_zero_f32
  · refine (Cert.MatmulNN.matmul_zero_apply dot_S512x512_S512x256_S512x256_1_0_0_1_n_n rfl none _ _ k h).trans
      (Finset.sum_congr rfl fun e _ => ?_)
    exact congrArg₂ (· * ·) (shapeCast_1ab_ab_apply x1 shapeCasts_S1x512x512_S512x512 k e) rfl
  · exact (broadcastTo_1b_ab_apply _ broadcasts_S1x256_S512x256 k h).trans
      (shapeCast_a_1a_apply x5 shapeCasts_S256_S1x256 0 h)

/-- A projection weight passes through its format change unchanged. -/
theorem wq_apply (w : Vec Ideal S256x256 .f32) (h d : Fin 256) : Gen.k0_pay7 (F := Ideal) w (ix2 h d) = w (ix2 h d) := by
  unfold Gen.k0_pay7
  rw [truncf_apply, shapeCast_self]

theorem wk_apply (w : Vec Ideal S256x256 .f32) (h d : Fin 256) : Gen.k0_pay8 (F := Ideal) w (ix2 h d) = w (ix2 h d) := by
  unfold Gen.k0_pay8
  rw [truncf_apply, shapeCast_self]

theorem wqv_apply (w : Vec Ideal S256x256 .f32) (h d : Fin 256) : Gen.k0_pay9 (F := Ideal) w (ix2 h d) = w (ix2 h d) := by
  unfold Gen.k0_pay9
  rw [truncf_apply, shapeCast_self]

/-- The query-side projection's payload at (u, q, d): row q of the features against column d of the weight, plus the bias. -/
theorem projQ_apply (f w : FVec Ideal S256x256 .bf16) (bias : Vec Ideal S256 .f32) (u : Fin 1) (q d : Fin 256) :
    Gen.k0_pay1 (F := Ideal) f w bias (ix3 u q d) = ∑ h : Fin 256, f (ix2 q h) * w (ix2 h d) + bias (ix1 d) := by
  unfold Gen.k0_pay1
  refine (shapeCast_ab_1ab_apply _ shapeCasts_S256x256_S1x256x256 u q d).trans ?_
  rw [truncf_apply, addf_apply]
  refine congrArg₂ (· + ·) ?_ ?_
  · exact Cert.MatmulNN.matmul_zero_apply dot_S256x256_S256x256_S256x256_1_0_0_1_n_n rfl none f w q d
  · exact (broadcastTo_1b_ab_apply _ broadcasts_S1x256_S256x256 q d).trans
      (shapeCast_a_1a_apply bias shapeCasts_S256_S1x256 0 d)

/-- The same for the variance branch (stored without a format change). -/
theorem projQV_apply (f w : FVec Ideal S256x256 .bf16) (bias : Vec Ideal S256 .f32) (u : Fin 1) (q d : Fin 256) :
    Gen.k0_pay3 (F := Ideal) f w bias (ix3 u q d) = ∑ h : Fin 256, f (ix2 q h) * w (ix2 h d) + bias (ix1 d) := by
  unfold Gen.k0_pay3
  refine (shapeCast_ab_1ab_apply _ shapeCasts_S256x256_S1x256x256 u q d).trans ?_
  rw [addf_apply]
  refine congrArg₂ (· + ·) ?_ ?_
  · exact Cert.MatmulNN.matmul_zero_apply dot_S256x256_S256x256_S256x256_1_0_0_1_n_n rfl none f w q d
  · exact (broadcastTo_1b_ab_apply _ broadcasts_S1x256_S256x256 q d).trans
      (shapeCast_a_1a_apply bias shapeCasts_S256_S1x256 0 d)

/-- The key-side projection's payload at (u, k, d): no bias. -/
theorem projK_apply (f : FVec Ideal S512x256 .bf16) (w : FVec Ideal S256x256 .bf16) (u : Fin 1) (k : Fin 512) (d : Fin 256) :
    Gen.k0_pay2 (F := Ideal) f w (ix3 u k d) = ∑ h : Fin 256, f (ix2 k h) * w (ix2 h d) := by
  unfold Gen.k0_pay2
  refine (shapeCast_ab_1ab_apply _ shapeCasts_S512x256_S1x512x256 u k d).trans ?_
  rw [truncf_apply]
  exact Cert.MatmulNN.matmul_zero_apply dot_S512x256_S256x256_S512x256_1_0_0_1_n_n rfl none f w k d

/-- The same for the variance branch, whose weight changes format inside the payload. -/
theorem projKV_apply (f : FVec Ideal S512x256 .bf16) (w : Vec Ideal S256x256 .f32) (u : Fin 1) (k : Fin 512) (d : Fin 256) :
    Gen.k0_pay4 (F := Ideal) f w (ix3 u k d) = ∑ h : Fin 256, f (ix2 k h) * w (ix2 h d) := by
  unfold Gen.k0_pay4
  refine (shapeCast_ab_1ab_apply _ shapeCasts_S512x256_S1x512x256 u k d).trans ?_
  refine (Cert.MatmulNN.matmul_zero_apply dot_S512x256_S256x256_S512x256_1_0_0_1_n_n rfl none f _ k d).trans
    (Finset.sum_congr rfl fun h _ => ?_)
  rw [truncf_apply, shapeCast_self]

/-! ## The payloads against the specification

A slab x0 of one batch (leading axis of extent 1) whose row (0, s, ·) is row (b, s, ·) of the whole input X yields,
entry by entry, the specification's features and projected parts of batch b. -/

theorem featQ_pay (x0 : Vec Ideal S1x256x512 .f32) (x2 : Vec Ideal S512x256 .f32) (x3 : Vec Ideal S256 .f32)
    (X : S2x256x512.Idx → EReal) (b : Fin 2)
    (hx : ∀ (q : Fin 256) (e : Fin 512), x0 (ix3 (0 : Fin 1) q e) = X (ix3 b q e)) (q h : Fin 256) :
    Gen.k0_pay5 (F := Ideal) x0 x2 x3 (ix2 q h) = Cert.Spec.feat X x2 x3 b q h := by
  refine (encQ_apply x0 x2 x3 q h).trans ?_
  show _ = max (∑ e : Fin 512, X (ix3 b q e) * x2 (ix2 e h) + x3 (ix1 h)) 0
  exact congrArg₂ max (congrArg₂ (· + ·) (Finset.sum_congr rfl fun e _ => congrArg₂ (· * ·) (hx q e) rfl) rfl) rfl

theorem featK_pay (x1 : Vec Ideal S1x512x512 .f32) (x4 : Vec Ideal S512x256 .f32) (x5 : Vec Ideal S256 .f32)
    (X : S2x512x512.Idx → EReal) (b : Fin 2)
    (hx : ∀ (k : Fin 512) (e : Fin 512), x1 (ix3 (0 : Fin 1) k e) = X (ix3 b k e)) (k : Fin 512) (h : Fin 256) :
    Gen.k0_pay6 (F := Ideal) x1 x4 x5 (ix2 k h) = Cert.Spec.feat X x4 x5 b k h := by
  refine (encK_apply x1 x4 x5 k h).trans ?_
  show _ = max (∑ e : Fin 512, X (ix3 b k e) * x4 (ix2 e h) + x5 (ix1 h)) 0
  exact congrArg₂ max (congrArg₂ (· + ·) (Finset.sum_congr rfl fun e _ => congrArg₂ (· * ·) (hx k e) rfl) rfl) rfl

/-- The query part of the importance branch. -/
theorem qpart_pay (x0 : Vec Ideal S1x256x512 .f32) (x2 : Vec Ideal S512x256 .f32) (x3 : Vec Ideal S256 .f32)
    (x6 : Vec Ideal S256x256 .f32) (x10 : Vec Ideal S256 .f32) (X : S2x256x512.Idx → EReal) (b : Fin 2)
    (hx : ∀ (q : Fin 256) (e : Fin 512), x0 (ix3 (0 : Fin 1) q e) = X (ix3 b q e)) (u : Fin 1) (q d : Fin 256) :
    Gen.k0_pay1 (F := Ideal) (Gen.k0_pay5 x0 x2 x3) (Gen.k0_pay7 x6) x10 (ix3 u q d)
      = Cert.Spec.projBias (Cert.Spec.feat X x2 x3) x6 x10 b q d := by
  refine (projQ_apply _ _ x10 u q d).trans ?_
  show _ = (∑ h : Fin 256, Cert.Spec.feat X x2 x3 b q h * x6 (ix2 h d)) + x10 (ix1 d)
  exact congrArg₂ (· + ·) (Finset.sum_congr rfl fun h _ =>
    congrArg₂ (· * ·) (featQ_pay x0 x2 x3 X b hx q h) (wq_apply x6 h d)) rfl

/-- The query part of the variance branch. -/
theorem qvpart_pay (x0 : Vec Ideal S1x256x512 .f32) (x2 : Vec Ideal S512x256 .f32) (x3 : Vec Ideal S256 .f32)
    (x8 : Vec Ideal S256x256 .f32) (x11 : Vec Ideal S256 .f32) (X : S2x256x512.Idx → EReal) (b : Fin 2)
    (hx : ∀ (q : Fin 256) (e : Fin 512), x0 (ix3 (0 : Fin 1) q e) = X (ix3 b q e)) (u : Fin 1) (q d : Fin 256) :
    Gen.k0_pay3 (F := Ideal) (Gen.k0_pay5 x0 x2 x3) (Gen.k0_pay9 x8) x11 (ix3 u q d)
      = Cert.Spec.projBias (Cert.Spec.feat X x2 x3) x8 x11 b q d := by
  refine (projQV_apply _ _ x11 u q d).trans ?_
  show _ = (∑ h : Fin 256, Cert.Spec.feat X x2 x3 b q h * x8 (ix2 h d)) + x11 (ix1 d)
  exact congrArg₂ (· + ·) (Finset.sum_congr rfl fun h _ =>
    congrArg₂ (· * ·) (featQ_pay x0 x2 x3 X b hx q h) (wqv_apply x8 h d)) rfl

/-- The key part of the importance branch. -/
theorem kpart_pay (x1 : Vec Ideal S1x512x512 .f32) (x4 : Vec Ideal S512x256 .f32) (x5 : Vec Ideal S256 .f32)
    (x7 : Vec Ideal S256x256 .f32) (X : S2x512x512.Idx → EReal) (b : Fin 2)
    (hx : ∀ (k : Fin 512) (e : Fin 512), x1 (ix3 (0 : Fin 1) k e) = X (ix3 b k e)) (u : Fin 1) (k : Fin 512) (d : Fin 256) :
    Gen.k0_pay2 (F := Ideal) (Gen.k0_pay6 x1 x4 x5) (Gen.k0_pay8 x7) (ix3 u k d)
      = Cert.Spec.proj (Cert.Spec.feat X x4 x5) x7 b k d := by
  refine (projK_apply _ _ u k d).trans ?_
  show _ = ∑ h : Fin 256, Cert.Spec.feat X x4 x5 b k h * x7 (ix2 h d)
  exact Finset.sum_congr rfl fun h _ => congrArg₂ (· * ·) (featK_pay x1 x4 x5 X b hx k h) (wk_apply x7 h d)

/-- The key part of the variance branch. -/
theorem kvpart_pay (x1 : Vec Ideal S1x512x512 .f32) (x4 : Vec Ideal S512x256 .f32) (x5 : Vec Ideal S256 .f32)
    (x9 : Vec Ideal S256x256 .f32) (X : S2x512x512.Idx → EReal) (b : Fin 2)
    (hx : ∀ (k : Fin 512) (e : Fin 512), x1 (ix3 (0 : Fin 1) k e) = X (ix3 b k e)) (u : Fin 1) (k : Fin 512) (d : Fin 256) :
    Gen.k0_pay4 (F := Ideal) (Gen.k0_pay6 x1 x4 x5) x9 (ix3 u k d)
      = Cert.Spec.proj (Cert.Spec.feat X x4 x5) x9 b k d := by
  refine (projKV_apply _ x9 u k d).trans ?_
  show _ = ∑ h : Fin 256, Cert.Spec.feat X x4 x5 b k h * x9 (ix2 h d)
  exact Finset.sum_congr rfl fun h _ => congrArg₂ (· * ·) (featK_pay x1 x4 x5 X b hx k h) rfl

/-! ## The grid and the blocks

The grid has two points, one per batch. Every data window's block at point t is batch t's whole slab (block index
(t, 0, 0), block size the slab's), and every weight window's block is its whole array (block index all zero). An
element of a block sits in its array at block index × block size + its coordinate inside the block. -/

variable (V : (c : Dev nD) → (b : Ref sig .tc) → Buf (Elt Ideal) ((c : Thread nD τ).loc b))

/-- The batch a grid point works on. -/
def bat (t : Fin cfg0.N) : Fin 2 := ⟨t.val, lt_of_lt_of_eq t.isLt Gen.N_0⟩

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps of the slab windows, decided over the two points. -/
theorem idx_slabs : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_12.index t (0 : Fin 3) = t.val ∧ win0_12.index t (1 : Fin 3) = 0 ∧ win0_12.index t (2 : Fin 3) = 0)
    ∧ (win0_13.index t (0 : Fin 3) = t.val ∧ win0_13.index t (1 : Fin 3) = 0 ∧ win0_13.index t (2 : Fin 3) = 0)
    ∧ (win0_14.index t (0 : Fin 3) = t.val ∧ win0_14.index t (1 : Fin 3) = 0 ∧ win0_14.index t (2 : Fin 3) = 0)
    ∧ (win0_15.index t (0 : Fin 3) = t.val ∧ win0_15.index t (1 : Fin 3) = 0 ∧ win0_15.index t (2 : Fin 3) = 0) :=
  (by decide +kernel : ∀ t : Fin grid0.N, _)

/-- The printed index maps of the weight windows: always the one block. -/
theorem idx_weights : ∀ t : Fin cfg0.N,
    (win0_2.index t (0 : Fin 2) = 0 ∧ win0_2.index t (1 : Fin 2) = 0)
    ∧ (win0_4.index t (0 : Fin 2) = 0 ∧ win0_4.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ win0_3.index t (0 : Fin 1) = 0 ∧ win0_5.index t (0 : Fin 1) = 0
    ∧ win0_10.index t (0 : Fin 1) = 0 ∧ win0_11.index t (0 : Fin 1) = 0 :=
  (by decide +kernel : ∀ t : Fin grid0.N, _)

/-- The query slab at point t is batch t of the query array. -/
theorem slabQ_apply (c : Dev nD) (t : Fin cfg0.N) (q : Fin 256) (e : Fin 512) :
    (Gen.iblk0 (F := Ideal) V c 0 t : Vec Ideal S1x256x512 .f32) (ix3 (0 : Fin 1) q e)
      = (V c main_arg0 : S2x256x512.Idx → EReal) (ix3 (bat t) q e) := by
  obtain ⟨⟨e0, e1, e2⟩, -⟩ := idx_slabs t
  unfold Gen.iblk0
  rw [View.read_apply]
  show V c main_arg0 _ = V c main_arg0 _
  congr 1
  funext a
  apply Fin.ext
  match a with
  | ⟨0, _⟩ => show win0_0.index t (0 : Fin 3) * 1 + 1 * 0 = t.val; rw [e0]; omega
  | ⟨1, _⟩ => show win0_0.index t (1 : Fin 3) * 256 + 1 * q.val = q.val; rw [e1]; omega
  | ⟨2, _⟩ => show win0_0.index t (2 : Fin 3) * 512 + 1 * e.val = e.val; rw [e2]; omega

/-- The key slab at point t is batch t of the key array. -/
theorem slabK_apply (c : Dev nD) (t : Fin cfg0.N) (k : Fin 512) (e : Fin 512) :
    (Gen.iblk0 (F := Ideal) V c 1 t : Vec Ideal S1x512x512 .f32) (ix3 (0 : Fin 1) k e)
      = (V c main_arg1 : S2x512x512.Idx → EReal) (ix3 (bat t) k e) := by
  obtain ⟨-, ⟨e0, e1, e2⟩, -⟩ := idx_slabs t
  unfold Gen.iblk0
  rw [View.read_apply]
  show V c main_arg1 _ = V c main_arg1 _
  congr 1
  funext a
  apply Fin.ext
  match a with
  | ⟨0, _⟩ => show win0_1.index t (0 : Fin 3) * 1 + 1 * 0 = t.val; rw [e0]; omega
  | ⟨1, _⟩ => show win0_1.index t (1 : Fin 3) * 512 + 1 * k.val = k.val; rw [e1]; omega
  | ⟨2, _⟩ => show win0_1.index t (2 : Fin 3) * 512 + 1 * e.val = e.val; rw [e2]; omega

/-- A weight window's block is its whole array: the query encoder's weight. -/
theorem blk_Wqe (c : Dev nD) (t : Fin cfg0.N) :
    (Gen.iblk0 (F := Ideal) V c 2 t : Vec Ideal S512x256 .f32) = V c main_arg2 := by
  obtain ⟨⟨e0, e1⟩, -⟩ := idx_weights t
  funext j
  unfold Gen.iblk0
  rw [View.read_apply]
  show V c main_arg2 _ = V c main_arg2 _
  congr 1
  funext a
  apply Fin.ext
  match a with
  | ⟨0, _⟩ => show win0_2.index t (0 : Fin 2) * 512 + 1 * (j 0).val = (j 0).val; rw [e0]; omega
  | ⟨1, _⟩ => show win0_2.index t (1 : Fin 2) * 256 + 1 * (j 1).val = (j 1).val; rw [e1]; omega

/-- The key encoder's weight. -/
theorem blk_Wke (c : Dev nD) (t : Fin cfg0.N) :
    (Gen.iblk0 (F := Ideal) V c 4 t : Vec Ideal S512x256 .f32) = V c main_arg4 := by
  obtain ⟨-, ⟨e0, e1⟩, -⟩ := idx_weights t
  funext j
  unfold Gen.iblk0
  rw [View.read_apply]
  show V c main_arg4 _ = V c main_arg4 _
  congr 1
  funext a
  apply Fin.ext
  match a with
  | ⟨0, _⟩ => show win0_4.index t (0 : Fin 2) * 512 + 1 * (j 0).val = (j 0).val; rw [e0]; omega
  | ⟨1, _⟩ => show win0_4.index t (1 : Fin 2) * 256 + 1 * (j 1).val = (j 1).val; rw [e1]; omega

/-- The first layer's upper half (query side). -/
theorem blk_W0q (c : Dev nD) (t : Fin cfg0.N) :
    (Gen.iblk0 (F := Ideal) V c 6 t : Vec Ideal S256x256 .f32) = V c main_v0 := by
  obtain ⟨-, -, ⟨e0, e1⟩, -⟩ := idx_weights t
  funext j
  unfold Gen.iblk0
  rw [View.read_apply]
  show V c main_v0 _ = V c main_v0 _
  congr 1
  funext a
  apply Fin.ext
  match a with
  | ⟨0, _⟩ => show win0_6.index t (0 : Fin 2) * 256 + 1 * (j 0).val = (j 0).val; rw [e0]; omega
  | ⟨1, _⟩ => show win0_6.index t (1 : Fin 2) * 256 + 1 * (j 1).val = (j 1).val; rw [e1]; omega

/-- The first layer's lower half (key side). -/
theorem blk_W0k (c : Dev nD) (t : Fin cfg0.N) :
    (Gen.iblk0 (F := Ideal) V c 7 t : Vec Ideal S256x256 .f32) = V c main_v1 := by
  obtain ⟨-, -, -, ⟨e0, e1⟩, -⟩ := idx_weights t
  funext j
  unfold Gen.iblk0
  rw [View.read_apply]
  show V c main_v1 _ = V c main_v1 _
  congr 1
  funext a
  apply Fin.ext
  match a with
  | ⟨0, _⟩ => show win0_7.index t (0 : Fin 2) * 256 + 1 * (j 0).val = (j 0).val; rw [e0]; omega
  | ⟨1, _⟩ => show win0_7.index t (1 : Fin 2) * 256 + 1 * (j 1).val = (j 1).val; rw [e1]; omega

/-- The variance layer's upper half (query side). -/
theorem blk_Wvq (c : Dev nD) (t : Fin cfg0.N) :
    (Gen.iblk0 (F := Ideal) V c 8 t : Vec Ideal S256x256 .f32) = V c main_v2 := by
  obtain ⟨-, -, -, -, ⟨e0, e1⟩, -⟩ := idx_weights t
  funext j
  unfold Gen.iblk0
  rw [View.read_apply]
  show V c main_v2 _ = V c main_v2 _
  congr 1
  funext a
  apply Fin.ext
  match a with
  | ⟨0, _⟩ => show win0_8.index t (0 : Fin 2) * 256 + 1 * (j 0).val = (j 0).val; rw [e0]; omega
  | ⟨1, _⟩ => show win0_8.index t (1 : Fin 2) * 256 + 1 * (j 1).val = (j 1).val; rw [e1]; omega

/-- The variance layer's lower half (key side). -/
theorem blk_Wvk (c : Dev nD) (t : Fin cfg0.N) :
    (Gen.iblk0 (F := Ideal) V c 9 t : Vec Ideal S256x256 .f32) = V c main_v3 := by
  obtain ⟨-, -, -, -, -, ⟨e0, e1⟩, -⟩ := idx_weights t
  funext j
  unfold Gen.iblk0
  rw [View.read_apply]
  show V c main_v3 _ = V c main_v3 _
  congr 1
  funext a
  apply Fin.ext
  match a with
  | ⟨0, _⟩ => show win0_9.index t (0 : Fin 2) * 256 + 1 * (j 0).val = (j 0).val; rw [e0]; omega
  | ⟨1, _⟩ => show win0_9.index t (1 : Fin 2) * 256 + 1 * (j 1).val = (j 1).val; rw [e1]; omega

/-- The query encoder's bias. -/
theorem blk_bqe (c : Dev nD) (t : Fin cfg0.N) :
    (Gen.iblk0 (F := Ideal) V c 3 t : Vec Ideal S256 .f32) = V c main_arg3 := by
  obtain ⟨-, -, -, -, -, -, e0, -⟩ := idx_weights t
  funext j
  unfold Gen.iblk0
  rw [View.read_apply]
  show V c main_arg3 _ = V c main_arg3 _
  congr 1
  funext a
  apply Fin.ext
  match a with
  | ⟨0, _⟩ => show win0_3.index t (0 : Fin 1) * 256 + 1 * (j 0).val = (j 0).val; rw [e0]; omega

/-- The key encoder's bias. -/
theorem blk_bke (c : Dev nD) (t : Fin cfg0.N) :
    (Gen.iblk0 (F := Ideal) V c 5 t : Vec Ideal S256 .f32) = V c main_arg5 := by
  obtain ⟨-, -, -, -, -, -, -, e0, -⟩ := idx_weights t
  funext j
  unfold Gen.iblk0
  rw [View.read_apply]
  show V c main_arg5 _ = V c main_arg5 _
  congr 1
  funext a
  apply Fin.ext
  match a with
  | ⟨0, _⟩ => show win0_5.index t (0 : Fin 1) * 256 + 1 * (j 0).val = (j 0).val; rw [e0]; omega

/-- The first layer's bias. -/
theorem blk_b0 (c : Dev nD) (t : Fin cfg0.N) :
    (Gen.iblk0 (F := Ideal) V c 10 t : Vec Ideal S256 .f32) = V c main_arg7 := by
  obtain ⟨-, -, -, -, -, -, -, -, e0, -⟩ := idx_weights t
  funext j
  unfold Gen.iblk0
  rw [View.read_apply]
  show V c main_arg7 _ = V c main_arg7 _
  congr 1
  funext a
  apply Fin.ext
  match a with
  | ⟨0, _⟩ => show win0_10.index t (0 : Fin 1) * 256 + 1 * (j 0).val = (j 0).val; rw [e0]; omega

/-- The variance layer's bias. -/
theorem blk_bv (c : Dev nD) (t : Fin cfg0.N) :
    (Gen.iblk0 (F := Ideal) V c 11 t : Vec Ideal S256 .f32) = V c main_arg15 := by
  obtain ⟨-, -, -, -, -, -, -, -, -, e0⟩ := idx_weights t
  funext j
  unfold Gen.iblk0
  rw [View.read_apply]
  show V c main_arg15 _ = V c main_arg15 _
  congr 1
  funext a
  apply Fin.ext
  match a with
  | ⟨0, _⟩ => show win0_11.index t (0 : Fin 1) * 256 + 1 * (j 0).val = (j 0).val; rw [e0]; omega

/-! ## What a point writes back, the cover, and the arrays the region leaves

Point t's staging buffer of an output window, after the body, is batch t's slab of the specification's array; the two
slabs tile the array, so after both write-backs the array is the specification's. -/

/-- An element (u, s, d) of point t's block of output window 12 sits at (t, s, d) of its array. -/
theorem emb_qpart (t : Fin cfg0.N) (u : Fin 1) (s : Fin 256) (d : Fin 256) :
    ((cfg0.win 12).blk t).view.emb (ix3 u s d) = (ix3 (bat t) s d : S2x256x256.Idx) := by
  obtain ⟨-, -, ⟨e0, e1, e2⟩, -⟩ := idx_slabs t
  funext a
  apply Fin.ext
  match a with
  | ⟨0, _⟩ => show win0_12.index t (0 : Fin 3) * 1 + 1 * u.val = t.val; rw [e0]; omega
  | ⟨1, _⟩ => show win0_12.index t (1 : Fin 3) * 256 + 1 * s.val = s.val; rw [e1]; omega
  | ⟨2, _⟩ => show win0_12.index t (2 : Fin 3) * 256 + 1 * d.val = d.val; rw [e2]; omega

/-- What point t writes back to output window 12: batch t's slab of the specification's array. -/
theorem flushed_qpart (c : Dev nD) (t : Fin cfg0.N) :
    (Gen.dat0 (F := Ideal) V c).flushed 12 t
      = ((cfg0.win 12).blk t).view.read (Elt Ideal) (Cert.Spec.arr3 (Cert.Spec.projBias (Cert.Spec.feat (V c main_arg0) (V c main_arg2) (V c main_arg3)) (V c main_v0) (V c main_arg7))) := by
  show (cfg0.win 12).cut (grid0.coords t) ((Gen.dat0 V c).after 12 t) = _
  rw [Gen.after0_12]
  unfold Gen.out0_12
  rw [View.canon_unit_zero hz3]
  simp only [View.ld_unit_zero (S := S1x256x512) hz3, View.ld_unit_zero (S := S512x256) hz2,
    View.ld_unit_zero (S := S256x256) hz2, View.ld_unit_zero (S := S256) hz1]
  rw [blk_Wqe, blk_bqe, blk_W0q, blk_b0]
  funext j
  obtain ⟨u, s, d, rfl⟩ : ∃ (u : Fin 1) (s : Fin 256) (d : Fin 256), j = ix3 u s d := ⟨j 0, j 1, j 2, eq_ix3 j⟩
  show Gen.k0_pay1 (F := Ideal) (Gen.k0_pay5 (Gen.iblk0 V c 0 t) (V c main_arg2) (V c main_arg3)) (Gen.k0_pay7 (V c main_v0)) (V c main_arg7) (ix3 u s d)
    = Cert.Spec.arr3 (Cert.Spec.projBias (Cert.Spec.feat (V c main_arg0) (V c main_arg2) (V c main_arg3)) (V c main_v0) (V c main_arg7)) (((cfg0.win 12).blk t).view.emb (ix3 u s d))
  rw [emb_qpart t u s d]
  exact qpart_pay (Gen.iblk0 V c 0 t) (V c main_arg2) (V c main_arg3) (V c main_v0) (V c main_arg7) (V c main_arg0) (bat t)
    (fun q e => slabQ_apply V c t q e) u s d

/-- An index of output window 12's array is in point t's block iff each coordinate is in the block's range on its axis. -/
theorem mem_blk_qpart (t : Fin cfg0.N) (i : S2x256x256.Idx) :
    i ∈ ((cfg0.win 12).blk t).view.set ↔ ∀ a : Fin 3, win0_12.index t a * S1x256x256.size a ≤ (i a).val
      ∧ (i a).val < win0_12.index t a * S1x256x256.size a + S1x256x256.size a := by
  show i ∈ ((View.whole main_v4_0).slice (win0_12.rect t)).set ↔ _
  rw [View.set_slice_whole, Rect.mem_set_unit]
  exact Iff.rfl

/-- Every index (b, s, d) lies in point b's block: the two slabs tile the array. -/
theorem cover_qpart (i : S2x256x256.Idx) :
    ∃ t : Fin cfg0.N, (cfg0.win 12).flush t = true ∧ i ∈ ((cfg0.win 12).blk t).view.set := by
  have hi0 : (i 0).val < 2 := (i 0).isLt
  have hi1 : (i 1).val < 256 := (i 1).isLt
  have hi2 : (i 2).val < 256 := (i 2).isLt
  obtain ⟨t, ht⟩ : ∃ t : Fin cfg0.N, t.val = (i 0).val := ⟨⟨(i 0).val, lt_of_lt_of_eq hi0 Gen.N_0.symm⟩, rfl⟩
  obtain ⟨-, -, ⟨e0, e1, e2⟩, -⟩ := idx_slabs t
  refine ⟨t, Gen.flush0_12 t, ?_⟩
  rw [mem_blk_qpart]
  intro a
  match a with
  | ⟨0, _⟩ => show win0_12.index t (0 : Fin 3) * 1 ≤ (i 0).val ∧ (i 0).val < win0_12.index t (0 : Fin 3) * 1 + 1; rw [e0]; omega
  | ⟨1, _⟩ => show win0_12.index t (1 : Fin 3) * 256 ≤ (i 1).val ∧ (i 1).val < win0_12.index t (1 : Fin 3) * 256 + 256; rw [e1]; omega
  | ⟨2, _⟩ => show win0_12.index t (2 : Fin 3) * 256 ≤ (i 2).val ∧ (i 2).val < win0_12.index t (2 : Fin 3) * 256 + 256; rw [e2]; omega

/-- The query part of the importance branch, as the region leaves it: the specification's array. -/
theorem qpart_final (c : Dev nD) :
    (Gen.dat0 (F := Ideal) V c).arrAt 12 cfg0.N
      = Cert.Spec.arr3 (Cert.Spec.projBias (Cert.Spec.feat (V c main_arg0) (V c main_arg2) (V c main_arg3)) (V c main_v0) (V c main_arg7)) :=
  (Gen.dat0 (F := Ideal) V c).arrAt_eq_of_cover 12 _ (fun t _ => flushed_qpart V c t) cover_qpart

/-- An element (u, s, d) of point t's block of output window 13 sits at (t, s, d) of its array. -/
theorem emb_kpart (t : Fin cfg0.N) (u : Fin 1) (s : Fin 512) (d : Fin 256) :
    ((cfg0.win 13).blk t).view.emb (ix3 u s d) = (ix3 (bat t) s d : S2x512x256.Idx) := by
  obtain ⟨-, -, -, ⟨e0, e1, e2⟩, -⟩ := idx_slabs t
  funext a
  apply Fin.ext
  match a with
  | ⟨0, _⟩ => show win0_13.index t (0 : Fin 3) * 1 + 1 * u.val = t.val; rw [e0]; omega
  | ⟨1, _⟩ => show win0_13.index t (1 : Fin 3) * 512 + 1 * s.val = s.val; rw [e1]; omega
  | ⟨2, _⟩ => show win0_13.index t (2 : Fin 3) * 256 + 1 * d.val = d.val; rw [e2]; omega

/-- What point t writes back to output window 13: batch t's slab of the specification's array. -/
theorem flushed_kpart (c : Dev nD) (t : Fin cfg0.N) :
    (Gen.dat0 (F := Ideal) V c).flushed 13 t
      = ((cfg0.win 13).blk t).view.read (Elt Ideal) (Cert.Spec.arr3 (Cert.Spec.proj (Cert.Spec.feat (V c main_arg1) (V c main_arg4) (V c main_arg5)) (V c main_v1))) := by
  show (cfg0.win 13).cut (grid0.coords t) ((Gen.dat0 V c).after 13 t) = _
  rw [Gen.after0_13]
  unfold Gen.out0_13
  rw [View.canon_unit_zero hz3]
  simp only [View.ld_unit_zero (S := S1x512x512) hz3, View.ld_unit_zero (S := S512x256) hz2,
    View.ld_unit_zero (S := S256x256) hz2, View.ld_unit_zero (S := S256) hz1]
  rw [blk_Wke, blk_bke, blk_W0k]
  funext j
  obtain ⟨u, s, d, rfl⟩ : ∃ (u : Fin 1) (s : Fin 512) (d : Fin 256), j = ix3 u s d := ⟨j 0, j 1, j 2, eq_ix3 j⟩
  show Gen.k0_pay2 (F := Ideal) (Gen.k0_pay6 (Gen.iblk0 V c 1 t) (V c main_arg4) (V c main_arg5)) (Gen.k0_pay8 (V c main_v1)) (ix3 u s d)
    = Cert.Spec.arr3 (Cert.Spec.proj (Cert.Spec.feat (V c main_arg1) (V c main_arg4) (V c main_arg5)) (V c main_v1)) (((cfg0.win 13).blk t).view.emb (ix3 u s d))
  rw [emb_kpart t u s d]
  exact kpart_pay (Gen.iblk0 V c 1 t) (V c main_arg4) (V c main_arg5) (V c main_v1) (V c main_arg1) (bat t)
    (fun k e => slabK_apply V c t k e) u s d

/-- An index of output window 13's array is in point t's block iff each coordinate is in the block's range on its axis. -/
theorem mem_blk_kpart (t : Fin cfg0.N) (i : S2x512x256.Idx) :
    i ∈ ((cfg0.win 13).blk t).view.set ↔ ∀ a : Fin 3, win0_13.index t a * S1x512x256.size a ≤ (i a).val
      ∧ (i a).val < win0_13.index t a * S1x512x256.size a + S1x512x256.size a := by
  show i ∈ ((View.whole main_v4_1).slice (win0_13.rect t)).set ↔ _
  rw [View.set_slice_whole, Rect.mem_set_unit]
  exact Iff.rfl

/-- Every index (b, s, d) lies in point b's block: the two slabs tile the array. -/
theorem cover_kpart (i : S2x512x256.Idx) :
    ∃ t : Fin cfg0.N, (cfg0.win 13).flush t = true ∧ i ∈ ((cfg0.win 13).blk t).view.set := by
  have hi0 : (i 0).val < 2 := (i 0).isLt
  have hi1 : (i 1).val < 512 := (i 1).isLt
  have hi2 : (i 2).val < 256 := (i 2).isLt
  obtain ⟨t, ht⟩ : ∃ t : Fin cfg0.N, t.val = (i 0).val := ⟨⟨(i 0).val, lt_of_lt_of_eq hi0 Gen.N_0.symm⟩, rfl⟩
  obtain ⟨-, -, -, ⟨e0, e1, e2⟩, -⟩ := idx_slabs t
  refine ⟨t, Gen.flush0_13 t, ?_⟩
  rw [mem_blk_kpart]
  intro a
  match a with
  | ⟨0, _⟩ => show win0_13.index t (0 : Fin 3) * 1 ≤ (i 0).val ∧ (i 0).val < win0_13.index t (0 : Fin 3) * 1 + 1; rw [e0]; omega
  | ⟨1, _⟩ => show win0_13.index t (1 : Fin 3) * 512 ≤ (i 1).val ∧ (i 1).val < win0_13.index t (1 : Fin 3) * 512 + 512; rw [e1]; omega
  | ⟨2, _⟩ => show win0_13.index t (2 : Fin 3) * 256 ≤ (i 2).val ∧ (i 2).val < win0_13.index t (2 : Fin 3) * 256 + 256; rw [e2]; omega

/-- The key part of the importance branch, as the region leaves it. -/
theorem kpart_final (c : Dev nD) :
    (Gen.dat0 (F := Ideal) V c).arrAt 13 cfg0.N
      = Cert.Spec.arr3 (Cert.Spec.proj (Cert.Spec.feat (V c main_arg1) (V c main_arg4) (V c main_arg5)) (V c main_v1)) :=
  (Gen.dat0 (F := Ideal) V c).arrAt_eq_of_cover 13 _ (fun t _ => flushed_kpart V c t) cover_kpart

/-- An element (u, s, d) of point t's block of output window 14 sits at (t, s, d) of its array. -/
theorem emb_qvpart (t : Fin cfg0.N) (u : Fin 1) (s : Fin 256) (d : Fin 256) :
    ((cfg0.win 14).blk t).view.emb (ix3 u s d) = (ix3 (bat t) s d : S2x256x256.Idx) := by
  obtain ⟨-, -, -, -, ⟨e0, e1, e2⟩, -⟩ := idx_slabs t
  funext a
  apply Fin.ext
  match a with
  | ⟨0, _⟩ => show win0_14.index t (0 : Fin 3) * 1 + 1 * u.val = t.val; rw [e0]; omega
  | ⟨1, _⟩ => show win0_14.index t (1 : Fin 3) * 256 + 1 * s.val = s.val; rw [e1]; omega
  | ⟨2, _⟩ => show win0_14.index t (2 : Fin 3) * 256 + 1 * d.val = d.val; rw [e2]; omega

/-- What point t writes back to output window 14: batch t's slab of the specification's array. -/
theorem flushed_qvpart (c : Dev nD) (t : Fin cfg0.N) :
    (Gen.dat0 (F := Ideal) V c).flushed 14 t
      = ((cfg0.win 14).blk t).view.read (Elt Ideal) (Cert.Spec.arr3 (Cert.Spec.projBias (Cert.Spec.feat (V c main_arg0) (V c main_arg2) (V c main_arg3)) (V c main_v2) (V c main_arg15))) := by
  show (cfg0.win 14).cut (grid0.coords t) ((Gen.dat0 V c).after 14 t) = _
  rw [Gen.after0_14]
  unfold Gen.out0_14
  rw [View.canon_unit_zero hz3]
  simp only [View.ld_unit_zero (S := S1x256x512) hz3, View.ld_unit_zero (S := S512x256) hz2,
    View.ld_unit_zero (S := S256x256) hz2, View.ld_unit_zero (S := S256) hz1]
  rw [blk_Wqe, blk_bqe, blk_Wvq, blk_bv]
  funext j
  obtain ⟨u, s, d, rfl⟩ : ∃ (u : Fin 1) (s : Fin 256) (d : Fin 256), j = ix3 u s d := ⟨j 0, j 1, j 2, eq_ix3 j⟩
  show Gen.k0_pay3 (F := Ideal) (Gen.k0_pay5 (Gen.iblk0 V c 0 t) (V c main_arg2) (V c main_arg3)) (Gen.k0_pay9 (V c main_v2)) (V c main_arg15) (ix3 u s d)
    = Cert.Spec.arr3 (Cert.Spec.projBias (Cert.Spec.feat (V c main_arg0) (V c main_arg2) (V c main_arg3)) (V c main_v2) (V c main_arg15)) (((cfg0.win 14).blk t).view.emb (ix3 u s d))
  rw [emb_qvpart t u s d]
  exact qvpart_pay (Gen.iblk0 V c 0 t) (V c main_arg2) (V c main_arg3) (V c main_v2) (V c main_arg15) (V c main_arg0) (bat t)
    (fun q e => slabQ_apply V c t q e) u s d

/-- An index of output window 14's array is in point t's block iff each coordinate is in the block's range on its axis. -/
theorem mem_blk_qvpart (t : Fin cfg0.N) (i : S2x256x256.Idx) :
    i ∈ ((cfg0.win 14).blk t).view.set ↔ ∀ a : Fin 3, win0_14.index t a * S1x256x256.size a ≤ (i a).val
      ∧ (i a).val < win0_14.index t a * S1x256x256.size a + S1x256x256.size a := by
  show i ∈ ((View.whole main_v4_2).slice (win0_14.rect t)).set ↔ _
  rw [View.set_slice_whole, Rect.mem_set_unit]
  exact Iff.rfl

/-- Every index (b, s, d) lies in point b's block: the two slabs tile the array. -/
theorem cover_qvpart (i : S2x256x256.Idx) :
    ∃ t : Fin cfg0.N, (cfg0.win 14).flush t = true ∧ i ∈ ((cfg0.win 14).blk t).view.set := by
  have hi0 : (i 0).val < 2 := (i 0).isLt
  have hi1 : (i 1).val < 256 := (i 1).isLt
  have hi2 : (i 2).val < 256 := (i 2).isLt
  obtain ⟨t, ht⟩ : ∃ t : Fin cfg0.N, t.val = (i 0).val := ⟨⟨(i 0).val, lt_of_lt_of_eq hi0 Gen.N_0.symm⟩, rfl⟩
  obtain ⟨-, -, -, -, ⟨e0, e1, e2⟩, -⟩ := idx_slabs t
  refine ⟨t, Gen.flush0_14 t, ?_⟩
  rw [mem_blk_qvpart]
  intro a
  match a with
  | ⟨0, _⟩ => show win0_14.index t (0 : Fin 3) * 1 ≤ (i 0).val ∧ (i 0).val < win0_14.index t (0 : Fin 3) * 1 + 1; rw [e0]; omega
  | ⟨1, _⟩ => show win0_14.index t (1 : Fin 3) * 256 ≤ (i 1).val ∧ (i 1).val < win0_14.index t (1 : Fin 3) * 256 + 256; rw [e1]; omega
  | ⟨2, _⟩ => show win0_14.index t (2 : Fin 3) * 256 ≤ (i 2).val ∧ (i 2).val < win0_14.index t (2 : Fin 3) * 256 + 256; rw [e2]; omega

/-- The query part of the variance branch, as the region leaves it. -/
theorem qvpart_final (c : Dev nD) :
    (Gen.dat0 (F := Ideal) V c).arrAt 14 cfg0.N
      = Cert.Spec.arr3 (Cert.Spec.projBias (Cert.Spec.feat (V c main_arg0) (V c main_arg2) (V c main_arg3)) (V c main_v2) (V c main_arg15)) :=
  (Gen.dat0 (F := Ideal) V c).arrAt_eq_of_cover 14 _ (fun t _ => flushed_qvpart V c t) cover_qvpart

/-- An element (u, s, d) of point t's block of output window 15 sits at (t, s, d) of its array. -/
theorem emb_kvpart (t : Fin cfg0.N) (u : Fin 1) (s : Fin 512) (d : Fin 256) :
    ((cfg0.win 15).blk t).view.emb (ix3 u s d) = (ix3 (bat t) s d : S2x512x256.Idx) := by
  obtain ⟨-, -, -, -, -, e0, e1, e2⟩ := idx_slabs t
  funext a
  apply Fin.ext
  match a with
  | ⟨0, _⟩ => show win0_15.index t (0 : Fin 3) * 1 + 1 * u.val = t.val; rw [e0]; omega
  | ⟨1, _⟩ => show win0_15.index t (1 : Fin 3) * 512 + 1 * s.val = s.val; rw [e1]; omega
  | ⟨2, _⟩ => show win0_15.index t (2 : Fin 3) * 256 + 1 * d.val = d.val; rw [e2]; omega

/-- What point t writes back to output window 15: batch t's slab of the specification's array. -/
theorem flushed_kvpart (c : Dev nD) (t : Fin cfg0.N) :
    (Gen.dat0 (F := Ideal) V c).flushed 15 t
      = ((cfg0.win 15).blk t).view.read (Elt Ideal) (Cert.Spec.arr3 (Cert.Spec.proj (Cert.Spec.feat (V c main_arg1) (V c main_arg4) (V c main_arg5)) (V c main_v3))) := by
  show (cfg0.win 15).cut (grid0.coords t) ((Gen.dat0 V c).after 15 t) = _
  rw [Gen.after0_15]
  unfold Gen.out0_15
  rw [View.canon_unit_zero hz3]
  simp only [View.ld_unit_zero (S := S1x512x512) hz3, View.ld_unit_zero (S := S512x256) hz2,
    View.ld_unit_zero (S := S256x256) hz2, View.ld_unit_zero (S := S256) hz1]
  rw [blk_Wke, blk_bke, blk_Wvk]
  funext j
  obtain ⟨u, s, d, rfl⟩ : ∃ (u : Fin 1) (s : Fin 512) (d : Fin 256), j = ix3 u s d := ⟨j 0, j 1, j 2, eq_ix3 j⟩
  show Gen.k0_pay4 (F := Ideal) (Gen.k0_pay6 (Gen.iblk0 V c 1 t) (V c main_arg4) (V c main_arg5)) (V c main_v3) (ix3 u s d)
    = Cert.Spec.arr3 (Cert.Spec.proj (Cert.Spec.feat (V c main_arg1) (V c main_arg4) (V c main_arg5)) (V c main_v3)) (((cfg0.win 15).blk t).view.emb (ix3 u s d))
  rw [emb_kvpart t u s d]
  exact kvpart_pay (Gen.iblk0 V c 1 t) (V c main_arg4) (V c main_arg5) (V c main_v3) (V c main_arg1) (bat t)
    (fun k e => slabK_apply V c t k e) u s d

/-- An index of output window 15's array is in point t's block iff each coordinate is in the block's range on its axis. -/
theorem mem_blk_kvpart (t : Fin cfg0.N) (i : S2x512x256.Idx) :
    i ∈ ((cfg0.win 15).blk t).view.set ↔ ∀ a : Fin 3, win0_15.index t a * S1x512x256.size a ≤ (i a).val
      ∧ (i a).val < win0_15.index t a * S1x512x256.size a + S1x512x256.size a := by
  show i ∈ ((View.whole main_v4_3).slice (win0_15.rect t)).set ↔ _
  rw [View.set_slice_whole, Rect.mem_set_unit]
  exact Iff.rfl

/-- Every index (b, s, d) lies in point b's block: the two slabs tile the array. -/
theorem cover_kvpart (i : S2x512x256.Idx) :
    ∃ t : Fin cfg0.N, (cfg0.win 15).flush t = true ∧ i ∈ ((cfg0.win 15).blk t).view.set := by
  have hi0 : (i 0).val < 2 := (i 0).isLt
  have hi1 : (i 1).val < 512 := (i 1).isLt
  have hi2 : (i 2).val < 256 := (i 2).isLt
  obtain ⟨t, ht⟩ : ∃ t : Fin cfg0.N, t.val = (i 0).val := ⟨⟨(i 0).val, lt_of_lt_of_eq hi0 Gen.N_0.symm⟩, rfl⟩
  obtain ⟨-, -, -, -, -, e0, e1, e2⟩ := idx_slabs t
  refine ⟨t, Gen.flush0_15 t, ?_⟩
  rw [mem_blk_kvpart]
  intro a
  match a with
  | ⟨0, _⟩ => show win0_15.index t (0 : Fin 3) * 1 ≤ (i 0).val ∧ (i 0).val < win0_15.index t (0 : Fin 3) * 1 + 1; rw [e0]; omega
  | ⟨1, _⟩ => show win0_15.index t (1 : Fin 3) * 512 ≤ (i 1).val ∧ (i 1).val < win0_15.index t (1 : Fin 3) * 512 + 512; rw [e1]; omega
  | ⟨2, _⟩ => show win0_15.index t (2 : Fin 3) * 256 ≤ (i 2).val ∧ (i 2).val < win0_15.index t (2 : Fin 3) * 256 + 256; rw [e2]; omega

/-- The key part of the variance branch, as the region leaves it. -/
theorem kvpart_final (c : Dev nD) :
    (Gen.dat0 (F := Ideal) V c).arrAt 15 cfg0.N
      = Cert.Spec.arr3 (Cert.Spec.proj (Cert.Spec.feat (V c main_arg1) (V c main_arg4) (V c main_arg5)) (V c main_v3)) :=
  (Gen.dat0 (F := Ideal) V c).arrAt_eq_of_cover 15 _ (fun t _ => flushed_kvpart V c t) cover_kvpart

end Cert.Encode
end
-- ==== Proof.LibPairLayout.lean ====
/-
  Reusable lemmas: the layout operations of a pairwise (outer) combination of two row blocks, read at an entry.

  A kernel that combines every row i of an [a, c] block with every row k of a [b, c] block builds the [a, b, c] array
  of pairs by inserting a unit axis ([a, c] → [a, 1, c], [b, c] → [1, b, c]) and broadcasting along it; flattens the
  pairs to the rows r = i·b + k of an [a·b, c] matrix for a matrix product and back; lays a [c] vector along every pair
  ([c] → [1, 1, c] → [a, b, c]); reads a [c, 1] column as a [c] vector; and sums over the last axis.  Each lemma reads
  one such operation at an entry written by its coordinates.  Generic in the extents and in the element type.
-/
import Idealize.ShloMosaic.Lib.Pipeline.Value
import Idealize.ShloMosaic.Lib.ValueIdx
import Idealize.ShloMosaic.PureOps.Ideal.Laws

noncomputable section

namespace Cert.PairLayout

open Idealize.ShloMosaic Idealize.ShloMosaic.ValueIdx

variable {α : Type} {a b c n : ℕ}

/-- An [a, c] array viewed [a, 1, c] reads, at (i, u, j), the operand at (i, j). -/
theorem shapeCast_ac_a1c_apply (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An [a, 1, c] array broadcast to [a, b, c] reads, at (i, k, j), the operand at (i, 0, j). -/
theorem broadcastTo_a1c_abc_apply (x : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ x h (ix3 i k j) = x (ix3 i (0 : Fin 1) j) := by
  refine broadcastTo_apply x h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A [1, b, c] array broadcast to [a, b, c] reads, at (i, k, j), the operand at (0, k, j). -/
theorem broadcastTo_1bc_abc_apply (x : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ x h (ix3 i k j) = x (ix3 (0 : Fin 1) k j) := by
  refine broadcastTo_apply x h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A [1, 1, c] array broadcast to [a, b, c] reads, at (i, k, j), the operand at (0, 0, j). -/
theorem broadcastTo_11c_abc_apply (x : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ x h (ix3 i k j) = x (ix3 (0 : Fin 1) (0 : Fin 1) j) := by
  refine broadcastTo_apply x h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- A [c] vector viewed [1, 1, c] reads, at (u, v, j), the operand at j. -/
theorem shapeCast_c_11c_apply (x : (⟨1, ![c]⟩ : Shape).Idx → α)
    (h : (⟨1, ![c]⟩ : Shape).ShapeCasts ⟨3, ![1, 1, c]⟩) (u v : Fin 1) (j : Fin c) :
    shapeCast ⟨3, ![1, 1, c]⟩ x h (ix3 u v j) = x (ix1 j) :=
  shapeCast_apply x h _ _ (by
    have hu : u.val = 0 := by omega
    have hv : v.val = 0 := by omega
    rw [Shape.rowMajor_val_three, Shape.rowMajor_val_one]
    show j.val = (u.val * 1 + v.val) * c + j.val
    simp only [hu, hv, Nat.zero_mul, Nat.zero_add, Nat.mul_one, Nat.add_zero])

/-- A [c, 1] column viewed as a [c] vector reads, at j, the operand at (j, 0). -/
theorem shapeCast_c1_c_apply (x : (⟨2, ![c, 1]⟩ : Shape).Idx → α)
    (h : (⟨2, ![c, 1]⟩ : Shape).ShapeCasts ⟨1, ![c]⟩) (j : Fin c) :
    shapeCast ⟨1, ![c]⟩ x h (ix1 j) = x (ix2 j (0 : Fin 1)) :=
  shapeCast_apply x h _ _ (by
    rw [Shape.rowMajor_val_two, Shape.rowMajor_val_one]
    show j.val * 1 + 0 = j.val
    rw [Nat.mul_one, Nat.add_zero])

/-- The pairs flattened: an [a, b, c] array viewed as the [n, c] matrix (n = a·b) reads, at row r = i·b + k and
    column j, the operand at (i, k, j). -/
theorem shapeCast_abc_nc_apply (x : (⟨3, ![a, b, c]⟩ : Shape).Idx → α)
    (h : (⟨3, ![a, b, c]⟩ : Shape).ShapeCasts ⟨2, ![n, c]⟩) (i : Fin a) (k : Fin b) (j : Fin c) (r : Fin n)
    (hr : r.val = i.val * b + k.val) :
    shapeCast ⟨2, ![n, c]⟩ x h (ix2 r j) = x (ix3 i k j) :=
  shapeCast_apply x h _ _ (by
    rw [Shape.rowMajor_val_three, Shape.rowMajor_val_two]
    show (i.val * b + k.val) * c + j.val = r.val * c + j.val
    rw [hr])

/-- And back: an [n, c] matrix (n = a·b) viewed [a, b, c] reads, at (i, k, j), the operand at row r = i·b + k. -/
theorem shapeCast_nc_abc_apply (x : (⟨2, ![n, c]⟩ : Shape).Idx → α)
    (h : (⟨2, ![n, c]⟩ : Shape).ShapeCasts ⟨3, ![a, b, c]⟩) (i : Fin a) (k : Fin b) (j : Fin c) (r : Fin n)
    (hr : r.val = i.val * b + k.val) :
    shapeCast ⟨3, ![a, b, c]⟩ x h (ix3 i k j) = x (ix2 r j) :=
  shapeCast_apply x h _ _ (by
    rw [Shape.rowMajor_val_three, Shape.rowMajor_val_two]
    show r.val * c + j.val = (i.val * b + k.val) * c + j.val
    rw [hr])

/-- The source index of a sum over the last axis: the pair (i, k) with the coordinate j inserted is (i, k, j). -/
theorem lift_last (h : (⟨3, ![a, b, c]⟩ : Shape).Reduces [(2 : Fin 3)] ⟨2, ![a, b]⟩) (i : Fin a) (k : Fin b) (j : Fin c) :
    h.lift (ix2 i k) j = ix3 i k j := by
  funext d
  apply Fin.ext
  show h.liftVal (ix2 i k) j.val d = (ix3 i k j d).val
  unfold Shape.Reduces.liftVal
  match d with
  | ⟨0, _⟩ => rfl
  | ⟨1, _⟩ => rfl
  | ⟨2, _⟩ => rfl

/-- Over the extended reals a sum over the last axis of an [a, b, c] array, from the zero accumulator, is at the pair
    (i, k) the sum over j of the entries (i, k, j). -/
theorem laneSum_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (i : Fin a) (k : Fin b) :
    multiReduction .add [(2 : Fin 3)] ⟨2, ![a, b]⟩ src acc h hφ hacc (ix2 i k) = ∑ j : Fin c, src (ix3 i k j) := by
  refine (Ideal.multiReduction_add_single src acc h hφ hacc (ix2 i k)).trans ?_
  show ∑ j : Fin c, src (h.lift (ix2 i k) j) = _
  exact Finset.sum_congr rfl fun j _ => congrArg src (lift_last h i k j)

end Cert.PairLayout

end
-- ==== Proof.PairPayload.lean ====
/-
  The pairwise kernel body's arithmetic, read entry by entry over the extended reals.
-/
import proofs.«129681_j18940805775799_2_alg».proof.Proof.Gen.KernelIdeal.Skeleton
import proofs.«129681_j18940805775799_2_alg».proof.Proof.LibMatmulNN
import proofs.«129681_j18940805775799_2_alg».proof.Proof.LibPairLayout
import proofs.«129681_j18940805775799_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.PairPayload

open Idealize.ShloMosaic Idealize.ShloMosaic.ValueIdx Cert.KernelIdeal Cert.KernelIdeal.Gen

/-- The bf16 zero word is the real zero. -/
theorem ofBits_zero_bf16 : Ideal.ofBits .bf16 0x0000#16 = 0 := by simp [Ideal.ofBits, Ideal.ieee]

/-- The first pairwise product: row r = i·128 + k of the flattened rectified sum of query row i and key row k, against
    column d of the weight. -/
theorem pay9_apply (x0 : Vec Ideal S1x32x256 .bf16) (x1 : Vec Ideal S1x128x256 .bf16) (x4 : Vec Ideal S256x256 .f32)
    (i : Fin 32) (k : Fin 128) (r : Fin 4096) (hr : r.val = i.val * 128 + k.val) (d : Fin 256) :
    k1_pay9 (F := Ideal) x0 x1 x4 (ix2 r d)
      = ∑ j : Fin 256, max ((x0 (ix3 (0 : Fin 1) i j) : EReal) + x1 (ix3 (0 : Fin 1) k j)) 0 * x4 (ix2 j d) := by
  unfold k1_pay9
  refine (Cert.MatmulNN.matmul_zero_apply dot_S4096x256_S256x256_S4096x256_1_0_0_1_n_n rfl none _ _ r d).trans ?_
  refine Finset.sum_congr rfl fun j _ => ?_
  refine congrArg₂ (· * ·) ?_ rfl
  refine (Cert.PairLayout.shapeCast_abc_nc_apply _ _ i k j r hr).trans ?_
  refine congrArg₂ max (congrArg₂ (· + ·) ?_ ?_) ofBits_zero_bf16
  · refine (Cert.PairLayout.broadcastTo_a1c_abc_apply _ _ i k j).trans ?_
    refine (Cert.PairLayout.shapeCast_ac_a1c_apply _ _ i 0 j).trans ?_
    exact shapeCast_1ab_ab_apply _ _ i j
  · refine (Cert.PairLayout.broadcastTo_1bc_abc_apply _ _ i k j).trans ?_
    refine (shapeCast_ab_1ab_apply _ _ 0 k j).trans ?_
    exact shapeCast_1ab_ab_apply _ _ k j

/-- The importance head of one pair from the first product's row r = i·128 + k: two rectified layers, then the head's
    inner product plus its bias. -/
theorem pay11_apply (v8 v9 : Vec Ideal S256 .f32) (v11 : Ideal .f32) (v17 : FVec Ideal S256x256 .bf16)
    (v19 : FVec Ideal S256 .f32) (v30 : FVec Ideal S4096x256 .f32)
    (u : Fin 1) (i : Fin 32) (k : Fin 128) (r : Fin 4096) (hr : r.val = i.val * 128 + k.val) :
    k1_pay11 (F := Ideal) v8 v9 v11 v17 v19 v30 (ix3 u i k)
      = ∑ j : Fin 256, max (∑ j' : Fin 256, max ((v30 (ix2 r j') : EReal) + v8 (ix1 j')) 0 * v17 (ix2 j' j) + v9 (ix1 j)) 0
          * v19 (ix1 j) + v11 := by
  unfold k1_pay11
  refine (shapeCast_ab_1ab_apply _ _ u i k).trans ?_
  refine congrArg₂ (· + ·) ?_ rfl
  refine (Cert.PairLayout.laneSum_apply _ _ _ _ _ i k).trans ?_
  refine Finset.sum_congr rfl fun j _ => ?_
  refine congrArg₂ (· * ·) ?_ ?_
  · refine (Cert.PairLayout.shapeCast_nc_abc_apply _ _ i k j r hr).trans ?_
    refine congrArg₂ max (congrArg₂ (· + ·) ?_ ?_) Ideal.ofBits_zero_f32
    · refine (Cert.MatmulNN.matmul_zero_apply dot_S4096x256_S256x256_S4096x256_1_0_0_1_n_n rfl none _ _ r j).trans ?_
      refine Finset.sum_congr rfl fun j' _ => ?_
      refine congrArg₂ (· * ·) ?_ rfl
      refine congrArg₂ max (congrArg₂ (· + ·) rfl ?_) Ideal.ofBits_zero_f32
      refine (broadcastTo_1b_ab_apply _ _ r j').trans ?_
      exact shapeCast_a_1a_apply _ _ 0 j'
    · refine (broadcastTo_1b_ab_apply _ _ r j).trans ?_
      exact shapeCast_a_1a_apply _ _ 0 j
  · refine (Cert.PairLayout.broadcastTo_11c_abc_apply _ _ i k j).trans ?_
    exact Cert.PairLayout.shapeCast_c_11c_apply _ _ 0 0 j

/-- Over the extended reals a value never differs from itself, so the guarded branch of the printed softplus is never
    taken, and what is left is max(s, 0) + log1p(exp(−|s|)). -/
theorem softplus_scalar (s : EReal) :
    Scalar.select
        (FloatOps.cmpf (F := Ideal) (φ := .f32) .one (s - Ideal.ofBits .f32 0x00000000#32) (s - Ideal.ofBits .f32 0x00000000#32))
        (s + Ideal.ofBits .f32 0x00000000#32)
        (max s (Ideal.ofBits .f32 0x00000000#32)
          + FloatOps.log1p (F := Ideal) (φ := .f32) (FloatOps.exp (F := Ideal) (φ := .f32)
              (Ideal.ofBits .f32 0x00000000#32 - FloatOps.absf (F := Ideal) (φ := .f32) (s - Ideal.ofBits .f32 0x00000000#32))))
      = Cert.Spec.softplus s := by
  have hc : FloatOps.cmpf (F := Ideal) (φ := .f32) .one s s = 0#1 := by
    show Ideal.cmp .one s s = 0#1
    simp [Ideal.cmp]
  rw [Ideal.ofBits_zero_f32, sub_zero, zero_sub, hc, select_zero]
  rfl

/-- The variance of one pair: the rectified sum of the two rows against the head's column, plus its bias, through softplus. -/
theorem pay10_apply (v5 : FVec Ideal S32x256 .f32) (v7 : FVec Ideal S128x256 .f32) (v13 : Ideal .f32)
    (v21 : FVec Ideal S256 .f32) (i : Fin 32) (k : Fin 128) :
    k1_pay10 (F := Ideal) v5 v7 v13 v21 (ix2 i k)
      = Cert.Spec.softplus (∑ j : Fin 256, max ((v5 (ix2 i j) : EReal) + v7 (ix2 k j)) 0 * v21 (ix1 j) + v13) := by
  unfold k1_pay10
  refine (softplus_scalar _).trans (congrArg Cert.Spec.softplus ?_)
  refine congrArg₂ (· + ·) ?_ rfl
  refine (Cert.PairLayout.laneSum_apply _ _ _ _ _ i k).trans ?_
  refine Finset.sum_congr rfl fun j _ => ?_
  refine congrArg₂ (· * ·) ?_ ?_
  · refine congrArg₂ max (congrArg₂ (· + ·) ?_ ?_) Ideal.ofBits_zero_f32
    · refine (Cert.PairLayout.broadcastTo_a1c_abc_apply _ _ i k j).trans ?_
      exact Cert.PairLayout.shapeCast_ac_a1c_apply _ _ i 0 j
    · refine (Cert.PairLayout.broadcastTo_1bc_abc_apply _ _ i k j).trans ?_
      exact shapeCast_ab_1ab_apply _ _ 0 k j
  · refine (Cert.PairLayout.broadcastTo_11c_abc_apply _ _ i k j).trans ?_
    exact Cert.PairLayout.shapeCast_c_11c_apply _ _ 0 0 j

/-- The one entry of a [1] vector. -/
theorem pay4_apply (x : Vec Ideal S1 .f32) : k1_pay4 (F := Ideal) x = x (ix1 (0 : Fin 1)) :=
  congrArg x (funext fun a => by match a with | ⟨0, _⟩ => rfl)

theorem pay5_apply (x : Vec Ideal S1 .f32) : k1_pay5 (F := Ideal) x = x (ix1 (0 : Fin 1)) :=
  congrArg x (funext fun a => by match a with | ⟨0, _⟩ => rfl)

/-- A [256, 1] column read as a vector. -/
theorem pay7_apply (x : Vec Ideal S256x1 .f32) (j : Fin 256) : k1_pay7 (F := Ideal) x (ix1 j) = x (ix2 j (0 : Fin 1)) :=
  Cert.PairLayout.shapeCast_c1_c_apply _ _ j

theorem pay8_apply (x : Vec Ideal S256x1 .f32) (j : Fin 256) : k1_pay8 (F := Ideal) x (ix1 j) = x (ix2 j (0 : Fin 1)) :=
  Cert.PairLayout.shapeCast_c1_c_apply _ _ j

/-- A block's leading unit axis dropped. -/
theorem pay2_apply (x : Vec Ideal S1x32x256 .f32) (i : Fin 32) (j : Fin 256) :
    k1_pay2 (F := Ideal) x (ix2 i j) = x (ix3 (0 : Fin 1) i j) := shapeCast_1ab_ab_apply _ _ i j

theorem pay3_apply (x : Vec Ideal S1x128x256 .f32) (k : Fin 128) (j : Fin 256) :
    k1_pay3 (F := Ideal) x (ix2 k j) = x (ix3 (0 : Fin 1) k j) := shapeCast_1ab_ab_apply _ _ k j

/-- A result block's leading unit axis added. -/
theorem pay1_apply (v : FVec Ideal S32x128 .f32) (u : Fin 1) (i : Fin 32) (k : Fin 128) :
    k1_pay1 (F := Ideal) v (ix3 u i k) = v (ix2 i k) := shapeCast_ab_1ab_apply _ _ u i k

/-- The row of the flattened pairs that holds the pair (i, k). -/
abbrev rowOf (i : Fin 32) (k : Fin 128) : Fin 4096 := ⟨i.val * 128 + k.val, by omega⟩

/-- THE IMPORTANCE BLOCK at a pair (i, k), from the loaded blocks. -/
theorem logits_block (x0 : Vec Ideal S1x32x256 .bf16) (x1 : Vec Ideal S1x128x256 .bf16) (x4 : Vec Ideal S256x256 .f32)
    (x5 : Vec Ideal S256 .f32) (x6 : Vec Ideal S256x256 .f32) (x7 : Vec Ideal S256 .f32) (x8 : Vec Ideal S256x1 .f32)
    (x11 : Vec Ideal S1 .f32) (u : Fin 1) (i : Fin 32) (k : Fin 128) :
    k1_pay11 (F := Ideal) x5 x7 (k1_pay4 x11) (k1_pay6 x6) (k1_pay7 x8) (k1_pay9 x0 x1 x4) (ix3 u i k)
      = ∑ j : Fin 256, max (∑ j' : Fin 256, max ((∑ j'' : Fin 256,
            max ((x0 (ix3 (0 : Fin 1) i j'') : EReal) + x1 (ix3 (0 : Fin 1) k j'')) 0 * x4 (ix2 j'' j')) + x5 (ix1 j')) 0
              * x6 (ix2 j' j) + x7 (ix1 j)) 0 * x8 (ix2 j (0 : Fin 1)) + x11 (ix1 (0 : Fin 1)) := by
  refine (pay11_apply x5 x7 _ _ _ _ u i k (rowOf i k) rfl).trans ?_
  refine congrArg₂ (· + ·) (Finset.sum_congr rfl fun j _ => ?_) (pay4_apply x11)
  refine congrArg₂ (· * ·) ?_ (pay7_apply x8 j)
  refine congrArg (max · 0) (congrArg (· + (x7 (ix1 j) : EReal)) (Finset.sum_congr rfl fun j' _ => ?_))
  refine congrArg (· * (x6 (ix2 j' j) : EReal)) ?_
  exact congrArg (max · 0) (congrArg (· + (x5 (ix1 j') : EReal)) (pay9_apply x0 x1 x4 i k (rowOf i k) rfl j'))

/-- THE VARIANCE BLOCK at a pair (i, k), from the loaded blocks. -/
theorem variance_block (x2 : Vec Ideal S1x32x256 .f32) (x3 : Vec Ideal S1x128x256 .f32) (x9 : Vec Ideal S256x1 .f32)
    (x10 : Vec Ideal S1 .f32) (u : Fin 1) (i : Fin 32) (k : Fin 128) :
    k1_pay1 (F := Ideal) (k1_pay10 (k1_pay2 x2) (k1_pay3 x3) (k1_pay5 x10) (k1_pay8 x9)) (ix3 u i k)
      = Cert.Spec.softplus (∑ j : Fin 256, max ((x2 (ix3 (0 : Fin 1) i j) : EReal) + x3 (ix3 (0 : Fin 1) k j)) 0
          * x9 (ix2 j (0 : Fin 1)) + x10 (ix1 (0 : Fin 1))) := by
  refine (pay1_apply _ u i k).trans ?_
  refine (pay10_apply _ _ _ _ i k).trans (congrArg Cert.Spec.softplus ?_)
  refine congrArg₂ (· + ·) (Finset.sum_congr rfl fun j _ => ?_) (pay5_apply x10)
  refine congrArg₂ (· * ·) ?_ (pay8_apply x9 j)
  exact congrArg₂ max (congrArg₂ (· + ·) (pay2_apply x2 i j) (pay3_apply x3 k j)) rfl

end Cert.PairPayload

end
-- ==== Proof.Pairwise.lean ====
/-
  The pairwise region, read as whole arrays.

  The grid has 2 × 8 × 4 points (b, qi, ki).  At a point the body sees the 32 query rows 32·qi … 32·qi + 31 and the 128
  key rows 128·ki … 128·ki + 127 of batch b of the projected parts, and all of the later layers' weights; it writes the
  [32, 128] block (qi, ki) of batch b of each result.  Every entry (b, q, k) of a result lies in exactly the block of the
  point (b, q / 32, k / 128), and what that point writes there is the specification's value at (b, q, k): the block's
  rows are the array's rows, the weights are the whole arrays.
-/
import proofs.«129681_j18940805775799_2_alg».proof.Proof.Gen.KernelIdeal.Frame
import proofs.«129681_j18940805775799_2_alg».proof.Proof.Spec
import proofs.«129681_j18940805775799_2_alg».proof.Proof.PairPayload
import Idealize.ShloMosaic.Lib.Pipeline.Value
import Idealize.ShloMosaic.Lib.ValueIdx

set_option maxRecDepth 16384

noncomputable section

namespace Cert.Pairwise

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable (V : (c : Dev nD) → (b : Ref sig .tc) → Buf (Elt Ideal) ((c : Thread nD τ).loc b))

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The index maps over the 64 grid points: the query-side blocks follow the result block's batch and row-block, the
    key-side blocks its batch and column-block, the weights never move, and the result's block indices stay in range. -/
theorem idx_facts : ∀ t : Fin cfg1.N,
    (win1_0.index t (0 : Fin 3) = win1_12.index t (0 : Fin 3) ∧ win1_0.index t (1 : Fin 3) = win1_12.index t (1 : Fin 3)
      ∧ win1_0.index t (2 : Fin 3) = 0)
    ∧ (win1_1.index t (0 : Fin 3) = win1_12.index t (0 : Fin 3) ∧ win1_1.index t (1 : Fin 3) = win1_12.index t (2 : Fin 3)
      ∧ win1_1.index t (2 : Fin 3) = 0)
    ∧ (win1_2.index t (0 : Fin 3) = win1_12.index t (0 : Fin 3) ∧ win1_2.index t (1 : Fin 3) = win1_12.index t (1 : Fin 3)
      ∧ win1_2.index t (2 : Fin 3) = 0)
    ∧ (win1_3.index t (0 : Fin 3) = win1_12.index t (0 : Fin 3) ∧ win1_3.index t (1 : Fin 3) = win1_12.index t (2 : Fin 3)
      ∧ win1_3.index t (2 : Fin 3) = 0)
    ∧ (win1_4.index t (0 : Fin 2) = 0 ∧ win1_4.index t (1 : Fin 2) = 0)
    ∧ win1_5.index t (0 : Fin 1) = 0
    ∧ (win1_6.index t (0 : Fin 2) = 0 ∧ win1_6.index t (1 : Fin 2) = 0)
    ∧ win1_7.index t (0 : Fin 1) = 0
    ∧ (win1_8.index t (0 : Fin 2) = 0 ∧ win1_8.index t (1 : Fin 2) = 0)
    ∧ (win1_9.index t (0 : Fin 2) = 0 ∧ win1_9.index t (1 : Fin 2) = 0)
    ∧ win1_10.index t (0 : Fin 1) = 0
    ∧ win1_11.index t (0 : Fin 1) = 0
    ∧ (win1_13.index t (0 : Fin 3) = win1_12.index t (0 : Fin 3) ∧ win1_13.index t (1 : Fin 3) = win1_12.index t (1 : Fin 3)
      ∧ win1_13.index t (2 : Fin 3) = win1_12.index t (2 : Fin 3))
    ∧ (win1_12.index t (0 : Fin 3) ≤ 1 ∧ win1_12.index t (1 : Fin 3) ≤ 7 ∧ win1_12.index t (2 : Fin 3) ≤ 3) :=
  (by decide +kernel : ∀ t : Fin grid1.N, _)

/-- Every block of the results is some point's. -/
theorem idx_onto : ∀ (q0 : Fin 2) (q1 : Fin 8) (q2 : Fin 4), ∃ t : Fin cfg1.N, win1_12.index t = ![q0.val, q1.val, q2.val] :=
  (by decide +kernel : ∀ (q0 : Fin 2) (q1 : Fin 8) (q2 : Fin 4), ∃ t : Fin grid1.N, win1_12.index t = ![q0.val, q1.val, q2.val])

/-! ## What a point's blocks hold, by the arrays' own coordinates -/

section Reads
variable (c : Dev nD) (t : Fin cfg1.N)

/-- Row i of the importance branch's query-side block is row 32·qi + i of batch b. -/
theorem read0 (i : Fin 32) (j : Fin 256) (b : Fin 2) (q : Fin 256)
    (hb : b.val = win1_12.index t (0 : Fin 3)) (hq : q.val = win1_12.index t (1 : Fin 3) * 32 + i.val) :
    (iblk1 V c 0 t (ix3 (0 : Fin 1) i j) : EReal) = V c main_v4_0 (ix3 b q j) := by
  obtain ⟨f0, f1, f2, f3, -⟩ := idx_facts t
  obtain ⟨e0, e1, e2⟩ := f0
  show V c main_v4_0 (((cfg1.win 0).blk t).view.emb (ix3 (0 : Fin 1) i j)) = _
  refine congrArg (V c main_v4_0) (funext fun a => Fin.ext ?_)
  match a with
  | ⟨0, _⟩ => show win1_0.index t (0 : Fin 3) * 1 + 1 * 0 = b.val; omega
  | ⟨1, _⟩ => show win1_0.index t (1 : Fin 3) * 32 + 1 * i.val = q.val; omega
  | ⟨2, _⟩ => show win1_0.index t (2 : Fin 3) * 256 + 1 * j.val = j.val; omega
/-- Row k of the importance branch's key-side block is row 128·ki + k of batch b. -/
theorem read1 (i : Fin 128) (j : Fin 256) (b : Fin 2) (q : Fin 512)
    (hb : b.val = win1_12.index t (0 : Fin 3)) (hq : q.val = win1_12.index t (2 : Fin 3) * 128 + i.val) :
    (iblk1 V c 1 t (ix3 (0 : Fin 1) i j) : EReal) = V c main_v4_1 (ix3 b q j) := by
  obtain ⟨f0, f1, f2, f3, -⟩ := idx_facts t
  obtain ⟨e0, e1, e2⟩ := f1
  show V c main_v4_1 (((cfg1.win 1).blk t).view.emb (ix3 (0 : Fin 1) i j)) = _
  refine congrArg (V c main_v4_1) (funext fun a => Fin.ext ?_)
  match a with
  | ⟨0, _⟩ => show win1_1.index t (0 : Fin 3) * 1 + 1 * 0 = b.val; omega
  | ⟨1, _⟩ => show win1_1.index t (1 : Fin 3) * 128 + 1 * i.val = q.val; omega
  | ⟨2, _⟩ => show win1_1.index t (2 : Fin 3) * 256 + 1 * j.val = j.val; omega
/-- Row i of the variance branch's query-side block is row 32·qi + i of batch b. -/
theorem read2 (i : Fin 32) (j : Fin 256) (b : Fin 2) (q : Fin 256)
    (hb : b.val = win1_12.index t (0 : Fin 3)) (hq : q.val = win1_12.index t (1 : Fin 3) * 32 + i.val) :
    (iblk1 V c 2 t (ix3 (0 : Fin 1) i j) : EReal) = V c main_v4_2 (ix3 b q j) := by
  obtain ⟨f0, f1, f2, f3, -⟩ := idx_facts t
  obtain ⟨e0, e1, e2⟩ := f2
  show V c main_v4_2 (((cfg1.win 2).blk t).view.emb (ix3 (0 : Fin 1) i j)) = _
  refine congrArg (V c main_v4_2) (funext fun a => Fin.ext ?_)
  match a with
  | ⟨0, _⟩ => show win1_2.index t (0 : Fin 3) * 1 + 1 * 0 = b.val; omega
  | ⟨1, _⟩ => show win1_2.index t (1 : Fin 3) * 32 + 1 * i.val = q.val; omega
  | ⟨2, _⟩ => show win1_2.index t (2 : Fin 3) * 256 + 1 * j.val = j.val; omega
/-- Row k of the variance branch's key-side block is row 128·ki + k of batch b. -/
theorem read3 (i : Fin 128) (j : Fin 256) (b : Fin 2) (q : Fin 512)
    (hb : b.val = win1_12.index t (0 : Fin 3)) (hq : q.val = win1_12.index t (2 : Fin 3) * 128 + i.val) :
    (iblk1 V c 3 t (ix3 (0 : Fin 1) i j) : EReal) = V c main_v4_3 (ix3 b q j) := by
  obtain ⟨f0, f1, f2, f3, -⟩ := idx_facts t
  obtain ⟨e0, e1, e2⟩ := f3
  show V c main_v4_3 (((cfg1.win 3).blk t).view.emb (ix3 (0 : Fin 1) i j)) = _
  refine congrArg (V c main_v4_3) (funext fun a => Fin.ext ?_)
  match a with
  | ⟨0, _⟩ => show win1_3.index t (0 : Fin 3) * 1 + 1 * 0 = b.val; omega
  | ⟨1, _⟩ => show win1_3.index t (1 : Fin 3) * 128 + 1 * i.val = q.val; omega
  | ⟨2, _⟩ => show win1_3.index t (2 : Fin 3) * 256 + 1 * j.val = j.val; omega
/-- The second layer's weight is the whole array at every point. -/
theorem read4 (x : Fin 256) (y : Fin 256) : (iblk1 V c 4 t (ix2 x y) : EReal) = V c main_arg8 (ix2 x y) := by
  obtain ⟨-, -, -, -, e, -⟩ := idx_facts t
  obtain ⟨e0, e1⟩ := e
  show V c main_arg8 (((cfg1.win 4).blk t).view.emb (ix2 x y)) = _
  refine congrArg (V c main_arg8) (funext fun a => Fin.ext ?_)
  match a with
  | ⟨0, _⟩ => show win1_4.index t (0 : Fin 2) * 256 + 1 * x.val = x.val; omega
  | ⟨1, _⟩ => show win1_4.index t (1 : Fin 2) * 256 + 1 * y.val = y.val; omega
/-- The second layer's bias is the whole array at every point. -/
theorem read5 (x : Fin 256) : (iblk1 V c 5 t (ix1 x) : EReal) = V c main_arg9 (ix1 x) := by
  obtain ⟨-, -, -, -, -, e, -⟩ := idx_facts t
  show V c main_arg9 (((cfg1.win 5).blk t).view.emb (ix1 x)) = _
  refine congrArg (V c main_arg9) (funext fun a => Fin.ext ?_)
  match a with
  | ⟨0, _⟩ => show win1_5.index t (0 : Fin 1) * 256 + 1 * x.val = x.val; omega
/-- The third layer's weight is the whole array at every point. -/
theorem read6 (x : Fin 256) (y : Fin 256) : (iblk1 V c 6 t (ix2 x y) : EReal) = V c main_arg10 (ix2 x y) := by
  obtain ⟨-, -, -, -, -, -, e, -⟩ := idx_facts t
  obtain ⟨e0, e1⟩ := e
  show V c main_arg10 (((cfg1.win 6).blk t).view.emb (ix2 x y)) = _
  refine congrArg (V c main_arg10) (funext fun a => Fin.ext ?_)
  match a with
  | ⟨0, _⟩ => show win1_6.index t (0 : Fin 2) * 256 + 1 * x.val = x.val; omega
  | ⟨1, _⟩ => show win1_6.index t (1 : Fin 2) * 256 + 1 * y.val = y.val; omega
/-- The third layer's bias is the whole array at every point. -/
theorem read7 (x : Fin 256) : (iblk1 V c 7 t (ix1 x) : EReal) = V c main_arg11 (ix1 x) := by
  obtain ⟨-, -, -, -, -, -, -, e, -⟩ := idx_facts t
  show V c main_arg11 (((cfg1.win 7).blk t).view.emb (ix1 x)) = _
  refine congrArg (V c main_arg11) (funext fun a => Fin.ext ?_)
  match a with
  | ⟨0, _⟩ => show win1_7.index t (0 : Fin 1) * 256 + 1 * x.val = x.val; omega
/-- The importance head's column is the whole array at every point. -/
theorem read8 (x : Fin 256) (y : Fin 1) : (iblk1 V c 8 t (ix2 x y) : EReal) = V c main_arg12 (ix2 x y) := by
  obtain ⟨-, -, -, -, -, -, -, -, e, -⟩ := idx_facts t
  obtain ⟨e0, e1⟩ := e
  show V c main_arg12 (((cfg1.win 8).blk t).view.emb (ix2 x y)) = _
  refine congrArg (V c main_arg12) (funext fun a => Fin.ext ?_)
  match a with
  | ⟨0, _⟩ => show win1_8.index t (0 : Fin 2) * 256 + 1 * x.val = x.val; omega
  | ⟨1, _⟩ => show win1_8.index t (1 : Fin 2) * 1 + 1 * y.val = y.val; omega
/-- The variance head's column is the whole array at every point. -/
theorem read9 (x : Fin 256) (y : Fin 1) : (iblk1 V c 9 t (ix2 x y) : EReal) = V c main_arg16 (ix2 x y) := by
  obtain ⟨-, -, -, -, -, -, -, -, -, e, -⟩ := idx_facts t
  obtain ⟨e0, e1⟩ := e
  show V c main_arg16 (((cfg1.win 9).blk t).view.emb (ix2 x y)) = _
  refine congrArg (V c main_arg16) (funext fun a => Fin.ext ?_)
  match a with
  | ⟨0, _⟩ => show win1_9.index t (0 : Fin 2) * 256 + 1 * x.val = x.val; omega
  | ⟨1, _⟩ => show win1_9.index t (1 : Fin 2) * 1 + 1 * y.val = y.val; omega
/-- The variance head's bias is the whole array at every point. -/
theorem read10 (x : Fin 1) : (iblk1 V c 10 t (ix1 x) : EReal) = V c main_arg17 (ix1 x) := by
  obtain ⟨-, -, -, -, -, -, -, -, -, -, e, -⟩ := idx_facts t
  show V c main_arg17 (((cfg1.win 10).blk t).view.emb (ix1 x)) = _
  refine congrArg (V c main_arg17) (funext fun a => Fin.ext ?_)
  match a with
  | ⟨0, _⟩ => show win1_10.index t (0 : Fin 1) * 1 + 1 * x.val = x.val; omega
/-- The importance head's bias is the whole array at every point. -/
theorem read11 (x : Fin 1) : (iblk1 V c 11 t (ix1 x) : EReal) = V c main_arg13 (ix1 x) := by
  obtain ⟨-, -, -, -, -, -, -, -, -, -, -, e, -⟩ := idx_facts t
  show V c main_arg13 (((cfg1.win 11).blk t).view.emb (ix1 x)) = _
  refine congrArg (V c main_arg13) (funext fun a => Fin.ext ?_)
  match a with
  | ⟨0, _⟩ => show win1_11.index t (0 : Fin 1) * 1 + 1 * x.val = x.val; omega

/-- Entry (i, k) of the importance result's block at a point is entry (b, 32·qi + i, 128·ki + k) of the array. -/
theorem emb12 (u : Fin 1) (i : Fin 32) (k : Fin 128) (b : Fin 2) (q : Fin 256) (k' : Fin 512)
    (hb : b.val = win1_12.index t (0 : Fin 3)) (hq : q.val = win1_12.index t (1 : Fin 3) * 32 + i.val)
    (hk : k'.val = win1_12.index t (2 : Fin 3) * 128 + k.val) :
    ((cfg1.win 12).blk t).view.emb (ix3 u i k) = ix3 b q k' :=
  funext fun a => Fin.ext (by
    match a with
    | ⟨0, _⟩ => show win1_12.index t (0 : Fin 3) * 1 + 1 * u.val = b.val; omega
    | ⟨1, _⟩ => show win1_12.index t (1 : Fin 3) * 32 + 1 * i.val = q.val; omega
    | ⟨2, _⟩ => show win1_12.index t (2 : Fin 3) * 128 + 1 * k.val = k'.val; omega)

/-- The same for the variance result's block. -/
theorem emb13 (u : Fin 1) (i : Fin 32) (k : Fin 128) (b : Fin 2) (q : Fin 256) (k' : Fin 512)
    (hb : b.val = win1_12.index t (0 : Fin 3)) (hq : q.val = win1_12.index t (1 : Fin 3) * 32 + i.val)
    (hk : k'.val = win1_12.index t (2 : Fin 3) * 128 + k.val) :
    ((cfg1.win 13).blk t).view.emb (ix3 u i k) = ix3 b q k' := by
  obtain ⟨-, -, -, -, -, -, -, -, -, -, -, -, ⟨e0, e1, e2⟩, -⟩ := idx_facts t
  exact funext fun a => Fin.ext (by
    match a with
    | ⟨0, _⟩ => show win1_13.index t (0 : Fin 3) * 1 + 1 * u.val = b.val; omega
    | ⟨1, _⟩ => show win1_13.index t (1 : Fin 3) * 32 + 1 * i.val = q.val; omega
    | ⟨2, _⟩ => show win1_13.index t (2 : Fin 3) * 128 + 1 * k.val = k'.val; omega)

end Reads

/-! ## The two results as whole arrays -/

/-- The importance logits as one array of the region's entry contents. -/
abbrev logitsArr (c : Dev nD) : (⟨3, ![2, 256, 512]⟩ : Shape).Idx → EReal :=
  Cert.Spec.arr3 (Cert.Spec.logitsOf (V c main_v4_0) (V c main_v4_1) (V c main_arg8) (V c main_arg9) (V c main_arg10)
    (V c main_arg11) (V c main_arg12) (V c main_arg13))

/-- The variance as one array of the region's entry contents. -/
abbrev varianceArr (c : Dev nD) : (⟨3, ![2, 256, 512]⟩ : Shape).Idx → EReal :=
  Cert.Spec.arr3 (Cert.Spec.varianceOf (V c main_v4_2) (V c main_v4_3) (V c main_arg16) (V c main_arg17))

/-- What a point writes back to the importance result is its block of the whole-array function. -/
theorem logits_flushed (c : Dev nD) (t : Fin cfg1.N) :
    (dat1 V c).flushed 12 t = ((cfg1.win 12).blk t).view.read (Elt Ideal) (logitsArr V c) := by
  show (cfg1.win 12).cut (grid1.coords t) ((dat1 V c).after 12 t) = _
  rw [after1_12]
  unfold out1_12
  rw [View.canon_unit_zero hz3]
  simp only [View.ld_unit_zero (S := S1x32x256) hz3, View.ld_unit_zero (S := S1x128x256) hz3,
    View.ld_unit_zero (S := S256) hz1, View.ld_unit_zero (S := S1) hz1, View.ld_unit_zero (S := S256x256) hz2,
    View.ld_unit_zero (S := S256x1) hz2]
  funext y
  obtain ⟨u, i, k, rfl⟩ : ∃ (u : Fin 1) (i : Fin 32) (k : Fin 128), y = ix3 u i k := ⟨y 0, y 1, y 2, eq_ix3 y⟩
  obtain ⟨-, -, -, -, -, -, -, -, -, -, -, -, -, ⟨hB, hQ, hK⟩⟩ := idx_facts t
  obtain ⟨b, hb⟩ : ∃ b : Fin 2, b.val = win1_12.index t (0 : Fin 3) := ⟨⟨win1_12.index t (0 : Fin 3), by omega⟩, rfl⟩
  obtain ⟨q, hq⟩ : ∃ q : Fin 256, q.val = win1_12.index t (1 : Fin 3) * 32 + i.val := ⟨⟨win1_12.index t (1 : Fin 3) * 32 + i.val, by omega⟩, rfl⟩
  obtain ⟨k', hk⟩ : ∃ k' : Fin 512, k'.val = win1_12.index t (2 : Fin 3) * 128 + k.val := ⟨⟨win1_12.index t (2 : Fin 3) * 128 + k.val, by omega⟩, rfl⟩
  show _ = logitsArr V c (((cfg1.win 12).blk t).view.emb (ix3 u i k))
  rw [emb12 t u i k b q k' hb hq hk]
  refine (Cert.PairPayload.logits_block (iblk1 V c 0 t) (iblk1 V c 1 t) (iblk1 V c 4 t) (iblk1 V c 5 t) (iblk1 V c 6 t)
    (iblk1 V c 7 t) (iblk1 V c 8 t) (iblk1 V c 11 t) u i k).trans ?_
  have r0 : ∀ j, (iblk1 V c 0 t (ix3 (0 : Fin 1) i j) : EReal) = V c main_v4_0 (ix3 b q j) :=
    fun j => read0 V c t i j b q hb hq
  have r1 : ∀ j, (iblk1 V c 1 t (ix3 (0 : Fin 1) k j) : EReal) = V c main_v4_1 (ix3 b k' j) :=
    fun j => read1 V c t k j b k' hb hk
  show _ = Cert.Spec.logitsOf (V c main_v4_0) (V c main_v4_1) (V c main_arg8) (V c main_arg9) (V c main_arg10)
    (V c main_arg11) (V c main_arg12) (V c main_arg13) b q k'
  unfold Cert.Spec.logitsOf Cert.Spec.head Cert.Spec.layer Cert.Spec.pair
  simp only [r0, r1, read4 V c t, read5 V c t, read6 V c t, read7 V c t, read8 V c t, read11 V c t]

/-- What a point writes back to the variance result is its block of the whole-array function. -/
theorem variance_flushed (c : Dev nD) (t : Fin cfg1.N) :
    (dat1 V c).flushed 13 t = ((cfg1.win 13).blk t).view.read (Elt Ideal) (varianceArr V c) := by
  show (cfg1.win 13).cut (grid1.coords t) ((dat1 V c).after 13 t) = _
  rw [after1_13]
  unfold out1_13
  rw [View.canon_unit_zero hz3]
  simp only [View.ld_unit_zero (S := S1x32x256) hz3, View.ld_unit_zero (S := S1x128x256) hz3,
    View.ld_unit_zero (S := S1) hz1, View.ld_unit_zero (S := S256x1) hz2]
  funext y
  obtain ⟨u, i, k, rfl⟩ : ∃ (u : Fin 1) (i : Fin 32) (k : Fin 128), y = ix3 u i k := ⟨y 0, y 1, y 2, eq_ix3 y⟩
  obtain ⟨-, -, -, -, -, -, -, -, -, -, -, -, -, ⟨hB, hQ, hK⟩⟩ := idx_facts t
  obtain ⟨b, hb⟩ : ∃ b : Fin 2, b.val = win1_12.index t (0 : Fin 3) := ⟨⟨win1_12.index t (0 : Fin 3), by omega⟩, rfl⟩
  obtain ⟨q, hq⟩ : ∃ q : Fin 256, q.val = win1_12.index t (1 : Fin 3) * 32 + i.val := ⟨⟨win1_12.index t (1 : Fin 3) * 32 + i.val, by omega⟩, rfl⟩
  obtain ⟨k', hk⟩ : ∃ k' : Fin 512, k'.val = win1_12.index t (2 : Fin 3) * 128 + k.val := ⟨⟨win1_12.index t (2 : Fin 3) * 128 + k.val, by omega⟩, rfl⟩
  show _ = varianceArr V c (((cfg1.win 13).blk t).view.emb (ix3 u i k))
  rw [emb13 t u i k b q k' hb hq hk]
  refine (Cert.PairPayload.variance_block (iblk1 V c 2 t) (iblk1 V c 3 t) (iblk1 V c 9 t) (iblk1 V c 10 t) u i k).trans ?_
  have r2 : ∀ j, (iblk1 V c 2 t (ix3 (0 : Fin 1) i j) : EReal) = V c main_v4_2 (ix3 b q j) :=
    fun j => read2 V c t i j b q hb hq
  have r3 : ∀ j, (iblk1 V c 3 t (ix3 (0 : Fin 1) k j) : EReal) = V c main_v4_3 (ix3 b k' j) :=
    fun j => read3 V c t k j b k' hb hk
  show _ = Cert.Spec.varianceOf (V c main_v4_2) (V c main_v4_3) (V c main_arg16) (V c main_arg17) b q k'
  unfold Cert.Spec.varianceOf Cert.Spec.head Cert.Spec.pair
  simp only [r2, r3, read9 V c t, read10 V c t]

/-- An index of a result array is in a point's block iff each coordinate is in the block's range on its axis. -/
theorem mem_blk12 (t : Fin cfg1.N) (i : S2x256x512.Idx) :
    i ∈ ((cfg1.win 12).blk t).view.set ↔ ∀ a : Fin 3, win1_12.index t a * S1x32x128.size a ≤ (i a).val
      ∧ (i a).val < win1_12.index t a * S1x32x128.size a + S1x32x128.size a := by
  show i ∈ ((View.whole main_v5_0).slice (win1_12.rect t)).set ↔ _
  rw [View.set_slice_whole, Rect.mem_set_unit]
  exact Iff.rfl

theorem mem_blk13 (t : Fin cfg1.N) (i : S2x256x512.Idx) :
    i ∈ ((cfg1.win 13).blk t).view.set ↔ ∀ a : Fin 3, win1_13.index t a * S1x32x128.size a ≤ (i a).val
      ∧ (i a).val < win1_13.index t a * S1x32x128.size a + S1x32x128.size a := by
  show i ∈ ((View.whole main_v5_1).slice (win1_13.rect t)).set ↔ _
  rw [View.set_slice_whole, Rect.mem_set_unit]
  exact Iff.rfl

/-- Every entry (b, q, k) lies in the block of the point (b, q / 32, k / 128). -/
theorem cover12 (i : S2x256x512.Idx) :
    ∃ t : Fin cfg1.N, (cfg1.win 12).flush t = true ∧ i ∈ ((cfg1.win 12).blk t).view.set := by
  have h0 : (i 0).val < 2 := (i 0).isLt
  have h1 : (i 1).val < 256 := (i 1).isLt
  have h2 : (i 2).val < 512 := (i 2).isLt
  obtain ⟨t, ht⟩ := idx_onto ⟨(i 0).val, h0⟩ ⟨(i 1).val / 32, by omega⟩ ⟨(i 2).val / 128, by omega⟩
  have q0 : win1_12.index t (0 : Fin 3) = (i 0).val := congrFun ht 0
  have q1 : win1_12.index t (1 : Fin 3) = (i 1).val / 32 := congrFun ht 1
  have q2 : win1_12.index t (2 : Fin 3) = (i 2).val / 128 := congrFun ht 2
  refine ⟨t, flush1_12 t, ?_⟩
  rw [mem_blk12]
  intro a
  match a with
  | ⟨0, _⟩ => show win1_12.index t (0 : Fin 3) * 1 ≤ (i 0).val ∧ (i 0).val < win1_12.index t (0 : Fin 3) * 1 + 1; omega
  | ⟨1, _⟩ => show win1_12.index t (1 : Fin 3) * 32 ≤ (i 1).val ∧ (i 1).val < win1_12.index t (1 : Fin 3) * 32 + 32; omega
  | ⟨2, _⟩ => show win1_12.index t (2 : Fin 3) * 128 ≤ (i 2).val ∧ (i 2).val < win1_12.index t (2 : Fin 3) * 128 + 128; omega

theorem cover13 (i : S2x256x512.Idx) :
    ∃ t : Fin cfg1.N, (cfg1.win 13).flush t = true ∧ i ∈ ((cfg1.win 13).blk t).view.set := by
  have h0 : (i 0).val < 2 := (i 0).isLt
  have h1 : (i 1).val < 256 := (i 1).isLt
  have h2 : (i 2).val < 512 := (i 2).isLt
  obtain ⟨t, ht⟩ := idx_onto ⟨(i 0).val, h0⟩ ⟨(i 1).val / 32, by omega⟩ ⟨(i 2).val / 128, by omega⟩
  obtain ⟨-, -, -, -, -, -, -, -, -, -, -, -, ⟨e0, e1, e2⟩, -⟩ := idx_facts t
  have q0 : win1_12.index t (0 : Fin 3) = (i 0).val := congrFun ht 0
  have q1 : win1_12.index t (1 : Fin 3) = (i 1).val / 32 := congrFun ht 1
  have q2 : win1_12.index t (2 : Fin 3) = (i 2).val / 128 := congrFun ht 2
  refine ⟨t, flush1_13 t, ?_⟩
  rw [mem_blk13]
  intro a
  match a with
  | ⟨0, _⟩ => show win1_13.index t (0 : Fin 3) * 1 ≤ (i 0).val ∧ (i 0).val < win1_13.index t (0 : Fin 3) * 1 + 1; omega
  | ⟨1, _⟩ => show win1_13.index t (1 : Fin 3) * 32 ≤ (i 1).val ∧ (i 1).val < win1_13.index t (1 : Fin 3) * 32 + 32; omega
  | ⟨2, _⟩ => show win1_13.index t (2 : Fin 3) * 128 ≤ (i 2).val ∧ (i 2).val < win1_13.index t (2 : Fin 3) * 128 + 128; omega

/-- THE IMPORTANCE LOGITS after the region: the specification's function of the region's entry contents. -/
theorem logits_final (c : Dev nD) : (dat1 (F := Ideal) V c).arrAt 12 cfg1.N
    = Cert.Spec.arr3 (Cert.Spec.logitsOf (V c main_v4_0) (V c main_v4_1) (V c main_arg8) (V c main_arg9) (V c main_arg10)
        (V c main_arg11) (V c main_arg12) (V c main_arg13)) :=
  (dat1 V c).arrAt_eq_of_cover 12 (logitsArr V c) (fun t _ => logits_flushed V c t) cover12

/-- THE VARIANCE after the region: the specification's function of the region's entry contents. -/
theorem variance_final (c : Dev nD) : (dat1 (F := Ideal) V c).arrAt 13 cfg1.N
    = Cert.Spec.arr3 (Cert.Spec.varianceOf (V c main_v4_2) (V c main_v4_3) (V c main_arg16) (V c main_arg17)) :=
  (dat1 V c).arrAt_eq_of_cover 13 (varianceArr V c) (fun t _ => variance_flushed V c t) cover13

end Cert.Pairwise

end
-- ==== Proof.KernelRun.lean ====
import proofs.«129681_j18940805775799_2_alg».proof.Proof.Gen.KernelIdeal.Frame
import proofs.«129681_j18940805775799_2_alg».proof.Proof.Spec
import Idealize.ShloMosaic.Lib.Pipeline.Value
import Idealize.ShloMosaic.Lib.ValueLayout
import Idealize.ShloMosaic.Lib.StableHlo.Run

/-!
  The kernel program's run with its two result arrays named, and the bookkeeping that reads each region's entry
  contents back to the launch memory.

  The program is four host slices followed by two pipelined regions.  The memory at each boundary is a fold from the
  launch memory: a host stretch rewrites exactly the buffers its operations write, a region rewrites exactly its
  windows' arrays.  So a buffer that nothing before a boundary writes still holds its launch contents there, a host
  slice's result holds the slice of its (unwritten) operand, and a region's output array holds what the region's
  write-backs leave.
-/

set_option maxRecDepth 16384

noncomputable section

namespace Cert.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-! ## The run, the two results named -/

-- the launch lemma's implicit arguments are found by unifying its conclusion with this one, which takes unfolding
-- plain definitions in a metavariable's type
set_option backward.isDefEq.respectTransparency.types false in
/-- From any memory with zero counters, every weakly fair execution of the program on the TensorCores terminates,
    nothing faulting; in every final state the two result arrays hold the last boundary's contents and every argument
    array is as launched. -/
theorem run_named : θ_run defs (onTc (τ := τ) (main (F := Ideal))) ⟨m, fun _ => 0, ρ⟩ (fun r => ∀ c : Dev nD,
      r.2.mem ((c.tc : Thread nD τ).loc main_v5_0) = W3 m ρ c (Proc.devRef .tc main_v5_0)
      ∧ r.2.mem ((c.tc : Thread nD τ).loc main_v5_1) = W3 m ρ c (Proc.devRef .tc main_v5_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v5_0 (by decide)),
       h c _ (mem_uc main_v5_1 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c),
       (h c _ (mem_uc main_arg9 (by decide))).trans (W3_main_arg9 m ρ c),
       (h c _ (mem_uc main_arg10 (by decide))).trans (W3_main_arg10 m ρ c),
       (h c _ (mem_uc main_arg11 (by decide))).trans (W3_main_arg11 m ρ c),
       (h c _ (mem_uc main_arg12 (by decide))).trans (W3_main_arg12 m ρ c),
       (h c _ (mem_uc main_arg13 (by decide))).trans (W3_main_arg13 m ρ c),
       (h c _ (mem_uc main_arg14 (by decide))).trans (W3_main_arg14 m ρ c),
       (h c _ (mem_uc main_arg15 (by decide))).trans (W3_main_arg15 m ρ c),
       (h c _ (mem_uc main_arg16 (by decide))).trans (W3_main_arg16 m ρ c),
       (h c _ (mem_uc main_arg17 (by decide))).trans (W3_main_arg17 m ρ c)⟩)

/-! ## The region arrays the two regions leave -/

/-- The first result array at the last boundary is what region 1's write-backs to its window 12 leave. -/
theorem W3_v5_0 (c : Dev nD) : W3 m ρ c (Proc.devRef .tc main_v5_0) = (dat1 (V2 m ρ) c).arrAt 12 cfg1.N :=
  W3_arr m ρ c 12
/-- The second result array at the last boundary is what region 1's write-backs to its window 13 leave. -/
theorem W3_v5_1 (c : Dev nD) : W3 m ρ c (Proc.devRef .tc main_v5_1) = (dat1 (V2 m ρ) c).arrAt 13 cfg1.N :=
  W3_arr m ρ c 13

/-- Region 0's four output arrays, as region 1 finds them: what region 0's write-backs leave. -/
theorem V2_v4_0 (c : Dev nD) : V2 m ρ c main_v4_0 = (dat0 (V1 m ρ) c).arrAt 12 cfg0.N := W2_arr m ρ c 12
theorem V2_v4_1 (c : Dev nD) : V2 m ρ c main_v4_1 = (dat0 (V1 m ρ) c).arrAt 13 cfg0.N := W2_arr m ρ c 13
theorem V2_v4_2 (c : Dev nD) : V2 m ρ c main_v4_2 = (dat0 (V1 m ρ) c).arrAt 14 cfg0.N := W2_arr m ρ c 14
theorem V2_v4_3 (c : Dev nD) : V2 m ρ c main_v4_3 = (dat0 (V1 m ρ) c).arrAt 15 cfg0.N := W2_arr m ρ c 15

/-! ## Buffers no host slice writes -/

/-- The four host slices write the four slice results and nothing else: any other TensorCore buffer holds, when
    region 0 is entered, what it held at launch. -/
theorem W1_of_ne (c : Dev nD) (b : Ref sig .tc) (h0 : b ≠ main_v0) (h1 : b ≠ main_v1) (h2 : b ≠ main_v2) (h3 : b ≠ main_v3) :
    W1 m ρ c (Proc.devRef .tc b) = m ((c : Thread nD τ).loc b) :=
  (StableHlo.after_of_forall_not_mem (b := Proc.devRef .tc b) _ _ (List.forall_iff_forall_mem.mp (by
    simp only [hostOps0, List.Forall, StableHlo.unary_writes, Finset.mem_singleton]
    exact ⟨StableHlo.devRef_ne_of_ne h0, StableHlo.devRef_ne_of_ne h1, StableHlo.devRef_ne_of_ne h2, StableHlo.devRef_ne_of_ne h3⟩))).trans rfl

/-! ## Region 0's operands that are arguments: as launched -/

theorem V1_main_arg0 (c : Dev nD) : V1 m ρ c main_arg0 = m ((c.tc : Thread nD τ).loc main_arg0) :=
  W1_of_ne m ρ c main_arg0 (by decide) (by decide) (by decide) (by decide)
theorem V1_main_arg1 (c : Dev nD) : V1 m ρ c main_arg1 = m ((c.tc : Thread nD τ).loc main_arg1) :=
  W1_of_ne m ρ c main_arg1 (by decide) (by decide) (by decide) (by decide)
theorem V1_main_arg2 (c : Dev nD) : V1 m ρ c main_arg2 = m ((c.tc : Thread nD τ).loc main_arg2) :=
  W1_of_ne m ρ c main_arg2 (by decide) (by decide) (by decide) (by decide)
theorem V1_main_arg3 (c : Dev nD) : V1 m ρ c main_arg3 = m ((c.tc : Thread nD τ).loc main_arg3) :=
  W1_of_ne m ρ c main_arg3 (by decide) (by decide) (by decide) (by decide)
theorem V1_main_arg4 (c : Dev nD) : V1 m ρ c main_arg4 = m ((c.tc : Thread nD τ).loc main_arg4) :=
  W1_of_ne m ρ c main_arg4 (by decide) (by decide) (by decide) (by decide)
theorem V1_main_arg5 (c : Dev nD) : V1 m ρ c main_arg5 = m ((c.tc : Thread nD τ).loc main_arg5) :=
  W1_of_ne m ρ c main_arg5 (by decide) (by decide) (by decide) (by decide)
theorem V1_main_arg7 (c : Dev nD) : V1 m ρ c main_arg7 = m ((c.tc : Thread nD τ).loc main_arg7) :=
  W1_of_ne m ρ c main_arg7 (by decide) (by decide) (by decide) (by decide)
theorem V1_main_arg15 (c : Dev nD) : V1 m ρ c main_arg15 = m ((c.tc : Thread nD τ).loc main_arg15) :=
  W1_of_ne m ρ c main_arg15 (by decide) (by decide) (by decide) (by decide)

/-! ## Region 1's weight operands: no array of region 0, no slice result, so as launched -/

theorem V2_main_arg8 (c : Dev nD) : V2 m ρ c main_arg8 = m ((c.tc : Thread nD τ).loc main_arg8) :=
  (W2_of_ne m ρ c main_arg8 (by decide)).trans (W1_of_ne m ρ c main_arg8 (by decide) (by decide) (by decide) (by decide))
theorem V2_main_arg9 (c : Dev nD) : V2 m ρ c main_arg9 = m ((c.tc : Thread nD τ).loc main_arg9) :=
  (W2_of_ne m ρ c main_arg9 (by decide)).trans (W1_of_ne m ρ c main_arg9 (by decide) (by decide) (by decide) (by decide))
theorem V2_main_arg10 (c : Dev nD) : V2 m ρ c main_arg10 = m ((c.tc : Thread nD τ).loc main_arg10) :=
  (W2_of_ne m ρ c main_arg10 (by decide)).trans (W1_of_ne m ρ c main_arg10 (by decide) (by decide) (by decide) (by decide))
theorem V2_main_arg11 (c : Dev nD) : V2 m ρ c main_arg11 = m ((c.tc : Thread nD τ).loc main_arg11) :=
  (W2_of_ne m ρ c main_arg11 (by decide)).trans (W1_of_ne m ρ c main_arg11 (by decide) (by decide) (by decide) (by decide))
theorem V2_main_arg12 (c : Dev nD) : V2 m ρ c main_arg12 = m ((c.tc : Thread nD τ).loc main_arg12) :=
  (W2_of_ne m ρ c main_arg12 (by decide)).trans (W1_of_ne m ρ c main_arg12 (by decide) (by decide) (by decide) (by decide))
theorem V2_main_arg13 (c : Dev nD) : V2 m ρ c main_arg13 = m ((c.tc : Thread nD τ).loc main_arg13) :=
  (W2_of_ne m ρ c main_arg13 (by decide)).trans (W1_of_ne m ρ c main_arg13 (by decide) (by decide) (by decide) (by decide))
theorem V2_main_arg16 (c : Dev nD) : V2 m ρ c main_arg16 = m ((c.tc : Thread nD τ).loc main_arg16) :=
  (W2_of_ne m ρ c main_arg16 (by decide)).trans (W1_of_ne m ρ c main_arg16 (by decide) (by decide) (by decide) (by decide))
theorem V2_main_arg17 (c : Dev nD) : V2 m ρ c main_arg17 = m ((c.tc : Thread nD τ).loc main_arg17) :=
  (W2_of_ne m ρ c main_arg17 (by decide)).trans (W1_of_ne m ρ c main_arg17 (by decide) (by decide) (by decide) (by decide))

/-! ## The four host slices: the upper and lower halves of the two first-layer weights -/

/-- Rows 0 … 255 of a [512, 256] array, read at an index. -/
theorem slice_upper (X : S512x256.Idx → EReal) :
    extractStridedSlice S256x256 ![0, 0] X slices_S512x256_S256x256_0_0 = Cert.Spec.upper X := by
  funext i
  rw [ValueIdx.eq_ix2 i]
  refine (ValueIdx.slice2_axis0_apply 0 X slices_S512x256_S256x256_0_0 (i 0) (i 1) ⟨(i 0).val, by have := ValueIdx.idx2_lt0 i; omega⟩ (by simp)).trans ?_
  exact (Cert.Spec.upper_ix2 X (i 0) (i 1)).symm

/-- Rows 256 … 511 of a [512, 256] array, read at an index. -/
theorem slice_lower (X : S512x256.Idx → EReal) :
    extractStridedSlice S256x256 ![256, 0] X slices_S512x256_S256x256_256_0 = Cert.Spec.lower X := by
  funext i
  rw [ValueIdx.eq_ix2 i]
  refine (ValueIdx.slice2_axis0_apply 256 X slices_S512x256_S256x256_256_0 (i 0) (i 1) ⟨256 + (i 0).val, by have := ValueIdx.idx2_lt0 i; omega⟩ rfl).trans ?_
  exact (Cert.Spec.lower_ix2 X (i 0) (i 1)).symm

/-- Slice result %0 as region 0 finds it: the upper half of argument 6. -/
theorem V1_main_v0 (c : Dev nD) :
    (V1 m ρ c main_v0 : S256x256.Idx → EReal) = Cert.Spec.upper (m ((c.tc : Thread nD τ).loc main_arg6)) := by
  have e : (V1 m ρ c main_v0 : S256x256.Idx → EReal)
      = extractStridedSlice S256x256 ![0, 0] (m ((c.tc : Thread nD τ).loc main_arg6)) slices_S512x256_S256x256_0_0 := by
    dsimp only [V1, W1, W0, hostOps0]; after_results
  exact e.trans (slice_upper _)

/-- Slice result %1 as region 0 finds it: the lower half of argument 6. -/
theorem V1_main_v1 (c : Dev nD) :
    (V1 m ρ c main_v1 : S256x256.Idx → EReal) = Cert.Spec.lower (m ((c.tc : Thread nD τ).loc main_arg6)) := by
  have e : (V1 m ρ c main_v1 : S256x256.Idx → EReal)
      = extractStridedSlice S256x256 ![256, 0] (m ((c.tc : Thread nD τ).loc main_arg6)) slices_S512x256_S256x256_256_0 := by
    dsimp only [V1, W1, W0, hostOps0]; after_results
  exact e.trans (slice_lower _)

/-- Slice result %2 as region 0 finds it: the upper half of argument 14. -/
theorem V1_main_v2 (c : Dev nD) :
    (V1 m ρ c main_v2 : S256x256.Idx → EReal) = Cert.Spec.upper (m ((c.tc : Thread nD τ).loc main_arg14)) := by
  have e : (V1 m ρ c main_v2 : S256x256.Idx → EReal)
      = extractStridedSlice S256x256 ![0, 0] (m ((c.tc : Thread nD τ).loc main_arg14)) slices_S512x256_S256x256_0_0 := by
    dsimp only [V1, W1, W0, hostOps0]; after_results
  exact e.trans (slice_upper _)

/-- Slice result %3 as region 0 finds it: the lower half of argument 14. -/
theorem V1_main_v3 (c : Dev nD) :
    (V1 m ρ c main_v3 : S256x256.Idx → EReal) = Cert.Spec.lower (m ((c.tc : Thread nD τ).loc main_arg14)) := by
  have e : (V1 m ρ c main_v3 : S256x256.Idx → EReal)
      = extractStridedSlice S256x256 ![256, 0] (m ((c.tc : Thread nD τ).loc main_arg14)) slices_S512x256_S256x256_256_0 := by
    dsimp only [V1, W1, W0, hostOps0]; after_results
  exact e.trans (slice_lower _)

end Cert.KernelRun

end
-- ==== Proof.KernelValue.lean ====
import proofs.«129681_j18940805775799_2_alg».proof.Proof.KernelRun

/-!
  The kernel program's run with both result arrays as the specification's functions of the launch memory.

  Region 0 leaves four projected arrays (the query and key sides, for the importance branch and for the variance
  branch); region 1 reads them and the remaining weights and leaves the logits and the variance.  Each region's
  whole-array fact is taken here as a hypothesis at ARBITRARY entry contents; instantiated at the contents the run
  really enters the regions with, and those contents read back to the launch memory, the two facts compose to the
  specification of the whole program.
-/

set_option maxRecDepth 16384

noncomputable section

namespace Cert.KernelValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelRun

/-- The TensorCores' buffer contents when a region is entered. -/
abbrev VV : Type := (c : Dev nD) → (b : Ref sig .tc) → Buf (Elt Ideal) ((c : Thread nD τ).loc b)

section Parts
variable (m : (ℓ : Loc nD τ sig) → Buf (Elt Ideal) ℓ) (ρ : Dev nD → PrngReg) (c : Dev nD)

/-- The query-side encoder's features at region 0's entry are the launch memory's. -/
theorem featQ_V1 :
    Cert.Spec.feat (V1 m ρ c main_arg0) (V1 m ρ c main_arg2) (V1 m ρ c main_arg3)
      = Cert.Spec.feat (m ((c.tc : Thread nD τ).loc main_arg0)) (m ((c.tc : Thread nD τ).loc main_arg2)) (m ((c.tc : Thread nD τ).loc main_arg3)) := by
  rw [V1_main_arg0 m ρ c, V1_main_arg2 m ρ c, V1_main_arg3 m ρ c]

/-- The key-side encoder's features at region 0's entry are the launch memory's. -/
theorem featK_V1 :
    Cert.Spec.feat (V1 m ρ c main_arg1) (V1 m ρ c main_arg4) (V1 m ρ c main_arg5)
      = Cert.Spec.feat (m ((c.tc : Thread nD τ).loc main_arg1)) (m ((c.tc : Thread nD τ).loc main_arg4)) (m ((c.tc : Thread nD τ).loc main_arg5)) := by
  rw [V1_main_arg1 m ρ c, V1_main_arg4 m ρ c, V1_main_arg5 m ρ c]
end Parts

section Run
variable
    (hq  : ∀ (V : VV) (c : Dev nD), (dat0 (F := Ideal) V c).arrAt 12 cfg0.N = Cert.Spec.arr3 (Cert.Spec.projBias (Cert.Spec.feat (V c main_arg0) (V c main_arg2) (V c main_arg3)) (V c main_v0) (V c main_arg7)))
    (hk  : ∀ (V : VV) (c : Dev nD), (dat0 (F := Ideal) V c).arrAt 13 cfg0.N = Cert.Spec.arr3 (Cert.Spec.proj (Cert.Spec.feat (V c main_arg1) (V c main_arg4) (V c main_arg5)) (V c main_v1)))
    (hqv : ∀ (V : VV) (c : Dev nD), (dat0 (F := Ideal) V c).arrAt 14 cfg0.N = Cert.Spec.arr3 (Cert.Spec.projBias (Cert.Spec.feat (V c main_arg0) (V c main_arg2) (V c main_arg3)) (V c main_v2) (V c main_arg15)))
    (hkv : ∀ (V : VV) (c : Dev nD), (dat0 (F := Ideal) V c).arrAt 15 cfg0.N = Cert.Spec.arr3 (Cert.Spec.proj (Cert.Spec.feat (V c main_arg1) (V c main_arg4) (V c main_arg5)) (V c main_v3)))
    (hl  : ∀ (V : VV) (c : Dev nD), (dat1 (F := Ideal) V c).arrAt 12 cfg1.N = Cert.Spec.arr3 (Cert.Spec.logitsOf (V c main_v4_0) (V c main_v4_1) (V c main_arg8) (V c main_arg9) (V c main_arg10) (V c main_arg11) (V c main_arg12) (V c main_arg13)))
    (hv  : ∀ (V : VV) (c : Dev nD), (dat1 (F := Ideal) V c).arrAt 13 cfg1.N = Cert.Spec.arr3 (Cert.Spec.varianceOf (V c main_v4_2) (V c main_v4_3) (V c main_arg16) (V c main_arg17)))
    (m : (ℓ : Loc nD τ sig) → Buf (Elt Ideal) ℓ) (ρ : Dev nD → PrngReg)

include hq in
/-- Region 0's first output, as region 1 finds it: the query-side projected part of argument 6's upper half. -/
theorem V2_q (c : Dev nD) : V2 m ρ c main_v4_0
    = Cert.Spec.qPart (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7)) := by
  refine (V2_v4_0 m ρ c).trans ((hq (V1 m ρ) c).trans ?_)
  rw [featQ_V1 m ρ c, V1_main_v0 m ρ c, V1_main_arg7 m ρ c]
  rfl

include hk in
/-- Region 0's second output: the key-side projected part of argument 6's lower half. -/
theorem V2_k (c : Dev nD) : V2 m ρ c main_v4_1
    = Cert.Spec.kPart (m ((c.tc : Thread nD τ).loc main_arg1)) (m ((c.tc : Thread nD τ).loc main_arg4)) (m ((c.tc : Thread nD τ).loc main_arg5)) (m ((c.tc : Thread nD τ).loc main_arg6)) := by
  refine (V2_v4_1 m ρ c).trans ((hk (V1 m ρ) c).trans ?_)
  rw [featK_V1 m ρ c, V1_main_v1 m ρ c]
  rfl

include hqv in
/-- Region 0's third output: the query-side projected part of argument 14's upper half. -/
theorem V2_qv (c : Dev nD) : V2 m ρ c main_v4_2
    = Cert.Spec.qPart (m ((c.tc : Thread nD τ).loc main_arg0)) (m ((c.tc : Thread nD τ).loc main_arg2)) (m ((c.tc : Thread nD τ).loc main_arg3)) (m ((c.tc : Thread nD τ).loc main_arg14)) (m ((c.tc : Thread nD τ).loc main_arg15)) := by
  refine (V2_v4_2 m ρ c).trans ((hqv (V1 m ρ) c).trans ?_)
  rw [featQ_V1 m ρ c, V1_main_v2 m ρ c, V1_main_arg15 m ρ c]
  rfl

include hkv in
/-- Region 0's fourth output: the key-side projected part of argument 14's lower half. -/
theorem V2_kv (c : Dev nD) : V2 m ρ c main_v4_3
    = Cert.Spec.kPart (m ((c.tc : Thread nD τ).loc main_arg1)) (m ((c.tc : Thread nD τ).loc main_arg4)) (m ((c.tc : Thread nD τ).loc main_arg5)) (m ((c.tc : Thread nD τ).loc main_arg14)) := by
  refine (V2_v4_3 m ρ c).trans ((hkv (V1 m ρ) c).trans ?_)
  rw [featK_V1 m ρ c, V1_main_v3 m ρ c]
  rfl

include hq hk hqv hkv hl hv in
/-- From any memory with zero counters, every weakly fair execution of the program on the TensorCores terminates,
    nothing faulting; in every final state the first result array holds the importance logits and the second the
    variance, as the specification's functions of the launch memory, and every argument array is as launched. -/
theorem run_of : θ_run defs (onTc (τ := τ) (main (F := Ideal))) ⟨m, fun _ => 0, ρ⟩ (fun r => ∀ c : Dev nD,
      r.2.mem ((c.tc : Thread nD τ).loc main_v5_0) = Cert.Spec.arr3 (Cert.Spec.logitsOf (Cert.Spec.qPart (m ((c.tc : Thread nD τ).loc main_arg0)) (m ((c.tc : Thread nD τ).loc main_arg2)) (m ((c.tc : Thread nD τ).loc main_arg3)) (m ((c.tc : Thread nD τ).loc main_arg6)) (m ((c.tc : Thread nD τ).loc main_arg7))) (Cert.Spec.kPart (m ((c.tc : Thread nD τ).loc main_arg1)) (m ((c.tc : Thread nD τ).loc main_arg4)) (m ((c.tc : Thread nD τ).loc main_arg5)) (m ((c.tc : Thread nD τ).loc main_arg6))) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)))
      ∧ r.2.mem ((c.tc : Thread nD τ).loc main_v5_1) = Cert.Spec.arr3 (Cert.Spec.varianceOf (Cert.Spec.qPart (m ((c.tc : Thread nD τ).loc main_arg0)) (m ((c.tc : Thread nD τ).loc main_arg2)) (m ((c.tc : Thread nD τ).loc main_arg3)) (m ((c.tc : Thread nD τ).loc main_arg14)) (m ((c.tc : Thread nD τ).loc main_arg15))) (Cert.Spec.kPart (m ((c.tc : Thread nD τ).loc main_arg1)) (m ((c.tc : Thread nD τ).loc main_arg4)) (m ((c.tc : Thread nD τ).loc main_arg5)) (m ((c.tc : Thread nD τ).loc main_arg14))) (m ((c.tc : Thread nD τ).loc main_arg16)) (m ((c.tc : Thread nD τ).loc main_arg17)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine (θ_run defs _ _).mono (fun r h c => ⟨((h c).1).trans ?_, ((h c).2.1).trans ?_, (h c).2.2⟩) (run_named m ρ)
  · refine (W3_v5_0 m ρ c).trans ((hl (V2 m ρ) c).trans ?_)
    rw [V2_q hq m ρ c, V2_k hk m ρ c, V2_main_arg8 m ρ c, V2_main_arg9 m ρ c, V2_main_arg10 m ρ c,
      V2_main_arg11 m ρ c, V2_main_arg12 m ρ c, V2_main_arg13 m ρ c]
  · refine (W3_v5_1 m ρ c).trans ((hv (V2 m ρ) c).trans ?_)
    rw [V2_qv hqv m ρ c, V2_kv hkv m ρ c, V2_main_arg16 m ρ c, V2_main_arg17 m ρ c]

end Run

end Cert.KernelValue

end
-- ==== Proof.lean ====
/-
  The certificate of a two-stage pairwise scorer against its array-language reference.

  Both programs take query rows (b, q) and key rows (b, k), encode each row by a rectified affine map, project the two
  feature arrays by the two halves of a first-layer weight, and for every pair (b, q, k) add the two projections, rectify,
  and run a small network: two more rectified layers and a linear head for the importance logits; a linear head followed
  by softplus for the variance.  The kernel program does the encoders and projections once per batch in a first stage
  (folding the first layer's bias into the query side) and the pairwise network block by block in a second stage; the
  reference does the same arithmetic on whole arrays and adds the bias after the two projections.

  Over the extended reals the two results are the same functions of the arguments (Spec.lean): a change of float format
  is the identity, a matrix product into zeros and a sum over the last axis are plain sums, the two bias placements agree
  because addition is commutative and associative, and the softplus guard against a value differing from itself never
  fires.  No finiteness of the inputs is used.

  The three frame claims are the programs' own runs with the results forgotten; nothing of the kernel was rewritten when
  it was idealized, so there is nothing to preserve.
-/
import proofs.«129681_j18940805775799_2_alg».proof.Defs
import proofs.«129681_j18940805775799_2_alg».proof.Proof.Gen.Kernel
import proofs.«129681_j18940805775799_2_alg».proof.Proof.Gen.Kernel.Skeleton
import proofs.«129681_j18940805775799_2_alg».proof.Proof.Gen.Kernel.Launch
import proofs.«129681_j18940805775799_2_alg».proof.Proof.Gen.Kernel.Points
import proofs.«129681_j18940805775799_2_alg».proof.Proof.Gen.Kernel.Frame
import proofs.«129681_j18940805775799_2_alg».proof.Proof.Gen.KernelIdeal
import proofs.«129681_j18940805775799_2_alg».proof.Proof.Gen.KernelIdeal.Skeleton
import proofs.«129681_j18940805775799_2_alg».proof.Proof.Gen.KernelIdeal.Launch
import proofs.«129681_j18940805775799_2_alg».proof.Proof.Gen.KernelIdeal.Points
import proofs.«129681_j18940805775799_2_alg».proof.Proof.Gen.KernelIdeal.Frame
import proofs.«129681_j18940805775799_2_alg».proof.Proof.Gen.ReferenceIdeal
import proofs.«129681_j18940805775799_2_alg».proof.Proof.Gen.Pre_finite_inputs
import proofs.«129681_j18940805775799_2_alg».proof.Proof.Gen.ReferenceIdeal.Run
import proofs.«129681_j18940805775799_2_alg».proof.Proof.Gen.ReferenceIdeal.Read
import proofs.«129681_j18940805775799_2_alg».proof.Proof.RefSpec
import proofs.«129681_j18940805775799_2_alg».proof.Proof.Encode
import proofs.«129681_j18940805775799_2_alg».proof.Proof.Pairwise
import proofs.«129681_j18940805775799_2_alg».proof.Proof.KernelValue
import Idealize.ShloMosaic.Adequacy
import Idealize.ShloMosaic.Init

noncomputable section

namespace Cert.Proof

open Idealize.ShloMosaic Idealize.ShloMosaic.TcCoe Idealize.SL.Sem

/-- The word-level kernel program runs to the end without a fault and leaves its arguments alone. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- And the idealized reference: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Idealizing the kernel rewrote nothing. -/
theorem preserves : Cert.preserves_Kernel_KernelIdeal := trivial

/-- Over the extended reals, from memories that agree on the arguments, the kernel program ends with the specification's
    logits and variance of its arguments, and the reference with the same two functions of its own. -/
theorem algebraic : Cert.algebraic_KernelIdeal_ReferenceIdeal := by
  intro m ρ m' ρ' _ hagree
  refine ⟨_, _, Cert.KernelValue.run_of Cert.Encode.qpart_final Cert.Encode.kpart_final Cert.Encode.qvpart_final
    Cert.Encode.kvpart_final Cert.Pairwise.logits_final Cert.Pairwise.variance_final m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10, h11, h12, h13, h14, h15, h16, h17⟩ := hagree c
    refine (Cert.ReferenceIdeal.Read.val_main_v37_eq _ _ _ _ _ _ _ _ _ _ _ _ _ _).trans ?_
    refine (Cert.RefSpec.logits_eq _ _ _ _ _ _ _ _ _ _ _ _ _ _).trans ?_
    rw [h0, h1, h2, h3, h4, h5, h6, h7, h8, h9, h10, h11, h12, h13]
  · obtain ⟨h0, h1, h2, h3, h4, h5, h6, h7, h8, h9, h10, h11, h12, h13, h14, h15, h16, h17⟩ := hagree c
    refine (Cert.ReferenceIdeal.Read.val_main_v56_eq m' c).trans ?_
    refine (Cert.RefSpec.variance_eq _ _ _ _ _ _ _ _ _ _).trans ?_
    rw [h0, h1, h2, h3, h4, h5, h14, h15, h16, h17]

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
